-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S100000x1 : Shape := ⟨2, ![100000, 1]⟩
abbrev S100000x256 : Shape := ⟨2, ![100000, 256]⟩
abbrev S256x64 : Shape := ⟨2, ![256, 64]⟩
abbrev S192x64 : Shape := ⟨2, ![192, 64]⟩
abbrev S64 : Shape := ⟨1, ![64]⟩
abbrev S64x32 : Shape := ⟨2, ![64, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_
  bcast_S_S100000x256 : S_.BroadcastsInDim S100000x256 (![] : Fin 0 → Fin S100000x256.rank)
  reducesTo_S100000x256_S_d0_1 : S100000x256.ReducesTo [0, 1] S_
  bcast_S_S256x64 : S_.BroadcastsInDim S256x64 (![] : Fin 0 → Fin S256x64.rank)
  reducesTo_S256x64_S_d0_1 : S256x64.ReducesTo [0, 1] S_
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg15 : FVec F S32x32 .f32) (main_arg16 : FVec F S32 .f32) (main_arg17 : FVec F S32x1 .f32) (main_arg18 : FVec F S1 .f32) (main_v63 : IVec S_ 1) (main_v67 : IVec S_ 1) : IVec S_ 1 :=
  let main_v68 : IVec S_ 1 := andi main_v63 main_v67
  let main_v69 : FVec F S32x32 .f32 := Host.absf main_arg15
  let main_cst_26 : FVec F S_ .f32 := constant S_ .f32 0x7F800000#32
  let main_v70 : FVec F S32x32 .f32 := broadcastInDim S32x32 ![] bcast_S_S32x32 main_cst_26
  let main_v71 : IVec S32x32 1 := cmpf .olt main_v69 main_v70
  let main_c_27 : IVec S_ 1 := constantI S_ 1 1#1
  let main_v72 : IVec S_ 1 := (fun x v => Host.reduce IntOp.andi x v reducesTo_S32x32_S_d0_1 h_S_) main_v71 main_c_27
  let main_v73 : IVec S_ 1 := andi main_v68 main_v72
  let main_v74 : FVec F S32 .f32 := Host.absf main_arg16
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S32x1 .f32 := Host.absf main_arg17
  let main_cst_30 : FVec F S_ .f32 := constant S_ .f32 0x7F800000#32
  let main_v80 : FVec F S32x1 .f32 := broadcastInDim S32x1 ![] bcast_S_S32x1 main_cst_30
  let main_v81 : IVec S32x1 1 := cmpf .olt main_v79 main_v80
  let main_c_31 : IVec S_ 1 := constantI S_ 1 1#1
  let main_v82 : IVec S_ 1 := (fun x v => Host.reduce IntOp.andi x v reducesTo_S32x1_S_d0_1 h_S_) main_v81 main_c_31
  let main_v83 : IVec S_ 1 := andi main_v78 main_v82
  let main_v84 : FVec F S1 .f32 := Host.absf main_arg18
  let main_cst_32 : FVec F S_ .f32 := constant S_ .f32 0x7F800000#32
  fn_part5 (F := F) main_v83 main_v84 main_cst_32

def fn_part3 {F : FTy → Type} [FloatOps F] (main_arg12 : FVec F S32 .f32) (main_arg13 : FVec F S32x32 .f32) (main_arg14 : FVec F S32 .f32) (main_arg15 : FVec F S32x32 .f32) (main_arg16 : FVec F S32 .f32) (main_arg17 : FVec F S32x1 .f32) (main_arg18 : FVec F S1 .f32) (main_v48 : IVec S_ 1) (main_v49 : FVec F S32x32 .f32) (main_v50 : FVec F S32x32 .f32) : IVec S_ 1 :=
  let main_v51 : IVec S32x32 1 := cmpf .olt main_v49 main_v50
  let main_c_19 : IVec S_ 1 := constantI S_ 1 1#1
  let main_v52 : IVec S_ 1 := (fun x v => Host.reduce IntOp.andi x v reducesTo_S32x32_S_d0_1 h_S_) main_v51 main_c_19
  let main_v53 : IVec S_ 1 := andi main_v48 main_v52
  let main_v54 : FVec F S32 .f32 := Host.absf main_arg12
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x32 .f32 := Host.absf main_arg13
  let main_cst_22 : FVec F S_ .f32 := constant S_ .f32 0x7F800000#32
  let main_v60 : FVec F S32x32 .f32 := broadcastInDim S32x32 ![] bcast_S_S32x32 main_cst_22
  let main_v61 : IVec S32x32 1 := cmpf .olt main_v59 main_v60
  let main_c_23 : IVec S_ 1 := constantI S_ 1 1#1
  let main_v62 : IVec S_ 1 := (fun x v => Host.reduce IntOp.andi x v reducesTo_S32x32_S_d0_1 h_S_) main_v61 main_c_23
  let main_v63 : IVec S_ 1 := andi main_v58 main_v62
  let main_v64 : FVec F S32 .f32 := Host.absf main_arg14
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg15 main_arg16 main_arg17 main_arg18 main_v63 main_v67

def fn_part2 {F : FTy → Type} [FloatOps F] (main_arg8 : FVec F S32 .f32) (main_arg9 : FVec F S32x32 .f32) (main_arg10 : FVec F S32 .f32) (main_arg11 : FVec F S32x32 .f32) (main_arg12 : FVec F S32 .f32) (main_arg13 : FVec F S32x32 .f32) (main_arg14 : FVec F S32 .f32) (main_arg15 : FVec F S32x32 .f32) (main_arg16 : FVec F S32 .f32) (main_arg17 : FVec F S32x1 .f32) (main_arg18 : FVec F S1 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x32 .f32 := Host.absf main_arg9
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x32 .f32 := Host.absf main_arg11
  let main_cst_18 : FVec F S_ .f32 := constant S_ .f32 0x7F800000#32
  let main_v50 : FVec F S32x32 .f32 := broadcastInDim S32x32 ![] bcast_S_S32x32 main_cst_18
  fn_part3 (F := F) main_arg12 main_arg13 main_arg14 main_arg15 main_arg16 main_arg17 main_arg18 main_v48 main_v49 main_v50

def fn_part1 {F : FTy → Type} [FloatOps F] (main_arg5 : FVec F S192x64 .f32) (main_arg6 : FVec F S64 .f32) (main_arg7 : FVec F S64x32 .f32) (main_arg8 : FVec F S32 .f32) (main_arg9 : FVec F S32x32 .f32) (main_arg10 : FVec F S32 .f32) (main_arg11 : FVec F S32x32 .f32) (main_arg12 : FVec F S32 .f32) (main_arg13 : FVec F S32x32 .f32) (main_arg14 : FVec F S32 .f32) (main_arg15 : FVec F S32x32 .f32) (main_arg16 : FVec F S32 .f32) (main_arg17 : FVec F S32x1 .f32) (main_arg18 : FVec F S1 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S192x64 .f32 := Host.absf main_arg5
  let main_cst_6 : FVec F S_ .f32 := constant S_ .f32 0x7F800000#32
  let main_v20 : FVec F S192x64 .f32 := broadcastInDim S192x64 ![] bcast_S_S192x64 main_cst_6
  let main_v21 : IVec S192x64 1 := cmpf .olt main_v19 main_v20
  let main_c_7 : IVec S_ 1 := constantI S_ 1 1#1
  let main_v22 : IVec S_ 1 := (fun x v => Host.reduce IntOp.andi x v reducesTo_S192x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x32 .f32 := Host.absf main_arg7
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S100000x128 .f32) (main_arg1 : IVec S2x3200000 32) (main_arg2 : FVec F S100000x1 .f32) (main_arg3 : FVec F S100000x256 .f32) (main_arg4 : FVec F S256x64 .f32) (main_arg5 : FVec F S192x64 .f32) (main_arg6 : FVec F S64 .f32) (main_arg7 : FVec F S64x32 .f32) (main_arg8 : FVec F S32 .f32) (main_arg9 : FVec F S32x32 .f32) (main_arg10 : FVec F S32 .f32) (main_arg11 : FVec F S32x32 .f32) (main_arg12 : FVec F S32 .f32) (main_arg13 : FVec F S32x32 .f32) (main_arg14 : FVec F S32 .f32) (main_arg15 : FVec F S32x32 .f32) (main_arg16 : FVec F S32 .f32) (main_arg17 : FVec F S32x1 .f32) (main_arg18 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x1 .f32 := Host.absf main_arg2
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S100000x256 .f32 := Host.absf main_arg3
  let main_cst_2 : FVec F S_ .f32 := constant S_ .f32 0x7F800000#32
  let main_v10 : FVec F S100000x256 .f32 := broadcastInDim S100000x256 ![] bcast_S_S100000x256 main_cst_2
  let main_v11 : IVec S100000x256 1 := cmpf .olt main_v9 main_v10
  let main_c_3 : IVec S_ 1 := constantI S_ 1 1#1
  let main_v12 : IVec S_ 1 := (fun x v => Host.reduce IntOp.andi x v reducesTo_S100000x256_S_d0_1 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S100000x128 : Shape := ⟨2, ![100000, 128]⟩
abbrev S2x3200000 : Shape := ⟨2, ![2, 3200000]⟩
abbrev S100000x1 : Shape := ⟨2, ![100000, 1]⟩
abbrev S100000x256 : Shape := ⟨2, ![100000, 256]⟩
abbrev S256x64 : Shape := ⟨2, ![256, 64]⟩
abbrev S192x64 : Shape := ⟨2, ![192, 64]⟩
abbrev S64 : Shape := ⟨1, ![64]⟩
abbrev S64x32 : Shape := ⟨2, ![64, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S128x64 : Shape := ⟨2, ![128, 64]⟩
abbrev S64x64 : Shape := ⟨2, ![64, 64]⟩
abbrev S1x64 : Shape := ⟨2, ![1, 64]⟩
abbrev S1x32 : Shape := ⟨2, ![1, 32]⟩
abbrev S1x1 : Shape := ⟨2, ![1, 1]⟩
abbrev S100000x32 : Shape := ⟨2, ![100000, 32]⟩
abbrev S5000x128 : Shape := ⟨2, ![5000, 128]⟩
abbrev S5000x256 : Shape := ⟨2, ![5000, 256]⟩
abbrev S5000x32 : Shape := ⟨2, ![5000, 32]⟩
abbrev S5000x64 : Shape := ⟨2, ![5000, 64]⟩
abbrev S3200000x32 : Shape := ⟨2, ![3200000, 32]⟩
abbrev S5000x1 : Shape := ⟨2, ![5000, 1]⟩

abbrev nBuf : Space → Nat
  | .hbm => 114
  | .vmem => 48
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S100000x1, .f32⟩
  | .hbm, ⟨3, _⟩ => ⟨S100000x256, .f32⟩
  | .hbm, ⟨4, _⟩ => ⟨S256x64, .f32⟩
  | .hbm, ⟨5, _⟩ => ⟨S192x64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S32x32, .f32⟩
  | .hbm, ⟨10, _⟩ => ⟨S32, .f32⟩
  | .hbm, ⟨11, _⟩ => ⟨S32x32, .f32⟩
  | .hbm, ⟨12, _⟩ => ⟨S32, .f32⟩
  | .hbm, ⟨13, _⟩ => ⟨S32x32, .f32⟩
  | .hbm, ⟨14, _⟩ => ⟨S32, .f32⟩
  | .hbm, ⟨15, _⟩ => ⟨S32x32, .f32⟩
  | .hbm, ⟨16, _⟩ => ⟨S32, .f32⟩
  | .hbm, ⟨17, _⟩ => ⟨S32x1, .f32⟩
  | .hbm, ⟨18, _⟩ => ⟨S1, .f32⟩
  | .hbm, ⟨19, _⟩ => ⟨S1x3200000, .i32⟩
  | .hbm, ⟨20, _⟩ => ⟨S3200000, .i32⟩
  | .hbm, ⟨21, _⟩ => ⟨S1x3200000, .i32⟩
  | .hbm, ⟨22, _⟩ => ⟨S3200000, .i32⟩
  | .hbm, ⟨23, _⟩ => ⟨S_, .f32⟩
  | .hbm, ⟨24, _⟩ => ⟨S3200000, .f32⟩
  | .hbm, ⟨25, _⟩ => ⟨S_, .f32⟩
  | .hbm, ⟨26, _⟩ => ⟨S100000, .f32⟩
  | .hbm, ⟨27, _⟩ => ⟨S3200000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .i32⟩
  | .hbm, ⟨36, _⟩ => ⟨S3200000, .i32⟩
  | .hbm, ⟨37, _⟩ => ⟨S3200000, .i1⟩
  | .hbm, ⟨38, _⟩ => ⟨S_, .i32⟩
  | .hbm, ⟨39, _⟩ => ⟨S3200000, .i32⟩
  | .hbm, ⟨40, _⟩ => ⟨S3200000, .i32⟩
  | .hbm, ⟨41, _⟩ => ⟨S3200000, .i32⟩
  | .hbm, ⟨42, _⟩ => ⟨S3200000x1, .i32⟩
  | .hbm, ⟨43, _⟩ => ⟨S3200000, .f32⟩
  | .hbm, ⟨44, _⟩ => ⟨S_, .i32⟩
  | .hbm, ⟨45, _⟩ => ⟨S3200000, .i32⟩
  | .hbm, ⟨46, _⟩ => ⟨S3200000, .i1⟩
  | .hbm, ⟨47, _⟩ => ⟨S_, .i32⟩
  | .hbm, ⟨48, _⟩ => ⟨S3200000, .i32⟩
  | .hbm, ⟨49, _⟩ => ⟨S3200000, .i32⟩
  | .hbm, ⟨50, _⟩ => ⟨S3200000, .i32⟩
  | .hbm, ⟨51, _⟩ => ⟨S3200000x1, .i32⟩
  | .hbm, ⟨52, _⟩ => ⟨S3200000, .f32⟩
  | .hbm, ⟨53, _⟩ => ⟨S3200000, .f32⟩
  | .hbm, ⟨54, _⟩ => ⟨S3200000x1, .f32⟩
  | .hbm, ⟨55, _⟩ => ⟨S100000x1, .f32⟩
  | .hbm, ⟨56, _⟩ => ⟨S128x64, .f32⟩
  | .hbm, ⟨57, _⟩ => ⟨S64x64, .f32⟩
  | .hbm, ⟨58, _⟩ => ⟨S1x64, .f32⟩
  | .hbm, ⟨59, _⟩ => ⟨S1x32, .f32⟩
  | .hbm, ⟨60, _⟩ => ⟨S1x32, .f32⟩
  | .hbm, ⟨61, _⟩ => ⟨S1x32, .f32⟩
  | .hbm, ⟨62, _⟩ => ⟨S1x32, .f32⟩
  | .hbm, ⟨63, _⟩ => ⟨S1x32, .f32⟩
  | .hbm, ⟨64, _⟩ => ⟨S1x1, .f32⟩
  | .hbm, ⟨65, _⟩ => ⟨S100000x32, .f32⟩
  | .hbm, ⟨66, _⟩ => ⟨S_, .i32⟩
  | .hbm, ⟨67, _⟩ => ⟨S3200000, .i32⟩
  | .hbm, ⟨68, _⟩ => ⟨S3200000, .i1⟩
  | .hbm, ⟨69, _⟩ => ⟨S_, .i32⟩
  | .hbm, ⟨70, _⟩ => ⟨S3200000, .i32⟩
  | .hbm, ⟨71, _⟩ => ⟨S3200000, .i32⟩
  | .hbm, ⟨72, _⟩ => ⟨S3200000, .i32⟩
  | .hbm, ⟨73, _⟩ => ⟨S3200000x1, .i32⟩
  | .hbm, ⟨74, _⟩ => ⟨S3200000x32, .f32⟩
  | .hbm, ⟨75, _⟩ => ⟨S3200000x32, .f32⟩
  | .hbm, ⟨76, _⟩ => ⟨S3200000x32, .f32⟩
  | .hbm, ⟨77, _⟩ => ⟨S_, .f32⟩
  | .hbm, ⟨78, _⟩ => ⟨S100000x32, .f32⟩
  | .hbm, ⟨79, _⟩ => ⟨S3200000x1, .i32⟩
  | .hbm, ⟨80, _⟩ => ⟨S100000x32, .f32⟩
  | .hbm, ⟨81, _⟩ => ⟨S100000x32, .f32⟩
  | .hbm, ⟨82, _⟩ => ⟨S_, .i32⟩
  | .hbm, ⟨83, _⟩ => ⟨S3200000, .i32⟩
  | .hbm, ⟨84, _⟩ => ⟨S3200000, .i1⟩
  | .hbm, ⟨85, _⟩ => ⟨S_, .i32⟩
  | .hbm, ⟨86, _⟩ => ⟨S3200000, .i32⟩
  | .hbm, ⟨87, _⟩ => ⟨S3200000, .i32⟩
  | .hbm, ⟨88, _⟩ => ⟨S3200000, .i32⟩
  | .hbm, ⟨89, _⟩ => ⟨S3200000x1, .i32⟩
  | .hbm, ⟨90, _⟩ => ⟨S3200000x32, .f32⟩
  | .hbm, ⟨91, _⟩ => ⟨S3200000x32, .f32⟩
  | .hbm, ⟨92, _⟩ => ⟨S3200000x32, .f32⟩
  | .hbm, ⟨93, _⟩ => ⟨S_, .f32⟩
  | .hbm, ⟨94, _⟩ => ⟨S100000x32, .f32⟩
  | .hbm, ⟨95, _⟩ => ⟨S3200000x1, .i32⟩
  | .hbm, ⟨96, _⟩ => ⟨S100000x32, .f32⟩
  | .hbm, ⟨97, _⟩ => ⟨S100000x32, .f32⟩
  | .hbm, ⟨98, _⟩ => ⟨S_, .i32⟩
  | .hbm, ⟨99, _⟩ => ⟨S3200000, .i32⟩
  | .hbm, ⟨100, _⟩ => ⟨S3200000, .i1⟩
  | .hbm, ⟨101, _⟩ => ⟨S_, .i32⟩
  | .hbm, ⟨102, _⟩ => ⟨S3200000, .i32⟩
  | .hbm, ⟨103, _⟩ => ⟨S3200000, .i32⟩
  | .hbm, ⟨104, _⟩ => ⟨S3200000, .i32⟩
  | .hbm, ⟨105, _⟩ => ⟨S3200000x1, .i32⟩
  | .hbm, ⟨106, _⟩ => ⟨S3200000x32, .f32⟩
  | .hbm, ⟨107, _⟩ => ⟨S3200000x32, .f32⟩
  | .hbm, ⟨108, _⟩ => ⟨S3200000x32, .f32⟩
  | .hbm, ⟨109, _⟩ => ⟨S_, .f32⟩
  | .hbm, ⟨110, _⟩ => ⟨S100000x32, .f32⟩
  | .hbm, ⟨111, _⟩ => ⟨S3200000x1, .i32⟩
  | .hbm, ⟨112, _⟩ => ⟨S100000x32, .f32⟩
  | .hbm, ⟨113, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S5000x256, .f32⟩
  | .local _ .vmem, ⟨3, _⟩ => ⟨S5000x256, .f32⟩
  | .local _ .vmem, ⟨4, _⟩ => ⟨S256x64, .f32⟩
  | .local _ .vmem, ⟨5, _⟩ => ⟨S128x64, .f32⟩
  | .local _ .vmem, ⟨6, _⟩ => ⟨S64x64, .f32⟩
  | .local _ .vmem, ⟨7, _⟩ => ⟨S1x64, .f32⟩
  | .local _ .vmem, ⟨8, _⟩ => ⟨S64x32, .f32⟩
  | .local _ .vmem, ⟨9, _⟩ => ⟨S1x32, .f32⟩
  | .local _ .vmem, ⟨10, _⟩ => ⟨S32x32, .f32⟩
  | .local _ .vmem, ⟨11, _⟩ => ⟨S5000x32, .f32⟩
  | .local _ .vmem, ⟨12, _⟩ => ⟨S5000x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S5000x1, .f32⟩
  | .local _ .vmem, ⟨18, _⟩ => ⟨S5000x1, .f32⟩
  | .local _ .vmem, ⟨19, _⟩ => ⟨S1x32, .f32⟩
  | .local _ .vmem, ⟨20, _⟩ => ⟨S32x32, .f32⟩
  | .local _ .vmem, ⟨21, _⟩ => ⟨S5000x32, .f32⟩
  | .local _ .vmem, ⟨22, _⟩ => ⟨S5000x32, .f32⟩
  | .local _ .vmem, ⟨23, _⟩ => ⟨S5000x32, .f32⟩
  | .local _ .vmem, ⟨24, _⟩ => ⟨S5000x32, .f32⟩
  | .local _ .vmem, ⟨25, _⟩ => ⟨S5000x32, .f32⟩
  | .local _ .vmem, ⟨26, _⟩ => ⟨S5000x32, .f32⟩
  | .local _ .vmem, ⟨27, _⟩ => ⟨S5000x1, .f32⟩
  | .local _ .vmem, ⟨28, _⟩ => ⟨S5000x1, .f32⟩
  | .local _ .vmem, ⟨29, _⟩ => ⟨S1x32, .f32⟩
  | .local _ .vmem, ⟨30, _⟩ => ⟨S32x32, .f32⟩
  | .local _ .vmem, ⟨31, _⟩ => ⟨S5000x32, .f32⟩
  | .local _ .vmem, ⟨32, _⟩ => ⟨S5000x32, .f32⟩
  | .local _ .vmem, ⟨33, _⟩ => ⟨S5000x32, .f32⟩
  | .local _ .vmem, ⟨34, _⟩ => ⟨S5000x32, .f32⟩
  | .local _ .vmem, ⟨35, _⟩ => ⟨S5000x32, .f32⟩
  | .local _ .vmem, ⟨36, _⟩ => ⟨S5000x32, .f32⟩
  | .local _ .vmem, ⟨37, _⟩ => ⟨S5000x1, .f32⟩
  | .local _ .vmem, ⟨38, _⟩ => ⟨S5000x1, .f32⟩
  | .local _ .vmem, ⟨39, _⟩ => ⟨S1x32, .f32⟩
  | .local _ .vmem, ⟨40, _⟩ => ⟨S32x32, .f32⟩
  | .local _ .vmem, ⟨41, _⟩ => ⟨S1x32, .f32⟩
  | .local _ .vmem, ⟨42, _⟩ => ⟨S32x1, .f32⟩
  | .local _ .vmem, ⟨43, _⟩ => ⟨S1x1, .f32⟩
  | .local _ .vmem, ⟨44, _⟩ => ⟨S5000x1, .f32⟩
  | .local _ .vmem, ⟨45, _⟩ => ⟨S5000x1, .f32⟩
  | .local _ .vmem, ⟨46, _⟩ => ⟨S5000x1, .f32⟩
  | .local _ .vmem, ⟨47, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_cst_2 : Ref sig .tc := ⟨.hbm, 32, rfl⟩
abbrev main_v10 : Ref sig .tc := ⟨.hbm, 33, rfl⟩
abbrev main_v11 : Ref sig .tc := ⟨.hbm, 34, rfl⟩
abbrev main_c : Ref sig .tc := ⟨.hbm, 35, rfl⟩
abbrev main_v12 : Ref sig .tc := ⟨.hbm, 36, rfl⟩
abbrev main_v13 : Ref sig .tc := ⟨.hbm, 37, rfl⟩
abbrev main_c_3 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_c_4 : Ref sig .tc := ⟨.hbm, 44, rfl⟩
abbrev main_v19 : Ref sig .tc := ⟨.hbm, 45, rfl⟩
abbrev main_v20 : Ref sig .tc := ⟨.hbm, 46, rfl⟩
abbrev main_c_5 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_c_6 : Ref sig .tc := ⟨.hbm, 66, rfl⟩
abbrev main_v39 : Ref sig .tc := ⟨.hbm, 67, rfl⟩
abbrev main_v40 : Ref sig .tc := ⟨.hbm, 68, rfl⟩
abbrev main_c_7 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_8 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_c_9 : Ref sig .tc := ⟨.hbm, 82, rfl⟩
abbrev main_v52 : Ref sig .tc := ⟨.hbm, 83, rfl⟩
abbrev main_v53 : Ref sig .tc := ⟨.hbm, 84, rfl⟩
abbrev main_c_10 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_11 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_c_12 : Ref sig .tc := ⟨.hbm, 98, rfl⟩
abbrev main_v65 : Ref sig .tc := ⟨.hbm, 99, rfl⟩
abbrev main_v66 : Ref sig .tc := ⟨.hbm, 100, rfl⟩
abbrev main_c_13 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_14 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg5_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg5_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg7_0 : Ref sig .tc := ⟨.vmem, 43, rfl⟩
abbrev cc3_stg8_0 : Ref sig .tc := ⟨.vmem, 44, rfl⟩
abbrev cc3_stg8_1 : Ref sig .tc := ⟨.vmem, 45, rfl⟩
abbrev cc3_stg9_0 : Ref sig .tc := ⟨.vmem, 46, rfl⟩
abbrev cc3_stg9_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem5_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem4_0 : DmaSem sig := 30
abbrev cc2_sem5_0 : DmaSem sig := 31
abbrev cc2_sem5_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem7_0 : DmaSem sig := 43
abbrev cc3_sem8_0 : DmaSem sig := 44
abbrev cc3_sem8_1 : DmaSem sig := 45
abbrev cc3_sem9_0 : DmaSem sig := 46
abbrev cc3_sem9_1 : DmaSem sig := 47

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S32x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x32 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S32x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S5000x1 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S5000x1 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  slices_S192x64_S128x64_0_0 : S192x64.Slices ![0, 0] S128x64
  slices_S192x64_S64x64_128_0 : S192x64.Slices ![128, 0] S64x64
  shapeCasts_S64_S1x64 : S64.ShapeCasts S1x64
  shapeCasts_S32_S1x32 : S32.ShapeCasts S1x32
  shapeCasts_S1_S1x1 : S1.ShapeCasts S1x1
  inb_S5000x128_S5000x128_0_0 : ∀ a, (![0, 0] : Fin 2 → Nat) a + S5000x128.size a ≤ S5000x128.size a
  h_S5000x128 : 0 < S5000x128.numel
  inb_S5000x256_S5000x256_0_0 : ∀ a, (![0, 0] : Fin 2 → Nat) a + S5000x256.size a ≤ S5000x256.size a
  h_S5000x256 : 0 < S5000x256.numel
  inb_S256x64_S256x64_0_0 : ∀ a, (![0, 0] : Fin 2 → Nat) a + S256x64.size a ≤ S256x64.size a
  h_S256x64 : 0 < S256x64.numel
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x32_S32x32_0_0 : ∀ a, (![0, 0] : Fin 2 → Nat) a + S32x32.size a ≤ S32x32.size a
  h_S32x32 : 0 < S32x32.numel
  inb_S5000x32_S5000x32_0_0 : ∀ a, (![0, 0] : Fin 2 → Nat) a + S5000x32.size a ≤ S5000x32.size a
  h_S5000x32 : 0 < S5000x32.numel
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  shapeCasts_S5000x32_S5000x32 : S5000x32.ShapeCasts S5000x32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x32 : S5000x1.Broadcasts S5000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S5000x256_S256x64_S5000x64_1_0_0_1_n_n_wf : DotDims.WF S5000x256 S256x64 S5000x64 [1] [0] [0] [1] [] []
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  dot_S5000x32_S32x32_S5000x32_1_0_0_1_n_n_wf : DotDims.WF S5000x32 S32x32 S5000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S5000x32_S32x1_S5000x1_1_0_0_1_n_n_wf : DotDims.WF S5000x32 S32x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x256.size a ≤ S100000x256.size a
  hwx0_1 : ∀ i : grid0.Coords, EltTy.bits .f32 = 32 ∨ (Rect.block (s := S100000x256) S5000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S256x64.size a
  hwx0_2 : ∀ i : grid0.Coords, EltTy.bits .f32 = 32 ∨ (Rect.block (s := S256x64) S256x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x32.size a ≤ S64x32.size a
  hwx0_6 : ∀ i : grid0.Coords, EltTy.bits .f32 = 32 ∨ (Rect.block (s := S64x32) S64x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x32.size a ≤ S32x32.size a
  hwx0_8 : ∀ i : grid0.Coords, EltTy.bits .f32 = 32 ∨ (Rect.block (s := S32x32) S32x32.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x32.size a ≤ S100000x32.size a
  hwx0_9 : ∀ i : grid0.Coords, EltTy.bits .f32 = 32 ∨ (Rect.block (s := S100000x32) S5000x32.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x32.size a ≤ S32x32.size a
  hwx1_4 : ∀ i : grid1.Coords, EltTy.bits .f32 = 32 ∨ (Rect.block (s := S32x32) S32x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x32.size a ≤ S100000x32.size a
  hwx1_5 : ∀ i : grid1.Coords, EltTy.bits .f32 = 32 ∨ (Rect.block (s := S100000x32) S5000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x32.size a ≤ S100000x32.size a
  hwx2_1 : ∀ i : grid2.Coords, EltTy.bits .f32 = 32 ∨ (Rect.block (s := S100000x32) S5000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x32.size a ≤ S32x32.size a
  hwx2_4 : ∀ i : grid2.Coords, EltTy.bits .f32 = 32 ∨ (Rect.block (s := S32x32) S32x32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x32.size a ≤ S100000x32.size a
  hwx2_5 : ∀ i : grid2.Coords, EltTy.bits .f32 = 32 ∨ (Rect.block (s := S100000x32) S5000x32.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x32.size a ≤ S100000x32.size a
  hwx3_1 : ∀ i : grid3.Coords, EltTy.bits .f32 = 32 ∨ (Rect.block (s := S100000x32) S5000x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S32x32.size a ≤ S32x32.size a
  hwx3_4 : ∀ i : grid3.Coords, EltTy.bits .f32 = 32 ∨ (Rect.block (s := S32x32) S32x32.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x32.size a ≤ S1x32.size a
  hwx3_5 : ∀ i : grid3.Coords, EltTy.bits .f32 = 32 ∨ (Rect.block (s := S1x32) S1x32.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S32x1.size a ≤ S32x1.size a
  hwx3_6 : ∀ i : grid3.Coords, EltTy.bits .f32 = 32 ∨ (Rect.block (s := S32x1) S32x1.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x1.size a ≤ S1x1.size a
  hwx3_7 : ∀ i : grid3.Coords, EltTy.bits .f32 = 32 ∨ (Rect.block (s := S1x1) S1x1.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S5000x1.size a ≤ S100000x1.size a
  hwx3_8 : ∀ i : grid3.Coords, EltTy.bits .f32 = 32 ∨ (Rect.block (s := S100000x1) S5000x1.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S5000x1.size a ≤ S100000x1.size a
  hwx3_9 : ∀ i : grid3.Coords, EltTy.bits .f32 = 32 ∨ (Rect.block (s := S100000x1) S5000x1.size (cc3_transform_9 i) (hinb3_9 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S5000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S64x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v32) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S32x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v38) S5000x32.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v50) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S32x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v51) S5000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v63) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S5000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v34) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg13) S32x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v64) S5000x32.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v76) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S5000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v28) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v35) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg15) S32x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v36) S1x32.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg17) S32x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v37) S1x1.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg2) S5000x1.size cc3_transform_8 reads3_8 false false 2 stage3_8 sem3_8
    hrank3 hreads3_8 hinb3_8 nbuf3_8 (Memref.isWhole_whole _) hwx3_8 hstage3_8

abbrev win3_9 : Pipeline.Window sig grid3 :=
  Pipeline.Window.ofSpec (Memref.whole main_v77) S5000x1.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S100000x1 : Shape := ⟨2, ![100000, 1]⟩
abbrev S100000x256 : Shape := ⟨2, ![100000, 256]⟩
abbrev S256x64 : Shape := ⟨2, ![256, 64]⟩
abbrev S192x64 : Shape := ⟨2, ![192, 64]⟩
abbrev S64 : Shape := ⟨1, ![64]⟩
abbrev S64x32 : Shape := ⟨2, ![64, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x64 : Shape := ⟨2, ![100000, 64]⟩
abbrev S100000x192 : Shape := ⟨2, ![100000, 192]⟩
abbrev S1x64 : Shape := ⟨2, ![1, 64]⟩
abbrev S100000x32 : Shape := ⟨2, ![100000, 32]⟩
abbrev S1x32 : Shape := ⟨2, ![1, 32]⟩
abbrev S3200000x32 : Shape := ⟨2, ![3200000, 32]⟩
abbrev S1x1 : Shape := ⟨2, ![1, 1]⟩

abbrev nBuf : Space → Nat
  | .hbm => 199
  | .vmem => 0
  | .smem => 0
  | _ => 0

abbrev hbmTy0_0 (i : Nat) : BufTy := match i % 128 with
  | 0 => ⟨S100000x128, .f32⟩
  | 1 => ⟨S2x3200000, .i32⟩
  | 2 => ⟨S100000x1, .f32⟩
  | 3 => ⟨S100000x256, .f32⟩
  | 4 => ⟨S256x64, .f32⟩
  | 5 => ⟨S192x64, .f32⟩
  | 6 => ⟨S64, .f32⟩
  | 7 => ⟨S64x32, .f32⟩
  | 8 => ⟨S32, .f32⟩
  | 9 => ⟨S32x32, .f32⟩
  | 10 => ⟨S32, .f32⟩
  | 11 => ⟨S32x32, .f32⟩
  | 12 => ⟨S32, .f32⟩
  | 13 => ⟨S32x32, .f32⟩
  | 14 => ⟨S32, .f32⟩
  | 15 => ⟨S32x32, .f32⟩
  | 16 => ⟨S32, .f32⟩
  | 17 => ⟨S32x1, .f32⟩
  | 18 => ⟨S1, .f32⟩
  | 19 => ⟨S1x3200000, .i32⟩
  | 20 => ⟨S3200000, .i32⟩
  | 21 => ⟨S1x3200000, .i32⟩
  | 22 => ⟨S3200000, .i32⟩
  | 23 => ⟨S_, .f32⟩
  | 24 => ⟨S3200000, .f32⟩
  | 25 => ⟨S_, .f32⟩
  | 26 => ⟨S100000, .f32⟩
  | 27 => ⟨S3200000x1, .i32⟩
  | 28 => ⟨S100000, .f32⟩
  | 29 => ⟨S_, .f32⟩
  | 30 => ⟨S100000, .f32⟩
  | 31 => ⟨S100000, .f32⟩
  | 32 => ⟨S_, .f32⟩
  | 33 => ⟨S100000, .f32⟩
  | 34 => ⟨S100000, .f32⟩
  | 35 => ⟨S100000x64, .f32⟩
  | 36 => ⟨S100000x192, .f32⟩
  | 37 => ⟨S100000x64, .f32⟩
  | 38 => ⟨S1x64, .f32⟩
  | 39 => ⟨S100000x64, .f32⟩
  | 40 => ⟨S100000x64, .f32⟩
  | 41 => ⟨S100000x64, .f32⟩
  | 42 => ⟨S100000x32, .f32⟩
  | 43 => ⟨S1x32, .f32⟩
  | 44 => ⟨S100000x32, .f32⟩
  | 45 => ⟨S100000x32, .f32⟩
  | 46 => ⟨S100000x32, .f32⟩
  | 47 => ⟨S100000x32, .f32⟩
  | 48 => ⟨S_, .i32⟩
  | 49 => ⟨S3200000, .i32⟩
  | 50 => ⟨S3200000, .i1⟩
  | 51 => ⟨S_, .i32⟩
  | 52 => ⟨S3200000, .i32⟩
  | 53 => ⟨S3200000, .i32⟩
  | 54 => ⟨S3200000, .i32⟩
  | 55 => ⟨S3200000x1, .i32⟩
  | 56 => ⟨S3200000, .f32⟩
  | 57 => ⟨S_, .i32⟩
  | 58 => ⟨S3200000, .i32⟩
  | 59 => ⟨S3200000, .i1⟩
  | 60 => ⟨S_, .i32⟩
  | 61 => ⟨S3200000, .i32⟩
  | 62 => ⟨S3200000, .i32⟩
  | 63 => ⟨S3200000, .i32⟩
  | 64 => ⟨S3200000x1, .i32⟩
  | 65 => ⟨S3200000, .f32⟩
  | 66 => ⟨S3200000, .f32⟩
  | 67 => ⟨S_, .i32⟩
  | 68 => ⟨S3200000, .i32⟩
  | 69 => ⟨S3200000, .i1⟩
  | 70 => ⟨S_, .i32⟩
  | 71 => ⟨S3200000, .i32⟩
  | 72 => ⟨S3200000, .i32⟩
  | 73 => ⟨S3200000, .i32⟩
  | 74 => ⟨S3200000x1, .i32⟩
  | 75 => ⟨S3200000x32, .f32⟩
  | 76 => ⟨S3200000x1, .f32⟩
  | 77 => ⟨S3200000x32, .f32⟩
  | 78 => ⟨S3200000x32, .f32⟩
  | 79 => ⟨S_, .f32⟩
  | 80 => ⟨S100000x32, .f32⟩
  | 81 => ⟨S3200000x1, .i32⟩
  | 82 => ⟨S100000x32, .f32⟩
  | 83 => ⟨S100000, .f32⟩
  | 84 => ⟨S100000x1, .f32⟩
  | 85 => ⟨S100000x32, .f32⟩
  | 86 => ⟨S100000x32, .f32⟩
  | 87 => ⟨S100000x32, .f32⟩
  | 88 => ⟨S1x32, .f32⟩
  | 89 => ⟨S100000x32, .f32⟩
  | 90 => ⟨S100000x32, .f32⟩
  | 91 => ⟨S_, .f32⟩
  | 92 => ⟨S100000x32, .f32⟩
  | 93 => ⟨S100000x32, .f32⟩
  | 94 => ⟨S100000x32, .f32⟩
  | 95 => ⟨S_, .i32⟩
  | 96 => ⟨S3200000, .i32⟩
  | 97 => ⟨S3200000, .i1⟩
  | 98 => ⟨S_, .i32⟩
  | 99 => ⟨S3200000, .i32⟩
  | 100 => ⟨S3200000, .i32⟩
  | 101 => ⟨S3200000, .i32⟩
  | 102 => ⟨S3200000x1, .i32⟩
  | 103 => ⟨S3200000, .f32⟩
  | 104 => ⟨S_, .i32⟩
  | 105 => ⟨S3200000, .i32⟩
  | 106 => ⟨S3200000, .i1⟩
  | 107 => ⟨S_, .i32⟩
  | 108 => ⟨S3200000, .i32⟩
  | 109 => ⟨S3200000, .i32⟩
  | 110 => ⟨S3200000, .i32⟩
  | 111 => ⟨S3200000x1, .i32⟩
  | 112 => ⟨S3200000, .f32⟩
  | 113 => ⟨S3200000, .f32⟩
  | 114 => ⟨S_, .i32⟩
  | 115 => ⟨S3200000, .i32⟩
  | 116 => ⟨S3200000, .i1⟩
  | 117 => ⟨S_, .i32⟩
  | 118 => ⟨S3200000, .i32⟩
  | 119 => ⟨S3200000, .i32⟩
  | 120 => ⟨S3200000, .i32⟩
  | 121 => ⟨S3200000x1, .i32⟩
  | 122 => ⟨S3200000x32, .f32⟩
  | 123 => ⟨S3200000x1, .f32⟩
  | 124 => ⟨S3200000x32, .f32⟩
  | 125 => ⟨S3200000x32, .f32⟩
  | 126 => ⟨S_, .f32⟩
  | 127 => ⟨S100000x32, .f32⟩
  | _ => ⟨S100000x128, .f32⟩

abbrev hbmTy0_1 (i : Nat) : BufTy := match i % 128 with
  | 0 => ⟨S3200000x1, .i32⟩
  | 1 => ⟨S100000x32, .f32⟩
  | 2 => ⟨S100000, .f32⟩
  | 3 => ⟨S100000x1, .f32⟩
  | 4 => ⟨S100000x32, .f32⟩
  | 5 => ⟨S100000x32, .f32⟩
  | 6 => ⟨S100000x32, .f32⟩
  | 7 => ⟨S1x32, .f32⟩
  | 8 => ⟨S100000x32, .f32⟩
  | 9 => ⟨S100000x32, .f32⟩
  | 10 => ⟨S_, .f32⟩
  | 11 => ⟨S100000x32, .f32⟩
  | 12 => ⟨S100000x32, .f32⟩
  | 13 => ⟨S100000x32, .f32⟩
  | 14 => ⟨S_, .i32⟩
  | 15 => ⟨S3200000, .i32⟩
  | 16 => ⟨S3200000, .i1⟩
  | 17 => ⟨S_, .i32⟩
  | 18 => ⟨S3200000, .i32⟩
  | 19 => ⟨S3200000, .i32⟩
  | 20 => ⟨S3200000, .i32⟩
  | 21 => ⟨S3200000x1, .i32⟩
  | 22 => ⟨S3200000, .f32⟩
  | 23 => ⟨S_, .i32⟩
  | 24 => ⟨S3200000, .i32⟩
  | 25 => ⟨S3200000, .i1⟩
  | 26 => ⟨S_, .i32⟩
  | 27 => ⟨S3200000, .i32⟩
  | 28 => ⟨S3200000, .i32⟩
  | 29 => ⟨S3200000, .i32⟩
  | 30 => ⟨S3200000x1, .i32⟩
  | 31 => ⟨S3200000, .f32⟩
  | 32 => ⟨S3200000, .f32⟩
  | 33 => ⟨S_, .i32⟩
  | 34 => ⟨S3200000, .i32⟩
  | 35 => ⟨S3200000, .i1⟩
  | 36 => ⟨S_, .i32⟩
  | 37 => ⟨S3200000, .i32⟩
  | 38 => ⟨S3200000, .i32⟩
  | 39 => ⟨S3200000, .i32⟩
  | 40 => ⟨S3200000x1, .i32⟩
  | 41 => ⟨S3200000x32, .f32⟩
  | 42 => ⟨S3200000x1, .f32⟩
  | 43 => ⟨S3200000x32, .f32⟩
  | 44 => ⟨S3200000x32, .f32⟩
  | 45 => ⟨S_, .f32⟩
  | 46 => ⟨S100000x32, .f32⟩
  | 47 => ⟨S3200000x1, .i32⟩
  | 48 => ⟨S100000x32, .f32⟩
  | 49 => ⟨S100000, .f32⟩
  | 50 => ⟨S100000x1, .f32⟩
  | 51 => ⟨S100000x32, .f32⟩
  | 52 => ⟨S100000x32, .f32⟩
  | 53 => ⟨S100000x32, .f32⟩
  | 54 => ⟨S1x32, .f32⟩
  | 55 => ⟨S100000x32, .f32⟩
  | 56 => ⟨S100000x32, .f32⟩
  | 57 => ⟨S_, .f32⟩
  | 58 => ⟨S100000x32, .f32⟩
  | 59 => ⟨S100000x32, .f32⟩
  | 60 => ⟨S100000x32, .f32⟩
  | 61 => ⟨S1x32, .f32⟩
  | 62 => ⟨S100000x32, .f32⟩
  | 63 => ⟨S100000x32, .f32⟩
  | 64 => ⟨S100000x32, .f32⟩
  | 65 => ⟨S100000x1, .f32⟩
  | 66 => ⟨S1x1, .f32⟩
  | 67 => ⟨S100000x1, .f32⟩
  | 68 => ⟨S100000x1, .f32⟩
  | 69 => ⟨S100000x1, .f32⟩
  | 70 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_cst_2 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c : Ref sig .tc := ⟨.hbm, 48, rfl⟩
abbrev main_v25 : Ref sig .tc := ⟨.hbm, 49, rfl⟩
abbrev main_v26 : Ref sig .tc := ⟨.hbm, 50, rfl⟩
abbrev main_c_3 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_4 : Ref sig .tc := ⟨.hbm, 57, rfl⟩
abbrev main_v32 : Ref sig .tc := ⟨.hbm, 58, rfl⟩
abbrev main_v33 : Ref sig .tc := ⟨.hbm, 59, rfl⟩
abbrev main_c_5 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_c_6 : Ref sig .tc := ⟨.hbm, 67, rfl⟩
abbrev main_v40 : Ref sig .tc := ⟨.hbm, 68, rfl⟩
abbrev main_v41 : Ref sig .tc := ⟨.hbm, 69, rfl⟩
abbrev main_c_7 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_8 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_call0_cst : Ref sig .tc := ⟨.hbm, 91, rfl⟩
abbrev main_call0_v0 : Ref sig .tc := ⟨.hbm, 92, rfl⟩
abbrev main_v61 : Ref sig .tc := ⟨.hbm, 93, rfl⟩
abbrev main_v62 : Ref sig .tc := ⟨.hbm, 94, rfl⟩
abbrev main_c_9 : Ref sig .tc := ⟨.hbm, 95, rfl⟩
abbrev main_v63 : Ref sig .tc := ⟨.hbm, 96, rfl⟩
abbrev main_v64 : Ref sig .tc := ⟨.hbm, 97, rfl⟩
abbrev main_c_10 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_c_11 : Ref sig .tc := ⟨.hbm, 104, rfl⟩
abbrev main_v70 : Ref sig .tc := ⟨.hbm, 105, rfl⟩
abbrev main_v71 : Ref sig .tc := ⟨.hbm, 106, rfl⟩
abbrev main_c_12 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_c_13 : Ref sig .tc := ⟨.hbm, 114, rfl⟩
abbrev main_v78 : Ref sig .tc := ⟨.hbm, 115, rfl⟩
abbrev main_v79 : Ref sig .tc := ⟨.hbm, 116, rfl⟩
abbrev main_c_14 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_cst_15 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_call1_cst : Ref sig .tc := ⟨.hbm, 138, rfl⟩
abbrev main_call1_v0 : Ref sig .tc := ⟨.hbm, 139, rfl⟩
abbrev main_v99 : Ref sig .tc := ⟨.hbm, 140, rfl⟩
abbrev main_v100 : Ref sig .tc := ⟨.hbm, 141, rfl⟩
abbrev main_c_16 : Ref sig .tc := ⟨.hbm, 142, rfl⟩
abbrev main_v101 : Ref sig .tc := ⟨.hbm, 143, rfl⟩
abbrev main_v102 : Ref sig .tc := ⟨.hbm, 144, rfl⟩
abbrev main_c_17 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_c_18 : Ref sig .tc := ⟨.hbm, 151, rfl⟩
abbrev main_v108 : Ref sig .tc := ⟨.hbm, 152, rfl⟩
abbrev main_v109 : Ref sig .tc := ⟨.hbm, 153, rfl⟩
abbrev main_c_19 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_c_20 : Ref sig .tc := ⟨.hbm, 161, rfl⟩
abbrev main_v116 : Ref sig .tc := ⟨.hbm, 162, rfl⟩
abbrev main_v117 : Ref sig .tc := ⟨.hbm, 163, rfl⟩
abbrev main_c_21 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_cst_22 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_call2_cst : Ref sig .tc := ⟨.hbm, 185, rfl⟩
abbrev main_call2_v0 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  concatenates_S100000x128_S100000x64_S100000x192_d1 : Shape.Concatenates [S100000x128, S100000x64] S100000x192 1
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3200000x1_S3200000_n_0_0_1_wf : ScatterDims.WF S100000 S3200000x1 S3200000 [] [0] [0] 1
  dot_S100000x256_S256x64_S100000x64_1_0_0_1_n_n_wf : DotDims.WF S100000x256 S256x64 S100000x64 [1] [0] [0] [1] [] []
  dot_S100000x192_S192x64_S100000x64_1_0_0_1_n_n_wf : DotDims.WF S100000x192 S192x64 S100000x64 [1] [0] [0] [1] [] []
  dot_S100000x64_S64x32_S100000x32_1_0_0_1_n_n_wf : DotDims.WF S100000x64 S64x32 S100000x32 [1] [0] [0] [1] [] []
  dot_S100000x32_S32x32_S100000x32_1_0_0_1_n_n_wf : DotDims.WF S100000x32 S32x32 S100000x32 [1] [0] [0] [1] [] []
  gather_S100000_S3200000x1_S3200000_n_0_n_n_0_1_1_wf : GatherDims.WF S100000 S3200000x1 S3200000 [] [0] [] [0] [] 1 ![1]
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x32_S32x1_S100000x1_1_0_0_1_n_n_wf : DotDims.WF S100000x32 S32x1 S100000x1 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def dot_S100000x192_S192x64_S100000x64_1_0_0_1_n_n : DotDims S100000x192 S192x64 S100000x64 where
  lhsContracting := [1]
  rhsContracting := [0]
  lhsNonContracting := [0]
  rhsNonContracting := [1]
  lhsBatch := []
  rhsBatch := []
  wf := dot_S100000x192_S192x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.KRun.lean ====
/-
  The idealized kernel's run with its result named: every weakly fair execution of @main terminates, nothing
  faulting, with the result array at what the last region's write-backs leave of the buffer contents folded through
  the host stretches and the four regions, and the argument arrays as launched.
-/
import proofs.«110162_j63848983822724_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over @main's eight segments, the last thread state read against the final state: the result buffer
    holds the fold's last contents, each argument its launch contents. -/
theorem run_value : θ_run defs (onTc (τ := τ) (main (F := F))) ⟨m, fun _ => 0, ρ⟩ (fun r => ∀ c : Dev nD,
      r.2.mem ((c.tc : Thread nD τ).loc main_v77) = W8 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v77 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c),
       (h c _ (mem_uc main_arg18 (by decide))).trans (W8_main_arg18 m ρ c)⟩)

end Cert.KernelIdeal.RunValue

end
-- ==== Proof.Spec.lean ====
/-
  The function both programs compute, written once over whole arrays with the host's operations, stage by stage:
  the inverse square root of the node degrees, the edge weights, one neighbourhood aggregation, the embedding
  perceptron, one graph-convolution layer and the prediction head.
-/
import proofs.«110162_j63848983822724_1_alg».proof.ReferenceIdeal
import Idealize.ShloMosaic.PureOps.Ideal

noncomputable section

namespace Cert.Spec

open Idealize.ShloMosaic Cert.ReferenceIdeal

variable {F : FTy → Type} [FloatOps F] [Cert.ReferenceIdeal.Facts]
open Cert.ReferenceIdeal.Facts₀ Cert.ReferenceIdeal.Facts

/-- An array of 32-bit integers of shape `s`. -/
abbrev IArr (F : FTy → Type) [FloatOps F] (s : Shape) : Type := (⟨s, .i32⟩ : BufTy).Contents (Elt F)
/-- An array of floats of shape `s`. -/
abbrev FArr (F : FTy → Type) [FloatOps F] (s : Shape) : Type := (⟨s, .f32⟩ : BufTy).Contents (Elt F)

/-- The edges' source nodes: row 0 of the edge list. -/
def src (e : IArr F S2x3200000) : IArr F S3200000 :=
  shapeCast _ (extractStridedSlice S1x3200000 ![0, 0] e slices_S2x3200000_S1x3200000_0_0) shapeCasts_S1x3200000_S3200000

/-- The edges' target nodes: row 1 of the edge list. -/
def dst (e : IArr F S2x3200000) : IArr F S3200000 :=
  shapeCast _ (extractStridedSlice S1x3200000 ![1, 0] e slices_S2x3200000_S1x3200000_1_0) shapeCasts_S1x3200000_S3200000

/-- A node list as gather indices: a negative entry counts from the end, and the list becomes a column. -/
def wrap (v : IArr F S3200000) : IArr F S3200000x1 :=
  broadcastInDim S3200000x1 ![0] bcast_S3200000_S3200000x1_0
    (select (cmpi .slt v (broadcastInDim S3200000 ![] bcast_S_S3200000 (constantI S_ 32 0#32)))
      (addi v (broadcastInDim S3200000 ![] bcast_S_S3200000 (constantI S_ 32 100000#32))) v)

/-- `(1 + in-degree) ^ (-1/2)` per node. -/
def dis (e : IArr F S2x3200000) : FArr F S100000 :=
  Host.powf
    (addf (broadcastInDim S100000 ![] bcast_S_S100000 (constant S_ .f32 0x3F800000#32))
      (Host.scatterAdd scatter_S100000_S3200000x1_S3200000_n_0_0_1
        (broadcastInDim S100000 ![] bcast_S_S100000 (constant S_ .f32 0x00000000#32))
        (broadcastInDim S3200000x1 ![0] bcast_S3200000_S3200000x1_0 (dst e))
        (broadcastInDim S3200000 ![] bcast_S_S3200000 (constant S_ .f32 0x3F800000#32))))
    (broadcastInDim S100000 ![] bcast_S_S100000 (constant S_ .f32 0xBF000000#32))

/-- The weight of each edge: the product of its two ends' `dis`. -/
def norm (e : IArr F S2x3200000) : FArr F S3200000 :=
  mulf (Host.gather gather_S100000_S3200000x1_S3200000_n_0_n_n_0_1_1 (dis e) (wrap (src e)))
    (Host.gather gather_S100000_S3200000x1_S3200000_n_0_n_n_0_1_1 (dis e) (wrap (dst e)))

/-- One aggregation: every edge carries its source's row, scaled by the edge's weight, into its target's row. -/
def agg (e : IArr F S2x3200000) (xw : FArr F S100000x32) : FArr F S100000x32 :=
  Host.scatterAdd scatter_S100000x32_S3200000x1_S3200000x32_1_0_0_1
    (broadcastInDim S100000x32 ![] bcast_S_S100000x32 (constant S_ .f32 0x00000000#32))
    (broadcastInDim S3200000x1 ![0] bcast_S3200000_S3200000x1_0 (dst e))
    (mulf (Host.gather gather_S100000x32_S3200000x1_S3200000x32_1_0_n_n_0_1_132 xw (wrap (src e)))
      (broadcastInDim S3200000x32 ![0, 1] bcast_S3200000x1_S3200000x32_0_1
        (broadcastInDim S3200000x1 ![0] bcast_S3200000_S3200000x1_0 (norm e))))

/-- A bias vector of length 32 repeated down 100000 rows. -/
def rows32 (b : FArr F S32) : FArr F S100000x32 :=
  broadcastInDim S100000x32 ![0, 1] bcast_S1x32_S100000x32_0_1 (broadcastInDim S1x32 ![1] bcast_S32_S1x32_1 b)

/-- The embedding perceptron followed by the first layer's weights:
    `tanh (tanh ([x | S R] We1 + be1) We2 + be2) Wg1`. -/
def embed (x : FArr F S100000x128) (S : FArr F S100000x256) (R : FArr F S256x64) (We1 : FArr F S192x64) (be1 : FArr F S64)
    (We2 : FArr F S64x32) (be2 : FArr F S32) (Wg1 : FArr F S32x32) : FArr F S100000x32 :=
  Host.dotGeneral dot_S100000x32_S32x32_S100000x32_1_0_0_1_n_n none
    (Host.tanh (addf
      (Host.dotGeneral dot_S100000x64_S64x32_S100000x32_1_0_0_1_n_n none
        (Host.tanh (addf
          (Host.dotGeneral dot_S100000x192_S192x64_S100000x64_1_0_0_1_n_n none
            (concatenate S100000x192 1 [⟨S100000x128, x⟩, ⟨S100000x64, Host.dotGeneral dot_S100000x256_S256x64_S100000x64_1_0_0_1_n_n none S R⟩]
              concatenates_S100000x128_S100000x64_S100000x192_d1)
            We1)
          (broadcastInDim S100000x64 ![0, 1] bcast_S1x64_S100000x64_0_1 (broadcastInDim S1x64 ![1] bcast_S64_S1x64_1 be1))))
        We2)
      (rows32 be2)))
    Wg1

/-- What a layer hands on: `max (a + xw * d² + b, 0)`, `a` the aggregated rows, `xw` the node's own row. -/
def act (a xw : FArr F S100000x32) (d : FArr F S100000) (b : FArr F S32) : FArr F S100000x32 :=
  maximumf
    (addf
      (addf a (mulf xw (broadcastInDim S100000x32 ![0, 1] bcast_S100000x1_S100000x32_0_1
        (broadcastInDim S100000x1 ![0] bcast_S100000_S100000x1_0 (mulf d d)))))
      (rows32 b))
    (broadcastInDim S100000x32 ![] bcast_S_S100000x32 (constant S_ .f32 0x00000000#32))

/-- A layer's activation times the next layer's weights. -/
def layer (a xw : FArr F S100000x32) (d : FArr F S100000) (b : FArr F S32) (W : FArr F S32x32) : FArr F S100000x32 :=
  Host.dotGeneral dot_S100000x32_S32x32_S100000x32_1_0_0_1_n_n none (act a xw d b) W

/-- The prediction head: `tanh (tanh (h Wp1 + bp1) Wp2 + bp2) + priors`. -/
def head (h : FArr F S100000x32) (Wp1 : FArr F S32x32) (bp1 : FArr F S32) (Wp2 : FArr F S32x1) (bp2 : FArr F S1)
    (priors : FArr F S100000x1) : FArr F S100000x1 :=
  addf
    (Host.tanh (addf
      (Host.dotGeneral dot_S100000x32_S32x1_S100000x1_1_0_0_1_n_n none
        (Host.tanh (addf (Host.dotGeneral dot_S100000x32_S32x32_S100000x32_1_0_0_1_n_n none h Wp1) (rows32 bp1)))
        Wp2)
      (broadcastInDim S100000x1 ![0, 1] bcast_S1x1_S100000x1_0_1 (broadcastInDim S1x1 ![1] bcast_S1_S1x1_1 bp2))))
    priors

/-- The rows entering the second layer. -/
def xw2 (e : IArr F S2x3200000) (xw1 : FArr F S100000x32) (bg1 : FArr F S32) (Wg2 : FArr F S32x32) : FArr F S100000x32 :=
  layer (agg e xw1) xw1 (dis e) bg1 Wg2

/-- The whole network from the first layer's rows on. -/
def tail (e : IArr F S2x3200000) (xw1 : FArr F S100000x32) (bg1 : FArr F S32) (Wg2 : FArr F S32x32) (bg2 : FArr F S32)
    (Wg3 : FArr F S32x32) (bg3 : FArr F S32) (Wp1 : FArr F S32x32) (bp1 : FArr F S32) (Wp2 : FArr F S32x1) (bp2 : FArr F S1)
    (priors : FArr F S100000x1) : FArr F S100000x1 :=
  head (act (agg e (xw2 e (xw2 e xw1 bg1 Wg2) bg2 Wg3)) (xw2 e (xw2 e xw1 bg1 Wg2) bg2 Wg3) (dis e) bg3) Wp1 bp1 Wp2 bp2 priors

end Cert.Spec

end
-- ==== Proof.SpecAll.lean ====
/-
  The whole network as one function of the nineteen argument arrays, in the order @main takes them.
-/
import proofs.«110162_j63848983822724_1_alg».proof.Proof.Spec

noncomputable section

namespace Cert.Spec

open Idealize.ShloMosaic Cert.ReferenceIdeal

variable {F : FTy → Type} [FloatOps F] [Cert.ReferenceIdeal.Facts]

/-- Features `x`, the edge list, the priors, the activity matrix `S` and its table `R`, then the weights and biases
    of the embedding perceptron, the three graph layers and the prediction head. -/
def result (x : FArr F S100000x128) (e : IArr F S2x3200000) (priors : FArr F S100000x1) (S : FArr F S100000x256)
    (R : FArr F S256x64) (We1 : FArr F S192x64) (be1 : FArr F S64) (We2 : FArr F S64x32) (be2 : FArr F S32)
    (Wg1 : FArr F S32x32) (bg1 : FArr F S32) (Wg2 : FArr F S32x32) (bg2 : FArr F S32) (Wg3 : FArr F S32x32)
    (bg3 : FArr F S32) (Wp1 : FArr F S32x32) (bp1 : FArr F S32) (Wp2 : FArr F S32x1) (bp2 : FArr F S1) :
    FArr F S100000x1 :=
  tail e (embed x S R We1 be1 We2 be2 Wg1) bg1 Wg2 bg2 Wg3 bg3 Wp1 bp1 Wp2 bp2 priors

end Cert.Spec

end
-- ==== Proof.LibLayoutReads.lean ====
/-
  Three layout operations read at one entry, general in the extents and in the element type.

  * a vector `[n]` reshaped to a column `[n, 1]`: entry `(r, 0)` is the vector's entry `r` (both sit at row-major
    position `r`);
  * a vector `[n]` reshaped to a row `[1, n]`: entry `(0, b)` is the vector's entry `b`;
  * `r` consecutive rows of a matrix `[R, C]` from row `o` on, all `C` columns: entry `(a, b)` is the matrix's entry
    `(o + a, b)`.
-/
import Idealize.ShloMosaic.Lib.Pipeline.Value
import Idealize.ShloMosaic.Lib.ValueIdx

noncomputable section

namespace Cert.LayoutReads

open Idealize.ShloMosaic Idealize.ShloMosaic.ValueIdx

variable {α : Type}

/-- A vector `[n]` reshaped to a column `[n, 1]`, read at `(r, 0)`, is the vector at `r`. -/
theorem col_of_vec_apply {n : Nat} (v : (⟨1, ![n]⟩ : Shape).Idx → α) (h : (⟨1, ![n]⟩ : Shape).ShapeCasts ⟨2, ![n, 1]⟩)
    (r : Fin n) : shapeCast ⟨2, ![n, 1]⟩ v h (ix2 r (0 : Fin 1)) = v (ix1 r) :=
  shapeCast_apply v h (ix2 r (0 : Fin 1)) (ix1 r) (by
    rw [Shape.rowMajor_val_two, Shape.rowMajor_val_one]; show r.val = r.val * 1 + 0; omega)

/-- A vector `[n]` reshaped to a row `[1, n]`, read at `(0, b)`, is the vector at `b`. -/
theorem row_of_vec_apply {n : Nat} (v : (⟨1, ![n]⟩ : Shape).Idx → α) (h : (⟨1, ![n]⟩ : Shape).ShapeCasts ⟨2, ![1, n]⟩)
    (b : Fin n) : shapeCast ⟨2, ![1, n]⟩ v h (ix2 (0 : Fin 1) b) = v (ix1 b) :=
  shapeCast_apply v h (ix2 (0 : Fin 1) b) (ix1 b) (by
    rw [Shape.rowMajor_val_two, Shape.rowMajor_val_one]; show b.val = 0 * n + b.val; omega)

/-- Rows `o` to `o + r` of a matrix `[R, C]`, all columns, read at `(a, b)`, are the matrix at `(o + a, b)`. -/
theorem rows_slice_apply {R C r o : Nat} (x : (⟨2, ![R, C]⟩ : Shape).Idx → α)
    (h : (⟨2, ![R, C]⟩ : Shape).Slices ![o, 0] ⟨2, ![r, C]⟩) (hb : o + r ≤ R) (a : Fin r) (b : Fin C) :
    extractStridedSlice ⟨2, ![r, C]⟩ ![o, 0] x h (ix2 a b)
      = x (ix2 (⟨o + a.val, by have := a.isLt; omega⟩ : Fin R) b) :=
  extractStridedSlice_apply ![o, 0] x h (ix2 a b) (ix2 (⟨o + a.val, by have := a.isLt; omega⟩ : Fin R) b)
    (fun c => match c with
      | ⟨0, _⟩ => rfl
      | ⟨1, _⟩ => by show b.val = 0 + b.val; omega)

end Cert.LayoutReads

end
-- ==== Proof.KHost.lean ====
/-
  What the host operations between the pallas_calls compute, over any buffer contents `U` the stretch starts from:
  the edge lists, the edge weights, the degree vector as a column, the two halves of the first weight matrix, the
  biases as rows (stretch 0), and one neighbourhood aggregation per later stretch; and which buffers each stretch
  leaves alone.
-/
import proofs.«110162_j63848983822724_1_alg».proof.Proof.Spec
import proofs.«110162_j63848983822724_1_alg».proof.Proof.LibLayoutReads
import proofs.«110162_j63848983822724_1_alg».proof.Proof.Gen.KernelIdeal.Launch
import proofs.«110162_j63848983822724_1_alg».proof.Proof.Gen.ReferenceIdeal
import Idealize.ShloMosaic.Lib.StableHlo.Run
import Idealize.ShloMosaic.Lib.ValueIdx

set_option maxRecDepth 16384

noncomputable section

namespace Cert.KernelIdeal.HostReads

open Cert.KernelIdeal Cert.KernelIdeal.Gen
open Idealize.ShloMosaic Idealize.ShloMosaic.TcCoe Idealize.ShloMosaic.ValueIdx Idealize.SL.Sem Idealize.ShloMosaic.StableHlo

variable (U : Valuation τ sig (Elt Ideal))

/-! ## Which buffers each stretch writes -/

/-- The references stretch 0's operations write. -/
abbrev written0 : List (Ref sig .tc) := [main_v0, main_v1, main_v2, main_v3, main_cst, main_v4, main_cst_0, main_v5, main_v6, main_v7, main_cst_1, main_v8, main_v9, main_cst_2, main_v10, main_v11, main_c, main_v12, main_v13, main_c_3, main_v14, main_v15, main_v16, main_v17, main_v18, main_c_4, main_v19, main_v20, main_c_5, main_v21, main_v22, main_v23, main_v24, main_v25, main_v26, main_v27, main_v28, main_v29, main_v30, main_v31, main_v32, main_v33, main_v34, main_v35, main_v36, main_v37]
theorem writes0 : (hostOps0 : List (HloOp τ sig (Elt Ideal))).Forall fun op => op.writes ⊆ ((written0).map (Proc.devRef (τ := τ) .tc)).toFinset := by
  simp only [hostOps0, List.Forall, nullary_writes, unary_writes, binary_writes, ternary_writes, reshape_writes, Finset.singleton_subset_iff, List.mem_toFinset]
  repeat' apply And.intro
  all_goals exact List.mem_map_of_mem (by decide)
/-- A buffer stretch 0 does not write keeps its contents. -/
theorem keep0 {r : Ref sig .tc} (hr : r ∉ written0) : after hostOps0 U (Proc.devRef .tc r) = U (Proc.devRef .tc r) :=
  after_of_writes_sub hostOps0 U writes0 hr

/-- The references stretch 1's operations write. -/
abbrev written1 : List (Ref sig .tc) := [main_c_6, main_v39, main_v40, main_c_7, main_v41, main_v42, main_v43, main_v44, main_v45, main_v46, main_v47, main_cst_8, main_v48, main_v49, main_v50]
theorem writes1 : (hostOps1 : List (HloOp τ sig (Elt Ideal))).Forall fun op => op.writes ⊆ ((written1).map (Proc.devRef (τ := τ) .tc)).toFinset := by
  simp only [hostOps1, List.Forall, nullary_writes, unary_writes, binary_writes, ternary_writes, reshape_writes, Finset.singleton_subset_iff, List.mem_toFinset]
  repeat' apply And.intro
  all_goals exact List.mem_map_of_mem (by decide)
/-- A buffer stretch 1 does not write keeps its contents. -/
theorem keep1 {r : Ref sig .tc} (hr : r ∉ written1) : after hostOps1 U (Proc.devRef .tc r) = U (Proc.devRef .tc r) :=
  after_of_writes_sub hostOps1 U writes1 hr

/-- The references stretch 2's operations write. -/
abbrev written2 : List (Ref sig .tc) := [main_c_9, main_v52, main_v53, main_c_10, main_v54, main_v55, main_v56, main_v57, main_v58, main_v59, main_v60, main_cst_11, main_v61, main_v62, main_v63]
theorem writes2 : (hostOps2 : List (HloOp τ sig (Elt Ideal))).Forall fun op => op.writes ⊆ ((written2).map (Proc.devRef (τ := τ) .tc)).toFinset := by
  simp only [hostOps2, List.Forall, nullary_writes, unary_writes, binary_writes, ternary_writes, reshape_writes, Finset.singleton_subset_iff, List.mem_toFinset]
  repeat' apply And.intro
  all_goals exact List.mem_map_of_mem (by decide)
/-- A buffer stretch 2 does not write keeps its contents. -/
theorem keep2 {r : Ref sig .tc} (hr : r ∉ written2) : after hostOps2 U (Proc.devRef .tc r) = U (Proc.devRef .tc r) :=
  after_of_writes_sub hostOps2 U writes2 hr

/-- The references stretch 3's operations write. -/
abbrev written3 : List (Ref sig .tc) := [main_c_12, main_v65, main_v66, main_c_13, main_v67, main_v68, main_v69, main_v70, main_v71, main_v72, main_v73, main_cst_14, main_v74, main_v75, main_v76]
theorem writes3 : (hostOps3 : List (HloOp τ sig (Elt Ideal))).Forall fun op => op.writes ⊆ ((written3).map (Proc.devRef (τ := τ) .tc)).toFinset := by
  simp only [hostOps3, List.Forall, nullary_writes, unary_writes, binary_writes, ternary_writes, reshape_writes, Finset.singleton_subset_iff, List.mem_toFinset]
  repeat' apply And.intro
  all_goals exact List.mem_map_of_mem (by decide)
/-- A buffer stretch 3 does not write keeps its contents. -/
theorem keep3 {r : Ref sig .tc} (hr : r ∉ written3) : after hostOps3 U (Proc.devRef .tc r) = U (Proc.devRef .tc r) :=
  after_of_writes_sub hostOps3 U writes3 hr

/-! ## Stretch 0: the edge lists, the degrees, the edge weights, the weights' halves and the bias rows -/

/-- The edges' source nodes. -/
theorem h0_v1 : after hostOps0 U (Proc.devRef .tc main_v1) = Cert.Spec.src (F := Ideal) (U (Proc.devRef .tc main_arg1)) := by
  after_results
  rfl

/-- The edges' target nodes. -/
theorem h0_v3 : after hostOps0 U (Proc.devRef .tc main_v3) = Cert.Spec.dst (F := Ideal) (U (Proc.devRef .tc main_arg1)) := by
  after_results
  rfl

set_option maxHeartbeats 2000000 in
/-- The edge weights, as a column. -/
theorem h0_v27 : after hostOps0 U (Proc.devRef .tc main_v27)
    = broadcastInDim Cert.ReferenceIdeal.S3200000x1 ![0] Cert.ReferenceIdeal.Facts₀.bcast_S3200000_S3200000x1_0
        (Cert.Spec.norm (F := Ideal) (U (Proc.devRef .tc main_arg1))) := by
  after_results_simp
  rfl

set_option maxHeartbeats 2000000 in
/-- The inverse square roots of the degrees, as a column: row `r` holds node `r`'s. -/
theorem h0_v28 (r : Fin 100000) : after hostOps0 U (Proc.devRef .tc main_v28) (ix2 r (0 : Fin 1))
    = Cert.Spec.dis (F := Ideal) (U (Proc.devRef .tc main_arg1)) (ix1 r) := by
  have e : after hostOps0 U (Proc.devRef .tc main_v28)
      = shapeCast _ (Cert.Spec.dis (F := Ideal) (U (Proc.devRef .tc main_arg1))) Facts₀.shapeCasts_S100000_S100000x1 := by
    after_results_simp
    rfl
  rw [e]
  exact Cert.LayoutReads.col_of_vec_apply _ _ r

/-- The first 128 rows of the embedding's first weight matrix. -/
theorem h0_v29 (a : Fin 128) (b : Fin 64) : after hostOps0 U (Proc.devRef .tc main_v29) (ix2 a b)
    = U (Proc.devRef .tc main_arg5) (ix2 (⟨a.val, by omega⟩ : Fin 192) b) := by
  have e : after hostOps0 U (Proc.devRef .tc main_v29)
      = extractStridedSlice S128x64 ![0, 0] (U (Proc.devRef .tc main_arg5)) Facts₀.slices_S192x64_S128x64_0_0 := by
    after_results <;> rfl
  rw [e]
  refine (Cert.LayoutReads.rows_slice_apply (R := 192) (C := 64) (r := 128) (o := 0) _ _ (by omega) a b).trans ?_
  exact congrArg (U (Proc.devRef .tc main_arg5)) (congrArg (fun k => ix2 k b) (Fin.ext (by show 0 + a.val = a.val; omega)))

/-- Its last 64 rows. -/
theorem h0_v30 (a : Fin 64) (b : Fin 64) : after hostOps0 U (Proc.devRef .tc main_v30) (ix2 a b)
    = U (Proc.devRef .tc main_arg5) (ix2 (⟨128 + a.val, by omega⟩ : Fin 192) b) := by
  have e : after hostOps0 U (Proc.devRef .tc main_v30)
      = extractStridedSlice S64x64 ![128, 0] (U (Proc.devRef .tc main_arg5)) Facts₀.slices_S192x64_S64x64_128_0 := by
    after_results <;> rfl
  rw [e]
  exact Cert.LayoutReads.rows_slice_apply (R := 192) (C := 64) (r := 64) (o := 128) _ _ (by omega) a b

/-! The seven bias vectors laid out as rows. -/

theorem h0_v31 (b : Fin 64) : after hostOps0 U (Proc.devRef .tc main_v31) (ix2 (0 : Fin 1) b) = U (Proc.devRef .tc main_arg6) (ix1 b) := by
  have e : after hostOps0 U (Proc.devRef .tc main_v31) = shapeCast _ (U (Proc.devRef .tc main_arg6)) Facts₀.shapeCasts_S64_S1x64 := by
    after_results <;> rfl
  rw [e]
  exact Cert.LayoutReads.row_of_vec_apply _ _ b

theorem h0_v32 (b : Fin 32) : after hostOps0 U (Proc.devRef .tc main_v32) (ix2 (0 : Fin 1) b) = U (Proc.devRef .tc main_arg8) (ix1 b) := by
  have e : after hostOps0 U (Proc.devRef .tc main_v32) = shapeCast _ (U (Proc.devRef .tc main_arg8)) Facts₀.shapeCasts_S32_S1x32 := by
    after_results <;> rfl
  rw [e]
  exact Cert.LayoutReads.row_of_vec_apply _ _ b

theorem h0_v33 (b : Fin 32) : after hostOps0 U (Proc.devRef .tc main_v33) (ix2 (0 : Fin 1) b) = U (Proc.devRef .tc main_arg10) (ix1 b) := by
  have e : after hostOps0 U (Proc.devRef .tc main_v33) = shapeCast _ (U (Proc.devRef .tc main_arg10)) Facts₀.shapeCasts_S32_S1x32 := by
    after_results <;> rfl
  rw [e]
  exact Cert.LayoutReads.row_of_vec_apply _ _ b

theorem h0_v34 (b : Fin 32) : after hostOps0 U (Proc.devRef .tc main_v34) (ix2 (0 : Fin 1) b) = U (Proc.devRef .tc main_arg12) (ix1 b) := by
  have e : after hostOps0 U (Proc.devRef .tc main_v34) = shapeCast _ (U (Proc.devRef .tc main_arg12)) Facts₀.shapeCasts_S32_S1x32 := by
    after_results <;> rfl
  rw [e]
  exact Cert.LayoutReads.row_of_vec_apply _ _ b

theorem h0_v35 (b : Fin 32) : after hostOps0 U (Proc.devRef .tc main_v35) (ix2 (0 : Fin 1) b) = U (Proc.devRef .tc main_arg14) (ix1 b) := by
  have e : after hostOps0 U (Proc.devRef .tc main_v35) = shapeCast _ (U (Proc.devRef .tc main_arg14)) Facts₀.shapeCasts_S32_S1x32 := by
    after_results <;> rfl
  rw [e]
  exact Cert.LayoutReads.row_of_vec_apply _ _ b

theorem h0_v36 (b : Fin 32) : after hostOps0 U (Proc.devRef .tc main_v36) (ix2 (0 : Fin 1) b) = U (Proc.devRef .tc main_arg16) (ix1 b) := by
  have e : after hostOps0 U (Proc.devRef .tc main_v36) = shapeCast _ (U (Proc.devRef .tc main_arg16)) Facts₀.shapeCasts_S32_S1x32 := by
    after_results <;> rfl
  rw [e]
  exact Cert.LayoutReads.row_of_vec_apply _ _ b

theorem h0_v37 : after hostOps0 U (Proc.devRef .tc main_v37) (ix2 (0 : Fin 1) (0 : Fin 1)) = U (Proc.devRef .tc main_arg18) (ix1 (0 : Fin 1)) := by
  have e : after hostOps0 U (Proc.devRef .tc main_v37) = shapeCast _ (U (Proc.devRef .tc main_arg18)) Facts₀.shapeCasts_S1_S1x1 := by
    after_results <;> rfl
  rw [e]
  exact Cert.LayoutReads.row_of_vec_apply _ _ (0 : Fin 1)

/-! ## Stretches 1, 2, 3: one aggregation each -/

set_option maxHeartbeats 4000000 in
/-- Stretch 1 ends with one aggregation of the rows the previous pallas_call left. -/
theorem agg1 (e : Cert.Spec.IArr Ideal Cert.ReferenceIdeal.S2x3200000) (xw : FVec Ideal Cert.ReferenceIdeal.S100000x32 .f32)
    (h1 : U (Proc.devRef .tc main_v1) = Cert.Spec.src (F := Ideal) e) (h3 : U (Proc.devRef .tc main_v3) = Cert.Spec.dst (F := Ideal) e)
    (h27 : U (Proc.devRef .tc main_v27) = broadcastInDim Cert.ReferenceIdeal.S3200000x1 ![0] Cert.ReferenceIdeal.Facts₀.bcast_S3200000_S3200000x1_0 (Cert.Spec.norm (F := Ideal) e))
    (hx : U (Proc.devRef .tc main_v38) = xw) :
    after hostOps1 U (Proc.devRef .tc main_v50) = Cert.Spec.agg (F := Ideal) e xw := by
  after_results_simp
  rw [h1, h3, h27, hx]
  rfl

set_option maxHeartbeats 4000000 in
/-- Stretch 2 ends with one aggregation of the rows the previous pallas_call left. -/
theorem agg2 (e : Cert.Spec.IArr Ideal Cert.ReferenceIdeal.S2x3200000) (xw : FVec Ideal Cert.ReferenceIdeal.S100000x32 .f32)
    (h1 : U (Proc.devRef .tc main_v1) = Cert.Spec.src (F := Ideal) e) (h3 : U (Proc.devRef .tc main_v3) = Cert.Spec.dst (F := Ideal) e)
    (h27 : U (Proc.devRef .tc main_v27) = broadcastInDim Cert.ReferenceIdeal.S3200000x1 ![0] Cert.ReferenceIdeal.Facts₀.bcast_S3200000_S3200000x1_0 (Cert.Spec.norm (F := Ideal) e))
    (hx : U (Proc.devRef .tc main_v51) = xw) :
    after hostOps2 U (Proc.devRef .tc main_v63) = Cert.Spec.agg (F := Ideal) e xw := by
  after_results_simp
  rw [h1, h3, h27, hx]
  rfl

set_option maxHeartbeats 4000000 in
/-- Stretch 3 ends with one aggregation of the rows the previous pallas_call left. -/
theorem agg3 (e : Cert.Spec.IArr Ideal Cert.ReferenceIdeal.S2x3200000) (xw : FVec Ideal Cert.ReferenceIdeal.S100000x32 .f32)
    (h1 : U (Proc.devRef .tc main_v1) = Cert.Spec.src (F := Ideal) e) (h3 : U (Proc.devRef .tc main_v3) = Cert.Spec.dst (F := Ideal) e)
    (h27 : U (Proc.devRef .tc main_v27) = broadcastInDim Cert.ReferenceIdeal.S3200000x1 ![0] Cert.ReferenceIdeal.Facts₀.bcast_S3200000_S3200000x1_0 (Cert.Spec.norm (F := Ideal) e))
    (hx : U (Proc.devRef .tc main_v64) = xw) :
    after hostOps3 U (Proc.devRef .tc main_v76) = Cert.Spec.agg (F := Ideal) e xw := by
  after_results_simp
  rw [h1, h3, h27, hx]
  rfl

end Cert.KernelIdeal.HostReads

end
-- ==== Proof.LibMatProd.lean ====
/-
  The plain matrix product `[M, K] × [K, N] → [M, N]` (contract the left operand's last axis with the right
  operand's first, no batch axis), read at an index over the extended reals: entry `(i, j)` is
  `∑ k, l (i, k) * r (k, j)`, both for the host's `dot_general` and for a kernel's matrix product into a zero
  accumulator. A change of float format is the identity over the extended reals.
-/
import Idealize.ShloMosaic.PureOps.Ideal
import Idealize.ShloMosaic.PureOps.Ideal.Laws
import Idealize.ShloMosaic.Lib.ValueIdx

noncomputable section

open scoped BigOperators

namespace Cert.MatProd

open Idealize.ShloMosaic Idealize.ShloMosaic.ValueIdx

variable {M K N : Nat}

/-- The contraction index of a plain product is its one coordinate `k : Fin K`. -/
abbrev kEquiv (M K N : Nat) : (DotDims.plain M K N).contr.Idx ≃ Fin K := contrEquiv1 (DotDims.plain M K N) K rfl rfl

/-- On the row axis the left operand's index is the output's row. -/
theorem plain_lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- On the column axis the right operand's index is the output's column. -/
theorem plain_rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index for output `(i, j)` and contraction coordinate `k` is `(i, k)`. -/
theorem plain_lhsIdx (i : Fin M) (j : Fin N) (k : Fin K) :
    (DotDims.plain M K N).lhsIdx (ix2 i j) ((kEquiv M K N).symm k) = ix2 i k := by
  funext a; refine Fin.ext ?_
  match a with
  | ⟨0, _⟩ => exact plain_lhs_row _ _
  | ⟨1, _⟩ =>
    exact ((DotDims.plain M K N).lhsIdx_val_of_single (cl := (1 : Fin 2)) rfl _ _).trans
      (contrEquiv1_symm_val (DotDims.plain M K N) K rfl rfl k)

/-- The right operand's index for output `(i, j)` and contraction coordinate `k` is `(k, j)`. -/
theorem plain_rhsIdx (i : Fin M) (j : Fin N) (k : Fin K) :
    (DotDims.plain M K N).rhsIdx (ix2 i j) ((kEquiv M K N).symm k) = ix2 k j := by
  funext a; refine Fin.ext ?_
  match a with
  | ⟨0, _⟩ =>
    exact ((DotDims.plain M K N).rhsIdx_val_of_single (cr := (0 : Fin 2)) rfl _ _).trans
      (contrEquiv1_symm_val (DotDims.plain M K N) K rfl rfl k)
  | ⟨1, _⟩ => exact plain_rhs_col _ _

/-- THE HOST PRODUCT AT `(i, j)`. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j) = ∑ k : Fin K, l (ix2 i k) * r (ix2 k j) := by
  rw [Ideal.dotGeneral_apply, ← Equiv.sum_comp (kEquiv M K N).symm]
  refine Finset.sum_congr rfl fun k _ => ?_
  rw [plain_lhsIdx, plain_rhsIdx]

/-- THE KERNEL PRODUCT INTO A ZERO ACCUMULATOR AT `(i, j)`. -/
theorem matmul_plain_zero_apply {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant ⟨2, ![M, N]⟩ .f32 0x00000000#32) (ix2 i j)
      = ∑ k : Fin K, l (ix2 i k) * r (ix2 k j) := by
  rw [Ideal.matmul_constant_zero_apply, ← Equiv.sum_comp (kEquiv M K N).symm]
  refine Finset.sum_congr rfl fun k _ => ?_
  rw [plain_lhsIdx, plain_rhsIdx]

/-- The product as one whole-array function of the two operands. -/
def prod (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

theorem prod_apply (A : (⟨2, ![M, K]⟩ : Shape).Idx → EReal) (B : (⟨2, ![K, N]⟩ : Shape).Idx → EReal) (i : Fin M) (j : Fin N) :
    prod A B (ix2 i j) = ∑ k : Fin K, A (ix2 i k) * B (ix2 k j) := rfl

/-- Entry `(p, q)` of a product of BLOCKS is entry `i` of the product of the whole arrays, when row `p` of the left
    block is row `i 0` of the left array and column `q` of the right block is column `i 1` of the right array. -/
theorem prod_block_eq {M' N' : Nat} (A : (⟨2, ![M, K]⟩ : Shape).Idx → EReal) (B : (⟨2, ![K, N]⟩ : Shape).Idx → EReal)
    (A' : (⟨2, ![M', K]⟩ : Shape).Idx → EReal) (B' : (⟨2, ![K, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, B' (ix2 k q) = B (ix2 k (i 1))) :
    prod A' B' (ix2 p q) = prod A B i := by
  show ∑ k : Fin K, A' (ix2 p k) * B' (ix2 k q) = ∑ k : Fin K, A (ix2 (i 0) k) * B (ix2 k (i 1))
  exact Finset.sum_congr rfl fun k _ => by rw [h0 k, h1 k]

/-- The host product IS that function. -/
theorem dotGeneral_plain_eq {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = prod l r := by
  funext i
  obtain ⟨p, q, rfl⟩ : ∃ (p : Fin M) (q : Fin N), i = ix2 p q := ⟨i 0, i 1, eq_ix2 i⟩
  exact dotGeneral_plain_apply prec sched l r p q

/-- The kernel product into a zero accumulator IS that function. -/
theorem matmul_plain_zero_eq {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = prod l r := by
  funext i
  obtain ⟨p, q, rfl⟩ : ∃ (p : Fin M) (q : Fin N), i = ix2 p q := ⟨i 0, i 1, eq_ix2 i⟩
  exact matmul_plain_zero_apply prec l r p q

/-- A dense layer: the product with a weight matrix, plus a bias row, clamped below at zero (the clamp is the
    zero word read as an extended real). -/
def denseRelu (A : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => max (prod A W i + B (ix2 0 (i 1))) (Ideal.ofBits .f32 0x00000000#32)

/-- Entry `(p, q)` of the dense layer of a BLOCK of rows is entry `i` of the dense layer of the whole array, when row
    `p` of the block is row `i 0` of the array and the weight and bias blocks are read at column `i 1`. -/
theorem denseRelu_block_eq {M' N' : Nat} (A : (⟨2, ![M, K]⟩ : Shape).Idx → EReal) (W : (⟨2, ![K, N]⟩ : Shape).Idx → EReal)
    (B : (⟨2, ![1, N]⟩ : Shape).Idx → EReal)
    (A' : (⟨2, ![M', K]⟩ : Shape).Idx → EReal) (W' : (⟨2, ![K, N']⟩ : Shape).Idx → EReal) (B' : (⟨2, ![1, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, W' (ix2 k q) = W (ix2 k (i 1)))
    (h2 : B' (ix2 0 q) = B (ix2 0 (i 1))) :
    denseRelu A' W' B' (ix2 p q) = denseRelu A W B i := by
  show max (prod A' W' (ix2 p q) + B' (ix2 0 q)) _ = max (prod A W i + B (ix2 0 (i 1))) _
  rw [prod_block_eq A W A' W' p q i h0 h1, h2]

/-- A two-layer head: a dense layer, then a product with a one-column matrix, plus a scalar bias. -/
def mlpHead {G H : Nat} (P : (⟨2, ![G, H]⟩ : Shape).Idx → EReal) (W1 : (⟨2, ![H, H]⟩ : Shape).Idx → EReal)
    (B1 : (⟨2, ![1, H]⟩ : Shape).Idx → EReal) (W2 : (⟨2, ![H, 1]⟩ : Shape).Idx → EReal)
    (B2 : (⟨2, ![1, 1]⟩ : Shape).Idx → EReal) : (⟨2, ![G, 1]⟩ : Shape).Idx → EReal :=
  fun i => prod (denseRelu P W1 B1) W2 i + B2 (ix2 0 0)

end Cert.MatProd

end
-- ==== Proof.LibBroadcastTo.lean ====
/-
  A vector broadcast of a row or of a column to a matrix, read at an entry. General in the extents.

  * a row `[1, n]` broadcast down `m` rows: entry `(p, k)` is the row's entry `(0, k)`;
  * a column `[m, 1]` broadcast across `n` columns: entry `(p, k)` is the column's entry `(p, 0)`.
-/
import Idealize.ShloMosaic.Lib.Pipeline.Value
import Idealize.ShloMosaic.Lib.ValueIdx

noncomputable section

namespace Cert.BroadcastTo

open Idealize.ShloMosaic Idealize.ShloMosaic.ValueIdx

variable {α : Type} {m n : Nat}

/-- A row broadcast down the rows keeps the column coordinate. -/
theorem row_apply (x : (⟨2, ![1, n]⟩ : Shape).Idx → α) (h : (⟨2, ![1, n]⟩ : Shape).Broadcasts ⟨2, ![m, n]⟩)
    (p : Fin m) (k : Fin n) : broadcastTo ⟨2, ![m, n]⟩ x h (ix2 p k) = x (ix2 0 k) :=
  broadcastTo_apply x h (ix2 p k) (ix2 0 k) (fun a => match a with
    | ⟨0, _⟩ => by show (0 : ℕ) = if (1 : ℕ) = 1 then 0 else _; rw [if_pos rfl]
    | ⟨1, _⟩ => by
      show k.val = if n = 1 then 0 else k.val
      split
      · have := k.isLt; omega
      · rfl)

/-- A column broadcast across the columns keeps the row coordinate. -/
theorem col_apply (x : (⟨2, ![m, 1]⟩ : Shape).Idx → α) (h : (⟨2, ![m, 1]⟩ : Shape).Broadcasts ⟨2, ![m, n]⟩)
    (p : Fin m) (k : Fin n) : broadcastTo ⟨2, ![m, n]⟩ x h (ix2 p k) = x (ix2 p 0) :=
  broadcastTo_apply x h (ix2 p k) (ix2 p 0) (fun a => match a with
    | ⟨0, _⟩ => by
      show p.val = if m = 1 then 0 else p.val
      split
      · have := p.isLt; omega
      · rfl
    | ⟨1, _⟩ => by show (0 : ℕ) = if (1 : ℕ) = 1 then 0 else _; rw [if_pos rfl])

end Cert.BroadcastTo

end
-- ==== Proof.LibBroadcast.lean ====
/-
  Small layout operations read at an index: a vector as a row, a row or a vector broadcast down the rows, a vector as
  a column, a column broadcast across the columns, and a splat constant. Generic in the extents.
-/
import Idealize.ShloMosaic.PureOps.Ideal
import Idealize.ShloMosaic.Lib.Pipeline.Value
import Idealize.ShloMosaic.Lib.ValueIdx

noncomputable section

namespace Cert.Layout

open Idealize.ShloMosaic Idealize.ShloMosaic.ValueIdx

variable {α : Type} {m n : Nat}

/-- A vector `[n]` reshaped to a row `[1, n]`, read at `(0, k)`. -/
theorem row_of_vec_apply (x : (⟨1, ![n]⟩ : Shape).Idx → α) (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]; show k.val = 0 * n + k.val; omega)

/-- A vector `[n]` as a row `[1, n]` broadcast down `m` rows, read at `(p, k)`. -/
theorem rows_of_vec_apply (x : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (p : Fin m) (k : Fin n) :
    broadcastInDim ⟨2, ![m, n]⟩ ![0, 1] h2 (broadcastInDim ⟨2, ![1, n]⟩ ![1] h1 x) (ix2 p k) = x (ix1 k) := by
  have hk : k.val < n := k.isLt
  refine (broadcastInDim_apply ![0, 1] h2 _ (ix2 p k) (ix2 0 k) (fun a => ?_)).trans
    (broadcastInDim_apply ![1] h1 x (ix2 0 k) (ix1 k) (fun a => ?_))
  · match a with
    | ⟨0, _⟩ => show (0 : ℕ) = if (1 : ℕ) = 1 then 0 else _; rw [if_pos rfl]
    | ⟨1, _⟩ =>
      show k.val = if n = 1 then 0 else k.val
      split
      · omega
      · rfl
  · match a with
    | ⟨0, _⟩ =>
      show k.val = if n = 1 then 0 else k.val
      split
      · omega
      · rfl

/-- A per-row vector `[m]` as a column `[m, 1]`, read at `(e, 0)`. -/
theorem col_of_vec_apply (v : (⟨1, ![m]⟩ : Shape).Idx → α)
    (h : (⟨1, ![m]⟩ : Shape).BroadcastsInDim ⟨2, ![m, 1]⟩ ![0]) (e : Fin m) :
    broadcastInDim ⟨2, ![m, 1]⟩ ![0] h v (ix2 e 0) = v (ix1 e) := by
  have he : e.val < m := e.isLt
  refine broadcastInDim_apply ![0] h v (ix2 e 0) (ix1 e) (fun a => ?_)
  match a with
  | ⟨0, _⟩ =>
    show e.val = if m = 1 then 0 else e.val
    split
    · omega
    · rfl

/-- A column `[m, 1]` broadcast across `n` columns, read at `(e, c)`. -/
theorem cols_of_col_apply (w : (⟨2, ![m, 1]⟩ : Shape).Idx → α)
    (h : (⟨2, ![m, 1]⟩ : Shape).BroadcastsInDim ⟨2, ![m, n]⟩ ![0, 1]) (e : Fin m) (c : Fin n) :
    broadcastInDim ⟨2, ![m, n]⟩ ![0, 1] h w (ix2 e c) = w (ix2 e 0) := by
  have he : e.val < m := e.isLt
  refine broadcastInDim_apply ![0, 1] h w (ix2 e c) (ix2 e 0) (fun a => ?_)
  match a with
  | ⟨0, _⟩ =>
    show e.val = if m = 1 then 0 else e.val
    split
    · omega
    · rfl
  | ⟨1, _⟩ => show (0 : ℕ) = if (1 : ℕ) = 1 then 0 else _; rw [if_pos rfl]

/-- A splat of a float word, read anywhere, is the word read as an extended real. -/
theorem splat_apply {s : Shape} (hb : (⟨0, ![]⟩ : Shape).BroadcastsInDim s (![] : Fin 0 → Fin s.rank)) (w : BitVec 32) (i : s.Idx) :
    broadcastInDim s ![] hb (constant (F := Ideal) ⟨0, ![]⟩ .f32 w) i = Ideal.ofBits .f32 w := rfl

end Cert.Layout

end
-- ==== Proof.LibDenseLayer.lean ====
/-
  One dense layer of a perceptron — a matrix product with a weight matrix, plus a bias row, clamped below at zero — read
  over the extended reals as ONE function (`Cert.MatProd.denseRelu`) in the two spellings it is met in, general in the
  three extents and in the operands' float formats:

    * the kernel's: a matrix product into a zero accumulator, plus the bias ROW `[1, N]` broadcast down the rows, then a
      maximum with a splat zero (`kernel_layer`; without the clamp, entry by entry, `kernel_affine`);
    * the host's: a `dot_general`, plus the bias VECTOR `[N]` laid out as a row and broadcast down the rows (two
      `broadcast_in_dim`s), then a maximum with a broadcast zero constant (`host_layer`; without the clamp,
      `host_affine`).

  The product's dimension record is any record equal to the plain one (rows by contraction times contraction by
  columns); `asRow` lays a vector out as a one-row matrix. No finiteness is asked: both sides are the same sum, term by
  term. Imports LibMatProd, LibBroadcastTo and LibBroadcast, which must be copied with it.
-/
import proofs.«110162_j63848983822724_1_alg».proof.Proof.LibMatProd
import proofs.«110162_j63848983822724_1_alg».proof.Proof.LibBroadcastTo
import proofs.«110162_j63848983822724_1_alg».proof.Proof.LibBroadcast
import Idealize.ShloMosaic.PureOps.Contract
import Idealize.ShloMosaic.Lib.Pipeline.Value

noncomputable section

open scoped BigOperators

namespace Cert.DenseLayer

open Idealize.ShloMosaic Idealize.ShloMosaic.ValueIdx Cert.MatProd

/-- A matrix of extended reals with `M` rows and `N` columns. -/
abbrev Mat (M N : Nat) : Type := (⟨2, ![M, N]⟩ : Shape).Idx → EReal

/-- A vector of length `N` laid out as a one-row matrix. -/
def asRow {N : Nat} (b : (⟨1, ![N]⟩ : Shape).Idx → EReal) : Mat 1 N := fun i => b (ix1 (i 1))

/-- The kernel's product plus bias row: a matrix product into a zero accumulator, plus the bias row broadcast down the rows. -/
theorem kernel_affine {M K N : Nat} {φ₁ φ₂ : FTy} (d : DotDims ⟨2, ![M, K]⟩ ⟨2, ![K, N]⟩ ⟨2, ![M, N]⟩)
    (hd : d = DotDims.plain M K N) (a : FVec Ideal ⟨2, ![M, K]⟩ φ₁) (w : FVec Ideal ⟨2, ![K, N]⟩ φ₂)
    (b : FVec Ideal ⟨2, ![1, N]⟩ .f32) (hb : (⟨2, ![1, N]⟩ : Shape).Broadcasts ⟨2, ![M, N]⟩) (p : Fin M) (q : Fin N) :
    addf (matmul d none a w (constant ⟨2, ![M, N]⟩ .f32 0x00000000#32)) (broadcastTo ⟨2, ![M, N]⟩ b hb) (ix2 p q)
      = prod a w (ix2 p q) + b (ix2 0 q) := by
  subst hd
  show FloatOps.matmul (DotDims.plain M K N) none a w (constant ⟨2, ![M, N]⟩ .f32 0x00000000#32) (ix2 p q)
      + broadcastTo ⟨2, ![M, N]⟩ b hb (ix2 p q) = _
  rw [matmul_plain_zero_apply, Cert.BroadcastTo.row_apply]
  rfl

/-- The kernel's dense layer is `denseRelu`. -/
theorem kernel_layer {M K N : Nat} {φ₁ φ₂ : FTy} (d : DotDims ⟨2, ![M, K]⟩ ⟨2, ![K, N]⟩ ⟨2, ![M, N]⟩)
    (hd : d = DotDims.plain M K N) (a : FVec Ideal ⟨2, ![M, K]⟩ φ₁) (w : FVec Ideal ⟨2, ![K, N]⟩ φ₂)
    (b : FVec Ideal ⟨2, ![1, N]⟩ .f32) (hb : (⟨2, ![1, N]⟩ : Shape).Broadcasts ⟨2, ![M, N]⟩) :
    maximumf (addf (matmul d none a w (constant ⟨2, ![M, N]⟩ .f32 0x00000000#32)) (broadcastTo ⟨2, ![M, N]⟩ b hb))
        (broadcast ⟨2, ![M, N]⟩ (Scalar.ofBits (F := Ideal) .f32 0x00000000#32))
      = denseRelu a w b := by
  funext i
  obtain ⟨p, q, rfl⟩ : ∃ (p : Fin M) (q : Fin N), i = ix2 p q := ⟨i 0, i 1, eq_ix2 i⟩
  show max (addf (matmul d none a w (constant ⟨2, ![M, N]⟩ .f32 0x00000000#32)) (broadcastTo ⟨2, ![M, N]⟩ b hb) (ix2 p q)) _ = _
  rw [kernel_affine d hd a w b hb p q]
  rfl

/-- The host's product plus bias: a `dot_general`, plus the bias vector laid out as a row and broadcast down the rows. -/
theorem host_affine {M K N : Nat} {φ₁ φ₂ : FTy} (d : DotDims ⟨2, ![M, K]⟩ ⟨2, ![K, N]⟩ ⟨2, ![M, N]⟩)
    (hd : d = DotDims.plain M K N) (a : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    addf (Host.dotGeneral d none a w) (broadcastInDim ⟨2, ![M, N]⟩ ![0, 1] h2 (broadcastInDim ⟨2, ![1, N]⟩ ![1] h1 b)) (ix2 p q)
      = prod a w (ix2 p q) + asRow b (ix2 0 q) := by
  subst hd
  show FloatOps.dotGeneral (DotDims.plain M K N) none .single a w (ix2 p q)
      + broadcastInDim ⟨2, ![M, N]⟩ ![0, 1] h2 (broadcastInDim ⟨2, ![1, N]⟩ ![1] h1 b) (ix2 p q) = _
  rw [dotGeneral_plain_apply, Cert.Layout.rows_of_vec_apply]
  rfl

/-- The host's dense layer is `denseRelu`. -/
theorem host_layer {M K N : Nat} {φ₁ φ₂ : FTy} (d : DotDims ⟨2, ![M, K]⟩ ⟨2, ![K, N]⟩ ⟨2, ![M, N]⟩)
    (hd : d = DotDims.plain M K N) (a : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ (![] : Fin 0 → Fin 2)) :
    maximumf (addf (Host.dotGeneral d none a w) (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = denseRelu a w (asRow b) := by
  funext i
  obtain ⟨p, q, rfl⟩ : ∃ (p : Fin M) (q : Fin N), i = ix2 p q := ⟨i 0, i 1, eq_ix2 i⟩
  show max (addf (Host.dotGeneral d none a w) (broadcastInDim ⟨2, ![M, N]⟩ ![0, 1] h2 (broadcastInDim ⟨2, ![1, N]⟩ ![1] h1 b)) (ix2 p q))
      (broadcastInDim ⟨2, ![M, N]⟩ ![] h0 (constant (F := Ideal) ⟨0, ![]⟩ .f32 0x00000000#32) (ix2 p q)) = _
  rw [host_affine d hd a w b h1 h2 p q, Cert.Layout.splat_apply]
  rfl

end Cert.DenseLayer

end
-- ==== Proof.LibCat.lean ====
/-
  A two-piece concatenation as a plain binary function of its pieces, so that a rewriting pass can reach the pieces (they
  sit, in the printed form, inside a list of shape-indexed pairs), with its reading at an index: along the concatenated
  axis, coordinates below the first piece's extent read the first piece, the others read the second piece at the
  coordinate less that extent. And the evaluation of a line of host operations at a buffer as one rewriting pass that
  also folds such concatenations.
-/
import Idealize.ShloMosaic.PureOps.Ideal
import Idealize.ShloMosaic.Lib.Pipeline.Value
import Idealize.ShloMosaic.Lib.ValueIdx
import Idealize.ShloMosaic.Lib.StableHlo.Run

noncomputable section

namespace Cert.Cat

open Idealize.ShloMosaic Idealize.ShloMosaic.ValueIdx

variable {α : Type}

/-- The concatenation of two pieces along axis `a`. -/
def cat2 (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

theorem cat2_fold (t : Shape) (a : Fin t.rank) (s₁ s₂ : Shape) (h : Shape.Concatenates [s₁, s₂] t a)
    (x₁ : s₁.Idx → α) (x₂ : s₂.Idx → α) :
    concatenate t a [⟨s₁, x₁⟩, ⟨s₂, x₂⟩] h = cat2 t a s₁ s₂ h x₁ x₂ := rfl

/-- Two `[R, A]` and `[R, B]` pieces side by side: a column below `A` reads the first piece. -/
theorem cat2_cols_left {R A B : Nat} (h : Shape.Concatenates [(⟨2, ![R, A]⟩ : Shape), ⟨2, ![R, B]⟩] ⟨2, ![R, A + B]⟩ 1)
    (x₁ : (⟨2, ![R, A]⟩ : Shape).Idx → α) (x₂ : (⟨2, ![R, B]⟩ : Shape).Idx → α) (r : Fin R) (k : Fin A) :
    cat2 ⟨2, ![R, A + B]⟩ 1 ⟨2, ![R, A]⟩ ⟨2, ![R, B]⟩ h x₁ x₂ (ix2 r (Fin.castAdd B k)) = x₁ (ix2 r k) :=
  concatenate_pair_apply_left 1 x₁ x₂ h (ix2 r (Fin.castAdd B k)) rfl (ix2 r k) (fun b => by
    match b with
    | ⟨0, _⟩ => rfl
    | ⟨1, _⟩ => rfl)

/-- … and a column `A + k` reads the second piece at column `k`. -/
theorem cat2_cols_right {R A B : Nat} (h : Shape.Concatenates [(⟨2, ![R, A]⟩ : Shape), ⟨2, ![R, B]⟩] ⟨2, ![R, A + B]⟩ 1)
    (x₁ : (⟨2, ![R, A]⟩ : Shape).Idx → α) (x₂ : (⟨2, ![R, B]⟩ : Shape).Idx → α) (r : Fin R) (k : Fin B) :
    cat2 ⟨2, ![R, A + B]⟩ 1 ⟨2, ![R, A]⟩ ⟨2, ![R, B]⟩ h x₁ x₂ (ix2 r (Fin.natAdd A k)) = x₂ (ix2 r k) :=
  concatenate_pair_apply_right 1 x₁ x₂ h (ix2 r (Fin.natAdd A k)) rfl rfl (ix2 r k) (fun b hb => by
    match b with
    | ⟨0, _⟩ => rfl
    | ⟨1, _⟩ => exact absurd rfl hb) (by show k.val + A = A + k.val; omega)

end Cert.Cat

open Idealize.ShloMosaic.StableHlo in
/-- A line's fold at a buffer: the library's one-pass evaluation, alternated with folding two-piece concatenations into
    binary functions (whose pieces the next pass then reaches), until neither makes progress. -/
macro "eval_line" : tactic =>
  `(tactic| repeat (first | after_results_simp | simp only [Cert.Cat.cat2_fold]))

end
-- ==== Proof.LibThreeColumnPieces.lean ====
/-
  Side-by-side concatenations read at a column. Two pieces `[R, A]` and `[R, B]`: a column below `A` reads the first
  piece at that column, any other column reads the second piece at the column less `A`. Any number of pieces
  `[R, 3]`: column `c` reads piece `c / 3` at column `c % 3`.
-/
import Idealize.ShloMosaic.PureOps.Ideal
import Idealize.ShloMosaic.Lib.Pipeline.Value
import Idealize.ShloMosaic.Lib.ValueIdx
import proofs.«110162_j63848983822724_1_alg».proof.Proof.LibCat

noncomputable section

namespace Cert.RefJoints

open Idealize.ShloMosaic Idealize.ShloMosaic.ValueIdx

variable {α : Type} {R : Nat}

/-- Two pieces side by side, read at a column below the first piece's width. -/
theorem cat_cols_lt {A B : Nat} (h : Shape.Concatenates [(⟨2, ![R, A]⟩ : Shape), ⟨2, ![R, B]⟩] ⟨2, ![R, A + B]⟩ 1)
    (x₁ : (⟨2, ![R, A]⟩ : Shape).Idx → α) (x₂ : (⟨2, ![R, B]⟩ : Shape).Idx → α) (r : Fin R) (c : Fin (A + B))
    (hc : c.val < A) :
    concatenate ⟨2, ![R, A + B]⟩ 1 [⟨⟨2, ![R, A]⟩, x₁⟩, ⟨⟨2, ![R, B]⟩, x₂⟩] h (ix2 r c) = x₁ (ix2 r ⟨c.val, hc⟩) := by
  have key : ∀ k : Fin A, c = Fin.castAdd B k →
      concatenate ⟨2, ![R, A + B]⟩ 1 [⟨⟨2, ![R, A]⟩, x₁⟩, ⟨⟨2, ![R, B]⟩, x₂⟩] h (ix2 r c) = x₁ (ix2 r k) := by
    rintro k rfl
    exact Cert.Cat.cat2_cols_left h x₁ x₂ r k
  exact key ⟨c.val, hc⟩ (Fin.ext rfl)

/-- Two pieces side by side, read at a column not below the first piece's width. -/
theorem cat_cols_ge {A B : Nat} (h : Shape.Concatenates [(⟨2, ![R, A]⟩ : Shape), ⟨2, ![R, B]⟩] ⟨2, ![R, A + B]⟩ 1)
    (x₁ : (⟨2, ![R, A]⟩ : Shape).Idx → α) (x₂ : (⟨2, ![R, B]⟩ : Shape).Idx → α) (r : Fin R) (c : Fin (A + B))
    (hc : ¬ c.val < A) :
    concatenate ⟨2, ![R, A + B]⟩ 1 [⟨⟨2, ![R, A]⟩, x₁⟩, ⟨⟨2, ![R, B]⟩, x₂⟩] h (ix2 r c)
      = x₂ (ix2 r ⟨c.val - A, by have := c.isLt; omega⟩) := by
  have key : ∀ k : Fin B, c = Fin.natAdd A k →
      concatenate ⟨2, ![R, A + B]⟩ 1 [⟨⟨2, ![R, A]⟩, x₁⟩, ⟨⟨2, ![R, B]⟩, x₂⟩] h (ix2 r c) = x₂ (ix2 r k) := by
    rintro k rfl
    exact Cert.Cat.cat2_cols_right h x₁ x₂ r k
  exact key ⟨c.val - A, by have := c.isLt; omega⟩ (Fin.ext (by show c.val = A + (c.val - A); omega))

/-- `N` pieces of three columns each side by side (piece `k` of the list is `f k`), read at column `c`: piece `c / 3` at
    column `c % 3`. -/
theorem cat_threes_apply {n N : Nat} (xs : List ((s : Shape) × (s.Idx → α))) (hN : xs.length = N)
    (f : Fin N → (⟨2, ![R, 3]⟩ : Shape).Idx → α)
    (hxs : ∀ (k : Nat) (hk : k < xs.length), xs[k] = ⟨⟨2, ![R, 3]⟩, f ⟨k, hN ▸ hk⟩⟩)
    (h : Shape.Concatenates (xs.map (·.1)) ⟨2, ![R, n]⟩ 1) (r : Fin R) (c : Fin n) (hc : c.val / 3 < N) :
    concatenate ⟨2, ![R, n]⟩ 1 xs h (ix2 r c)
      = f ⟨c.val / 3, hc⟩ (ix2 r ⟨c.val % 3, Nat.mod_lt _ (by norm_num)⟩) := by
  have hk : c.val / 3 < xs.length := hN ▸ hc
  refine concatenate_apply_piece 1 xs h (ix2 r c) (c.val / 3) hk ⟨2, ![R, 3]⟩ (f ⟨c.val / 3, hc⟩) (hxs _ hk) rfl
    (3 * (c.val / 3)) ?_ (ix2 r ⟨c.val % 3, Nat.mod_lt _ (by norm_num)⟩) (fun b hb => ?_) ?_
  · -- every piece before piece `c / 3` is three columns wide
    have hall : ∀ x ∈ (((xs.take (c.val / 3)).map (·.1)).map fun s : Shape =>
        if h : s.rank = (⟨2, ![R, n]⟩ : Shape).rank then s.size ((1 : Fin 2).cast h.symm) else 0), x = 3 := by
      intro x hx
      simp only [List.map_map, List.mem_map, Function.comp] at hx
      obtain ⟨p, hp, rfl⟩ := hx
      obtain ⟨i, hi, rfl⟩ := List.getElem_of_mem (List.mem_of_mem_take hp)
      rw [hxs i hi]
      rfl
    rw [List.eq_replicate_of_mem hall, List.sum_replicate_nat, List.length_map, List.length_map, List.length_take,
      Nat.min_eq_left (Nat.le_of_lt hk), Nat.mul_comm]
  · match b with
    | ⟨0, _⟩ => rfl
    | ⟨1, _⟩ => exact absurd rfl hb
  · show 3 * (c.val / 3) + c.val % 3 = c.val
    exact Nat.div_add_mod _ _

end Cert.RefJoints

end
-- ==== Proof.LibSumSplit.lean ====
/-
  A finite sum over `Fin n`, where `n` is a sum of five extents, taken extent by extent: the terms at positions
  `0 ≤ d < n0`, then `n0 ≤ · < n0 + n1`, and so on, added left to right. This is what contracting over an axis made by
  laying five pieces end to end amounts to. It holds in any additive commutative monoid (only associativity of the sum
  is used), so on the extended reals it asks nothing of the terms: infinities are allowed.
-/
import Mathlib.Algebra.BigOperators.Fin

open scoped BigOperators

namespace Cert.SumSplit

variable {M : Type*} [AddCommMonoid M]

/-- Two extents: the sum over `Fin n`, `n = a + b`, is the sum of the first `a` terms plus the sum of the last `b`. -/
theorem sum_two {n : ℕ} (a b : ℕ) (h : a + b = n) (g : Fin n → M) :
    ∑ d, g d = (∑ d : Fin a, g ⟨d.val, by have := d.isLt; omega⟩) + ∑ d : Fin b, g ⟨a + d.val, by have := d.isLt; omega⟩ := by
  subst h
  rw [Fin.sum_univ_add]
  rfl

/-- Five extents, the partial sums added left to right. -/
theorem sum_five {n : ℕ} (n0 n1 n2 n3 n4 : ℕ) (h : n0 + n1 + n2 + n3 + n4 = n) (g : Fin n → M) :
    ∑ d, g d =
      (∑ d : Fin n0, g ⟨d.val, by have := d.isLt; omega⟩)
      + (∑ d : Fin n1, g ⟨n0 + d.val, by have := d.isLt; omega⟩)
      + (∑ d : Fin n2, g ⟨n0 + n1 + d.val, by have := d.isLt; omega⟩)
      + (∑ d : Fin n3, g ⟨n0 + n1 + n2 + d.val, by have := d.isLt; omega⟩)
      + (∑ d : Fin n4, g ⟨n0 + n1 + n2 + n3 + d.val, by have := d.isLt; omega⟩) := by
  rw [sum_two (n0 + n1 + n2 + n3) n4 h g,
    sum_two (n0 + n1 + n2) n3 rfl (fun d : Fin (n0 + n1 + n2 + n3) => g ⟨d.val, by have := d.isLt; omega⟩),
    sum_two (n0 + n1) n2 rfl (fun d : Fin (n0 + n1 + n2) => g ⟨d.val, by have := d.isLt; omega⟩),
    sum_two n0 n1 rfl (fun d : Fin (n0 + n1) => g ⟨d.val, by have := d.isLt; omega⟩)]

end Cert.SumSplit
-- ==== Proof.BlockEmbed.lean ====
/-
  The embedding perceptron on a block of rows. Entry (p, q) of the kernel body's value computed from blocks equals entry
  (r, q) of the reference's stage computed from whole arrays, when row p of each row-blocked input is row r of the
  corresponding array and the weight and bias blocks are the weight and bias arrays. The kernel multiplies the feature
  block and the pooled block by the two row slices of the first weight matrix separately and adds; the reference
  multiplies the side-by-side concatenation by the whole matrix: a sum over 192 columns is the sum over the first 128
  plus the sum over the last 64. Everything else is the same sum term by term; no finiteness is needed.
-/
import proofs.«110162_j63848983822724_1_alg».proof.Proof.Spec
import proofs.«110162_j63848983822724_1_alg».proof.Proof.Gen.KernelIdeal.Skeleton
import proofs.«110162_j63848983822724_1_alg».proof.Proof.LibMatProd
import proofs.«110162_j63848983822724_1_alg».proof.Proof.LibDenseLayer
import proofs.«110162_j63848983822724_1_alg».proof.Proof.LibThreeColumnPieces
import proofs.«110162_j63848983822724_1_alg».proof.Proof.LibSumSplit
import Idealize.ShloMosaic.Lib.ValueIdx
import Idealize.ShloMosaic.Lib.Pipeline.Value

noncomputable section
namespace Cert.Blocks
open Idealize.ShloMosaic Idealize.ShloMosaic.ValueIdx
open scoped BigOperators
open Cert.MatProd Cert.DenseLayer

variable [Cert.KernelIdeal.Facts] [Cert.ReferenceIdeal.Facts]

/-- A product with the concatenation [X | Y] on the left is the product with X against the upper rows of the right
    operand plus the product with Y against its lower rows. -/
theorem prod_cat_split {R M A B N : Nat}
    (h : Shape.Concatenates [(⟨2, ![R, A]⟩ : Shape), ⟨2, ![R, B]⟩] ⟨2, ![R, A + B]⟩ 1)
    (X : (⟨2, ![R, A]⟩ : Shape).Idx → EReal) (Y : (⟨2, ![R, B]⟩ : Shape).Idx → EReal)
    (W : (⟨2, ![A + B, N]⟩ : Shape).Idx → EReal)
    (a : (⟨2, ![M, A]⟩ : Shape).Idx → EReal) (wa : (⟨2, ![A, N]⟩ : Shape).Idx → EReal)
    (b : (⟨2, ![M, B]⟩ : Shape).Idx → EReal) (wb : (⟨2, ![B, N]⟩ : Shape).Idx → EReal)
    (p : Fin M) (r : Fin R) (q : Fin N)
    (ha : ∀ k : Fin A, a (ix2 p k) = X (ix2 r k)) (hb : ∀ k : Fin B, b (ix2 p k) = Y (ix2 r k))
    (hwa : ∀ k : Fin A, wa (ix2 k q) = W (ix2 (⟨k.val, by omega⟩ : Fin (A + B)) q))
    (hwb : ∀ k : Fin B, wb (ix2 k q) = W (ix2 (⟨A + k.val, by omega⟩ : Fin (A + B)) q)) :
    prod a wa (ix2 p q) + prod b wb (ix2 p q)
      = prod (concatenate ⟨2, ![R, A + B]⟩ 1 [⟨⟨2, ![R, A]⟩, X⟩, ⟨⟨2, ![R, B]⟩, Y⟩] h) W (ix2 r q) := by
  rw [prod_apply, prod_apply, prod_apply, Cert.SumSplit.sum_two A B rfl]
  congr 1
  · refine Finset.sum_congr rfl fun k _ => ?_
    rw [Cert.RefJoints.cat_cols_lt h X Y r ⟨k.val, by omega⟩ k.isLt, ha, hwa]
  · refine Finset.sum_congr rfl fun k _ => ?_
    rw [Cert.RefJoints.cat_cols_ge h X Y r ⟨A + k.val, by omega⟩ (by simp), hb, hwb]
    refine congrArg (· * _) (congrArg Y (congrArg (ix2 r) (Fin.ext ?_)))
    show k.val = A + k.val - A
    omega

/-- A kernel's product into a zero accumulator, entry by entry. -/
theorem matmul_zero_prod {M K N : Nat} {φ₁ φ₂ : FTy} (d : DotDims ⟨2, ![M, K]⟩ ⟨2, ![K, N]⟩ ⟨2, ![M, N]⟩)
    (hd : d = DotDims.plain M K N) (a : FVec Ideal ⟨2, ![M, K]⟩ φ₁) (w : FVec Ideal ⟨2, ![K, N]⟩ φ₂) (p : Fin M) (q : Fin N) :
    matmul d none a w (constant ⟨2, ![M, N]⟩ .f32 0x00000000#32) (ix2 p q) = prod a w (ix2 p q) := by
  subst hd
  exact matmul_plain_zero_apply none a w p q

/-- The host's product, entry by entry. -/
theorem host_prod {M K N : Nat} {φ₁ φ₂ : FTy} (d : DotDims ⟨2, ![M, K]⟩ ⟨2, ![K, N]⟩ ⟨2, ![M, N]⟩)
    (hd : d = DotDims.plain M K N) (a : FVec Ideal ⟨2, ![M, K]⟩ φ₁) (w : FVec Ideal ⟨2, ![K, N]⟩ φ₂) (p : Fin M) (q : Fin N) :
    Host.dotGeneral d none a w (ix2 p q) = prod a w (ix2 p q) := by
  subst hd
  exact dotGeneral_plain_apply none .single a w p q

/-- The hyperbolic tangent acts entry by entry, in a kernel body and on the host alike. -/
theorem tanh_apply {s : Shape} (x : FVec Ideal s .f32) (i : s.Idx) : tanh x i = Ideal.tanh (x i) := rfl
theorem hostTanh_apply {s : Shape} (x : FVec Ideal s .f32) (i : s.Idx) : Host.tanh x i = Ideal.tanh (x i) := rfl

theorem embed_block
    (X : FVec Ideal Cert.ReferenceIdeal.S100000x128 .f32) (S : FVec Ideal Cert.ReferenceIdeal.S100000x256 .f32)
    (R : FVec Ideal Cert.ReferenceIdeal.S256x64 .f32) (We1 : FVec Ideal Cert.ReferenceIdeal.S192x64 .f32)
    (be1 : FVec Ideal Cert.ReferenceIdeal.S64 .f32) (We2 : FVec Ideal Cert.ReferenceIdeal.S64x32 .f32)
    (be2 : FVec Ideal Cert.ReferenceIdeal.S32 .f32) (Wg1 : FVec Ideal Cert.ReferenceIdeal.S32x32 .f32)
    (x0 : Vec Ideal Cert.KernelIdeal.S5000x128 .f32) (x1 : Vec Ideal Cert.KernelIdeal.S5000x256 .f32)
    (x2 : Vec Ideal Cert.KernelIdeal.S256x64 .f32) (x3 : Vec Ideal Cert.KernelIdeal.S128x64 .f32)
    (x4 : Vec Ideal Cert.KernelIdeal.S64x64 .f32) (x5 : Vec Ideal Cert.KernelIdeal.S1x64 .f32)
    (x6 : Vec Ideal Cert.KernelIdeal.S64x32 .f32) (x7 : Vec Ideal Cert.KernelIdeal.S1x32 .f32)
    (x8 : Vec Ideal Cert.KernelIdeal.S32x32 .f32)
    (p : Fin 5000) (r : Fin 100000)
    (h0 : ∀ k : Fin 128, x0 (ix2 p k) = X (ix2 r k))
    (h1 : ∀ k : Fin 256, x1 (ix2 p k) = S (ix2 r k))
    (h2 : ∀ (a : Fin 256) (b : Fin 64), x2 (ix2 a b) = R (ix2 a b))
    (h3 : ∀ (a : Fin 128) (b : Fin 64), x3 (ix2 a b) = We1 (ix2 (⟨a.val, by omega⟩ : Fin 192) b))
    (h4 : ∀ (a : Fin 64) (b : Fin 64), x4 (ix2 a b) = We1 (ix2 (⟨128 + a.val, by omega⟩ : Fin 192) b))
    (h5 : ∀ b : Fin 64, x5 (ix2 (0 : Fin 1) b) = be1 (ix1 b))
    (h6 : ∀ (a : Fin 64) (b : Fin 32), x6 (ix2 a b) = We2 (ix2 a b))
    (h7 : ∀ b : Fin 32, x7 (ix2 (0 : Fin 1) b) = be2 (ix1 b))
    (h8 : ∀ (a : Fin 32) (b : Fin 32), x8 (ix2 a b) = Wg1 (ix2 a b))
    (q : Fin 32) :
    Cert.KernelIdeal.Gen.k0_pay1 (F := Ideal) x0 x1 x2 x3 x4 x5 x6 x7 x8 (ix2 p q)
      = Cert.Spec.embed (F := Ideal) X S R We1 be1 We2 be2 Wg1 (ix2 r q) := by
  unfold Cert.KernelIdeal.Gen.k0_pay1 Cert.Spec.embed Cert.Spec.rows32
  dsimp only
  rw [shapeCast_self, shapeCast_self, shapeCast_self, shapeCast_self]
  -- the pooled rows: the block's product is the whole product's row
  have hSR : ∀ k : Fin 64,
      matmul (F := Ideal) (φ₁ := .f32) (φ₂ := .f32) Cert.KernelIdeal.dot_S5000x256_S256x64_S5000x64_1_0_0_1_n_n none x1 x2
          (constant Cert.KernelIdeal.S5000x64 .f32 0x00000000#32) (ix2 p k)
        = Host.dotGeneral (F := Ideal) Cert.ReferenceIdeal.dot_S100000x256_S256x64_S100000x64_1_0_0_1_n_n none S R (ix2 r k) := by
    intro k
    refine (matmul_zero_prod (φ₁ := .f32) (φ₂ := .f32) _ rfl x1 x2 p k).trans
      (Eq.trans ?_ (host_prod _ rfl S R r k).symm)
    exact prod_block_eq _ _ _ _ p k (ix2 r k) h1 (fun j => h2 j k)
  -- the last product
  refine (matmul_zero_prod (φ₁ := .f32) (φ₂ := .f32) _ rfl _ x8 p q).trans (Eq.trans ?_ (host_prod _ rfl _ Wg1 r q).symm)
  refine prod_block_eq _ _ _ _ p q (ix2 r q) (fun k => ?_) (fun k => h8 k q)
  show tanh _ (ix2 p k) = Host.tanh _ (ix2 r k)
  rw [tanh_apply, hostTanh_apply]
  refine congrArg Ideal.tanh ?_
  -- the second layer
  refine (kernel_affine (φ₁ := .f32) (φ₂ := .f32) _ rfl _ x6 x7 _ p k).trans
    (Eq.trans ?_ (host_affine _ rfl _ We2 be2 _ _ r k).symm)
  refine congrArg₂ (· + ·) (prod_block_eq _ _ _ _ p k (ix2 r k) (fun j => ?_) (fun j => h6 j k)) (h7 k)
  show tanh _ (ix2 p j) = Host.tanh _ (ix2 r j)
  rw [tanh_apply, hostTanh_apply]
  refine congrArg Ideal.tanh ?_
  -- the first layer
  refine Eq.trans ?_ (host_affine _ rfl _ We1 be1 _ _ r j).symm
  show (matmul (F := Ideal) (φ₁ := .f32) (φ₂ := .f32) Cert.KernelIdeal.dot_S5000x128_S128x64_S5000x64_1_0_0_1_n_n none x0 x3
          (constant Cert.KernelIdeal.S5000x64 .f32 0x00000000#32) (ix2 p j)
        + matmul (F := Ideal) (φ₁ := .f32) (φ₂ := .f32) Cert.KernelIdeal.dot_S5000x64_S64x64_S5000x64_1_0_0_1_n_n none
            (matmul (F := Ideal) (φ₁ := .f32) (φ₂ := .f32) Cert.KernelIdeal.dot_S5000x256_S256x64_S5000x64_1_0_0_1_n_n none x1 x2
              (constant Cert.KernelIdeal.S5000x64 .f32 0x00000000#32))
            x4 (constant Cert.KernelIdeal.S5000x64 .f32 0x00000000#32) (ix2 p j))
      + broadcastTo Cert.KernelIdeal.S5000x64 x5 Cert.KernelIdeal.Gen.broadcasts_S1x64_S5000x64 (ix2 p j) = _
  refine congrArg₂ (· + ·) ?_ ((Cert.BroadcastTo.row_apply x5 _ p j).trans (h5 j))
  refine Eq.trans (congrArg₂ (· + ·) (matmul_zero_prod (φ₁ := .f32) (φ₂ := .f32) _ rfl x0 x3 p j)
    (matmul_zero_prod (φ₁ := .f32) (φ₂ := .f32) _ rfl _ x4 p j)) ?_
  exact prod_cat_split (R := 100000) (M := 5000) (A := 128) (B := 64) (N := 64) _ X _ We1 x0 x3 _ x4 p r j
    h0 hSR (fun k => h3 k j) (fun k => h4 k j)

end Cert.Blocks
end
-- ==== Proof.KRegion0.lean ====
/-
  The first pallas_call (the embedding perceptron followed by the first graph layer's weights) read as a whole-array
  function: block t of its result is what point t writes, the payload of rows 5000 t … 5000 t + 4999 of the two
  row-blocked arrays it is handed and of the whole weight and bias arrays, and the twenty blocks tile the 100000 rows.
-/
import proofs.«110162_j63848983822724_1_alg».proof.Proof.Spec
import proofs.«110162_j63848983822724_1_alg».proof.Proof.BlockEmbed
import proofs.«110162_j63848983822724_1_alg».proof.Proof.Gen.KernelIdeal.Frame
import proofs.«110162_j63848983822724_1_alg».proof.Proof.Gen.ReferenceIdeal
import Idealize.ShloMosaic.Lib.ValueIdx
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- The index maps of the first pallas_call over its twenty points: the row-blocked windows sit at block row t,
    the weight and bias windows at the origin. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- Row p of point t's block of input 0 is row 5000 t + p of its array. -/
theorem read0_0 (c : Dev nD) (t : Fin cfg0.N) (p : Fin 5000) (k : Fin 128) (hr : t.val * 5000 + p.val < 100000) :
    (iblk0 V c 0 t : Vec Ideal S5000x128 .f32) (ix2 p k) = V c main_arg0 (ix2 (⟨t.val * 5000 + p.val, hr⟩ : Fin 100000) k) := by
  obtain ⟨e00, e01, -⟩ := idx_facts0 t
  have ht : t.val < 20 := lt_of_lt_of_eq t.isLt N_0
  show V c main_arg0 (((cfg0.win 0).blk t).view.emb (ix2 p k)) = _
  refine congrArg (V c main_arg0) ?_
  funext a'; apply Fin.ext
  match a' with
  | ⟨0, _⟩ => show win0_0.index t (0 : Fin 2) * 5000 + 1 * p.val = t.val * 5000 + p.val; omega
  | ⟨1, _⟩ => show win0_0.index t (1 : Fin 2) * 128 + 1 * k.val = k.val; omega

/-- Row p of point t's block of input 1 is row 5000 t + p of its array. -/
theorem read0_1 (c : Dev nD) (t : Fin cfg0.N) (p : Fin 5000) (k : Fin 256) (hr : t.val * 5000 + p.val < 100000) :
    (iblk0 V c 1 t : Vec Ideal S5000x256 .f32) (ix2 p k) = V c main_arg3 (ix2 (⟨t.val * 5000 + p.val, hr⟩ : Fin 100000) k) := by
  obtain ⟨-, -, e10, e11, -⟩ := idx_facts0 t
  have ht : t.val < 20 := lt_of_lt_of_eq t.isLt N_0
  show V c main_arg3 (((cfg0.win 1).blk t).view.emb (ix2 p k)) = _
  refine congrArg (V c main_arg3) ?_
  funext a'; apply Fin.ext
  match a' with
  | ⟨0, _⟩ => show win0_1.index t (0 : Fin 2) * 5000 + 1 * p.val = t.val * 5000 + p.val; omega
  | ⟨1, _⟩ => show win0_1.index t (1 : Fin 2) * 256 + 1 * k.val = k.val; omega

/-- Point t's block of input 2 is its whole array. -/
theorem read0_2 (c : Dev nD) (t : Fin cfg0.N) (a : Fin 256) (b : Fin 64) :
    (iblk0 V c 2 t : Vec Ideal S256x64 .f32) (ix2 a b) = V c main_arg4 (ix2 a b) := by
  obtain ⟨-, -, -, -, e20, e21, -⟩ := idx_facts0 t
  have ht : t.val < 20 := lt_of_lt_of_eq t.isLt N_0
  show V c main_arg4 (((cfg0.win 2).blk t).view.emb (ix2 a b)) = _
  refine congrArg (V c main_arg4) ?_
  funext a'; apply Fin.ext
  match a' with
  | ⟨0, _⟩ => show win0_2.index t (0 : Fin 2) * 256 + 1 * a.val = a.val; omega
  | ⟨1, _⟩ => show win0_2.index t (1 : Fin 2) * 64 + 1 * b.val = b.val; omega

/-- Point t's block of input 3 is its whole array. -/
theorem read0_3 (c : Dev nD) (t : Fin cfg0.N) (a : Fin 128) (b : Fin 64) :
    (iblk0 V c 3 t : Vec Ideal S128x64 .f32) (ix2 a b) = V c main_v29 (ix2 a b) := by
  obtain ⟨-, -, -, -, -, -, e30, e31, -⟩ := idx_facts0 t
  have ht : t.val < 20 := lt_of_lt_of_eq t.isLt N_0
  show V c main_v29 (((cfg0.win 3).blk t).view.emb (ix2 a b)) = _
  refine congrArg (V c main_v29) ?_
  funext a'; apply Fin.ext
  match a' with
  | ⟨0, _⟩ => show win0_3.index t (0 : Fin 2) * 128 + 1 * a.val = a.val; omega
  | ⟨1, _⟩ => show win0_3.index t (1 : Fin 2) * 64 + 1 * b.val = b.val; omega

/-- Point t's block of input 4 is its whole array. -/
theorem read0_4 (c : Dev nD) (t : Fin cfg0.N) (a : Fin 64) (b : Fin 64) :
    (iblk0 V c 4 t : Vec Ideal S64x64 .f32) (ix2 a b) = V c main_v30 (ix2 a b) := by
  obtain ⟨-, -, -, -, -, -, -, -, e40, e41, -⟩ := idx_facts0 t
  have ht : t.val < 20 := lt_of_lt_of_eq t.isLt N_0
  show V c main_v30 (((cfg0.win 4).blk t).view.emb (ix2 a b)) = _
  refine congrArg (V c main_v30) ?_
  funext a'; apply Fin.ext
  match a' with
  | ⟨0, _⟩ => show win0_4.index t (0 : Fin 2) * 64 + 1 * a.val = a.val; omega
  | ⟨1, _⟩ => show win0_4.index t (1 : Fin 2) * 64 + 1 * b.val = b.val; omega

/-- Point t's block of input 5 is its whole array. -/
theorem read0_5 (c : Dev nD) (t : Fin cfg0.N) (b : Fin 64) :
    (iblk0 V c 5 t : Vec Ideal S1x64 .f32) (ix2 (0 : Fin 1) b) = V c main_v31 (ix2 (0 : Fin 1) b) := by
  obtain ⟨-, -, -, -, -, -, -, -, -, -, e50, e51, -⟩ := idx_facts0 t
  have ht : t.val < 20 := lt_of_lt_of_eq t.isLt N_0
  show V c main_v31 (((cfg0.win 5).blk t).view.emb (ix2 (0 : Fin 1) b)) = _
  refine congrArg (V c main_v31) ?_
  funext a'; apply Fin.ext
  match a' with
  | ⟨0, _⟩ => show win0_5.index t (0 : Fin 2) * 1 + 1 * 0 = 0; omega
  | ⟨1, _⟩ => show win0_5.index t (1 : Fin 2) * 64 + 1 * b.val = b.val; omega

/-- Point t's block of input 6 is its whole array. -/
theorem read0_6 (c : Dev nD) (t : Fin cfg0.N) (a : Fin 64) (b : Fin 32) :
    (iblk0 V c 6 t : Vec Ideal S64x32 .f32) (ix2 a b) = V c main_arg7 (ix2 a b) := by
  obtain ⟨-, -, -, -, -, -, -, -, -, -, -, -, e60, e61, -⟩ := idx_facts0 t
  have ht : t.val < 20 := lt_of_lt_of_eq t.isLt N_0
  show V c main_arg7 (((cfg0.win 6).blk t).view.emb (ix2 a b)) = _
  refine congrArg (V c main_arg7) ?_
  funext a'; apply Fin.ext
  match a' with
  | ⟨0, _⟩ => show win0_6.index t (0 : Fin 2) * 64 + 1 * a.val = a.val; omega
  | ⟨1, _⟩ => show win0_6.index t (1 : Fin 2) * 32 + 1 * b.val = b.val; omega

/-- Point t's block of input 7 is its whole array. -/
theorem read0_7 (c : Dev nD) (t : Fin cfg0.N) (b : Fin 32) :
    (iblk0 V c 7 t : Vec Ideal S1x32 .f32) (ix2 (0 : Fin 1) b) = V c main_v32 (ix2 (0 : Fin 1) b) := by
  obtain ⟨-, -, -, -, -, -, -, -, -, -, -, -, -, -, e70, e71, -⟩ := idx_facts0 t
  have ht : t.val < 20 := lt_of_lt_of_eq t.isLt N_0
  show V c main_v32 (((cfg0.win 7).blk t).view.emb (ix2 (0 : Fin 1) b)) = _
  refine congrArg (V c main_v32) ?_
  funext a'; apply Fin.ext
  match a' with
  | ⟨0, _⟩ => show win0_7.index t (0 : Fin 2) * 1 + 1 * 0 = 0; omega
  | ⟨1, _⟩ => show win0_7.index t (1 : Fin 2) * 32 + 1 * b.val = b.val; omega

/-- Point t's block of input 8 is its whole array. -/
theorem read0_8 (c : Dev nD) (t : Fin cfg0.N) (a : Fin 32) (b : Fin 32) :
    (iblk0 V c 8 t : Vec Ideal S32x32 .f32) (ix2 a b) = V c main_arg9 (ix2 a b) := by
  obtain ⟨-, -, -, -, -, -, -, -, -, -, -, -, -, -, -, -, e80, e81, -⟩ := idx_facts0 t
  have ht : t.val < 20 := lt_of_lt_of_eq t.isLt N_0
  show V c main_arg9 (((cfg0.win 8).blk t).view.emb (ix2 a b)) = _
  refine congrArg (V c main_arg9) ?_
  funext a'; apply Fin.ext
  match a' with
  | ⟨0, _⟩ => show win0_8.index t (0 : Fin 2) * 32 + 1 * a.val = a.val; omega
  | ⟨1, _⟩ => show win0_8.index t (1 : Fin 2) * 32 + 1 * b.val = b.val; omega

/-- What point t leaves in the result's block: the reference's stage read on that block. -/
theorem flushed0 (c : Dev nD) (X : FVec Ideal Cert.ReferenceIdeal.S100000x128 .f32) (S : FVec Ideal Cert.ReferenceIdeal.S100000x256 .f32)
    (R : FVec Ideal Cert.ReferenceIdeal.S256x64 .f32) (We1 : FVec Ideal Cert.ReferenceIdeal.S192x64 .f32)
    (be1 : FVec Ideal Cert.ReferenceIdeal.S64 .f32) (We2 : FVec Ideal Cert.ReferenceIdeal.S64x32 .f32)
    (be2 : FVec Ideal Cert.ReferenceIdeal.S32 .f32) (Wg1 : FVec Ideal Cert.ReferenceIdeal.S32x32 .f32)
    (hX : V c main_arg0 = X) (hS : V c main_arg3 = S) (hR : V c main_arg4 = R)
    (h29 : ∀ (a : Fin 128) (b : Fin 64), V c main_v29 (ix2 a b) = We1 (ix2 (⟨a.val, by omega⟩ : Fin 192) b))
    (h30 : ∀ (a : Fin 64) (b : Fin 64), V c main_v30 (ix2 a b) = We1 (ix2 (⟨128 + a.val, by omega⟩ : Fin 192) b))
    (h31 : ∀ b : Fin 64, V c main_v31 (ix2 (0 : Fin 1) b) = be1 (ix1 b))
    (hW2 : V c main_arg7 = We2)
    (h32 : ∀ b : Fin 32, V c main_v32 (ix2 (0 : Fin 1) b) = be2 (ix1 b))
    (hWg : V c main_arg9 = Wg1) (t : Fin cfg0.N) :
    (dat0 V c).flushed 9 t
      = ((cfg0.win 9).blk t).view.read (Elt Ideal) (Cert.Spec.embed (F := Ideal) X S R We1 be1 We2 be2 Wg1) := by
  show (cfg0.win 9).cut (grid0.coords t) ((dat0 V c).after 9 t) = _
  rw [after0_9]
  unfold out0_9
  rw [View.canon_unit_zero hz2]
  simp only [View.ld_unit_zero (S := S5000x128) hz2, View.ld_unit_zero (S := S5000x256) hz2,
    View.ld_unit_zero (S := S256x64) hz2, View.ld_unit_zero (S := S128x64) hz2, View.ld_unit_zero (S := S64x64) hz2,
    View.ld_unit_zero (S := S1x64) hz2, View.ld_unit_zero (S := S64x32) hz2, View.ld_unit_zero (S := S1x32) hz2,
    View.ld_unit_zero (S := S32x32) hz2]
  obtain ⟨-, -, -, -, -, -, -, -, -, -, -, -, -, -, -, -, -, -, e90, e91⟩ := idx_facts0 t
  have ht : t.val < 20 := lt_of_lt_of_eq t.isLt N_0
  funext j
  show k0_pay1 (iblk0 V c 0 t) (iblk0 V c 1 t) (iblk0 V c 2 t) (iblk0 V c 3 t) (iblk0 V c 4 t) (iblk0 V c 5 t)
      (iblk0 V c 6 t) (iblk0 V c 7 t) (iblk0 V c 8 t) j
    = Cert.Spec.embed (F := Ideal) X S R We1 be1 We2 be2 Wg1 (((cfg0.win 9).blk t).view.emb j)
  obtain ⟨p, q, rfl⟩ : ∃ (p : Fin 5000) (q : Fin 32), j = ix2 p q := ⟨j 0, j 1, eq_ix2 j⟩
  have hr : t.val * 5000 + p.val < 100000 := by have := p.isLt; omega
  have hemb9 : ((cfg0.win 9).blk t).view.emb (ix2 p q) = ix2 (⟨t.val * 5000 + p.val, hr⟩ : Fin 100000) q := by
    funext a'; apply Fin.ext
    match a' with
    | ⟨0, _⟩ => show win0_9.index t (0 : Fin 2) * 5000 + 1 * p.val = t.val * 5000 + p.val; omega
    | ⟨1, _⟩ => show win0_9.index t (1 : Fin 2) * 32 + 1 * q.val = q.val; omega
  rw [hemb9]
  exact Cert.Blocks.embed_block X S R We1 be1 We2 be2 Wg1 _ _ _ _ _ _ _ _ _ p ⟨t.val * 5000 + p.val, hr⟩
    (fun k => (read0_0 V c t p k hr).trans (congrFun hX _))
    (fun k => (read0_1 V c t p k hr).trans (congrFun hS _))
    (fun a b => (read0_2 V c t a b).trans (congrFun hR _))
    (fun a b => (read0_3 V c t a b).trans (h29 a b))
    (fun a b => (read0_4 V c t a b).trans (h30 a b))
    (fun b => (read0_5 V c t b).trans (h31 b))
    (fun a b => (read0_6 V c t a b).trans (congrFun hW2 _))
    (fun b => (read0_7 V c t b).trans (h32 b))
    (fun a b => (read0_8 V c t a b).trans (congrFun hWg _)) q

/-- An index of the result array lies in point t's block iff each coordinate is in the block's range on its axis. -/
theorem mem_blk0 (t : Fin cfg0.N) (i : S100000x32.Idx) :
    i ∈ ((cfg0.win 9).blk t).view.set ↔ ∀ a : Fin 2, win0_9.index t a * S5000x32.size a ≤ (i a).val ∧ (i a).val < win0_9.index t a * S5000x32.size a + S5000x32.size a := by
  show i ∈ ((View.whole main_v38).slice (win0_9.rect t)).set ↔ _
  rw [View.set_slice_whole, Rect.mem_set_unit]
  exact Iff.rfl

/-- The twenty blocks of 5000 rows tile the 100000 rows: row r is in block r / 5000. -/
theorem cover0 (i : S100000x32.Idx) : ∃ t : Fin cfg0.N, (cfg0.win 9).flush t = true ∧ i ∈ ((cfg0.win 9).blk t).view.set := by
  have hi0 : (i 0).val < 100000 := (i 0).isLt
  have hi1 : (i 1).val < 32 := (i 1).isLt
  have ht : (i 0).val / 5000 < cfg0.N := lt_of_lt_of_eq (by omega : (i 0).val / 5000 < 20) N_0.symm
  refine ⟨⟨(i 0).val / 5000, ht⟩, flush0_9 _, ?_⟩
  obtain ⟨-, -, -, -, -, -, -, -, -, -, -, -, -, -, -, -, -, -, e90, e91⟩ := idx_facts0 ⟨(i 0).val / 5000, ht⟩
  rw [mem_blk0]
  intro a
  match a with
  | ⟨0, _⟩ => show win0_9.index ⟨(i 0).val / 5000, ht⟩ (0 : Fin 2) * 5000 ≤ (i 0).val ∧ (i 0).val < win0_9.index ⟨(i 0).val / 5000, ht⟩ (0 : Fin 2) * 5000 + 5000; rw [e90]; show (i 0).val / 5000 * 5000 ≤ (i 0).val ∧ (i 0).val < (i 0).val / 5000 * 5000 + 5000; omega
  | ⟨1, _⟩ => show win0_9.index ⟨(i 0).val / 5000, ht⟩ (1 : Fin 2) * 32 ≤ (i 1).val ∧ (i 1).val < win0_9.index ⟨(i 0).val / 5000, ht⟩ (1 : Fin 2) * 32 + 32; rw [e91]; omega

/-- The first pallas_call's result array after its twenty points: the embedding perceptron followed by the first
    graph layer's weights, of the arrays it was handed. -/
theorem value0 (c : Dev nD) (X : FVec Ideal Cert.ReferenceIdeal.S100000x128 .f32) (S : FVec Ideal Cert.ReferenceIdeal.S100000x256 .f32)
    (R : FVec Ideal Cert.ReferenceIdeal.S256x64 .f32) (We1 : FVec Ideal Cert.ReferenceIdeal.S192x64 .f32)
    (be1 : FVec Ideal Cert.ReferenceIdeal.S64 .f32) (We2 : FVec Ideal Cert.ReferenceIdeal.S64x32 .f32)
    (be2 : FVec Ideal Cert.ReferenceIdeal.S32 .f32) (Wg1 : FVec Ideal Cert.ReferenceIdeal.S32x32 .f32)
    (hX : V c main_arg0 = X) (hS : V c main_arg3 = S) (hR : V c main_arg4 = R)
    (h29 : ∀ (a : Fin 128) (b : Fin 64), V c main_v29 (ix2 a b) = We1 (ix2 (⟨a.val, by omega⟩ : Fin 192) b))
    (h30 : ∀ (a : Fin 64) (b : Fin 64), V c main_v30 (ix2 a b) = We1 (ix2 (⟨128 + a.val, by omega⟩ : Fin 192) b))
    (h31 : ∀ b : Fin 64, V c main_v31 (ix2 (0 : Fin 1) b) = be1 (ix1 b))
    (hW2 : V c main_arg7 = We2)
    (h32 : ∀ b : Fin 32, V c main_v32 (ix2 (0 : Fin 1) b) = be2 (ix1 b))
    (hWg : V c main_arg9 = Wg1) :
    (dat0 V c).arrAt 9 cfg0.N = Cert.Spec.embed (F := Ideal) X S R We1 be1 We2 be2 Wg1 :=
  (dat0 V c).arrAt_eq_of_cover 9 (Cert.Spec.embed (F := Ideal) X S R We1 be1 We2 be2 Wg1)
    (fun t _ => flushed0 V c X S R We1 be1 We2 be2 Wg1 hX hS hR h29 h30 h31 hW2 h32 hWg t) cover0

end Cert.KernelIdeal.Region0
end
-- ==== Proof.LibHostRead.lean ====
/-
  The host's whole-array operations read at one entry, general in the extents.

  * a vector laid out as a one-row matrix, a row repeated down the rows, a vector laid out as a one-column matrix, a
    column repeated across the columns, and a rank-zero array repeated everywhere: each reads ONE element of its operand;
  * the sum of a matrix over its column axis from an initial value: at row `p` the initial value plus
    `∑ k, x (p, k)`;
  * the fold of `max` over the column axis from the word `-inf`: at row `p` the fold over `k` of `x (p, k)`; the
    word `-inf` is the least extended real, so a further `max` with it changes nothing.
-/
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

noncomputable section

open scoped BigOperators

namespace Cert.HostRead

open Idealize.ShloMosaic Idealize.ShloMosaic.ValueIdx

variable {α : Type} {m n : Nat}

/-! ## Layouts -/

/-- A vector as a one-row matrix: entry `(u, k)` is the vector's entry `k`. -/
theorem vec_row_apply (b : (⟨1, ![n]⟩ : Shape).Idx → α) (h : (⟨1, ![n]⟩ : Shape).BroadcastsInDim ⟨2, ![1, n]⟩ ![1])
    (u : Fin 1) (k : Fin n) : broadcastInDim ⟨2, ![1, n]⟩ ![1] h b (ix2 u k) = b (ix1 k) :=
  broadcastInDim_apply _ h b (ix2 u k) (ix1 k) (fun a => match a with
    | ⟨0, _⟩ => by
      show k.val = if n = 1 then 0 else k.val
      split
      · have := k.isLt; omega
      · rfl)

/-- A one-row matrix repeated down the rows: entry `(p, k)` is the row's entry `(0, k)`. -/
theorem row_rows_apply (x : (⟨2, ![1, n]⟩ : Shape).Idx → α) (h : (⟨2, ![1, n]⟩ : Shape).BroadcastsInDim ⟨2, ![m, n]⟩ ![0, 1])
    (p : Fin m) (k : Fin n) : broadcastInDim ⟨2, ![m, n]⟩ ![0, 1] h x (ix2 p k) = x (ix2 0 k) :=
  broadcastInDim_apply _ h x (ix2 p k) (ix2 0 k) (fun a => match a with
    | ⟨0, _⟩ => by show (0 : ℕ) = if (1 : ℕ) = 1 then 0 else _; rw [if_pos rfl]
    | ⟨1, _⟩ => by
      show k.val = if n = 1 then 0 else k.val
      split
      · have := k.isLt; omega
      · rfl)

/-- A vector as a one-column matrix: entry `(p, u)` is the vector's entry `p`. -/
theorem vec_col_apply (x : (⟨1, ![m]⟩ : Shape).Idx → α) (h : (⟨1, ![m]⟩ : Shape).BroadcastsInDim ⟨2, ![m, 1]⟩ ![0])
    (p : Fin m) (u : Fin 1) : broadcastInDim ⟨2, ![m, 1]⟩ ![0] h x (ix2 p u) = x (ix1 p) :=
  broadcastInDim_apply _ h x (ix2 p u) (ix1 p) (fun a => match a with
    | ⟨0, _⟩ => by
      show p.val = if m = 1 then 0 else p.val
      split
      · have := p.isLt; omega
      · rfl)

/-- A one-column matrix repeated across the columns: entry `(p, k)` is the column's entry `(p, 0)`. -/
theorem col_cols_apply (x : (⟨2, ![m, 1]⟩ : Shape).Idx → α) (h : (⟨2, ![m, 1]⟩ : Shape).BroadcastsInDim ⟨2, ![m, n]⟩ ![0, 1])
    (p : Fin m) (k : Fin n) : broadcastInDim ⟨2, ![m, n]⟩ ![0, 1] h x (ix2 p k) = x (ix2 p 0) :=
  broadcastInDim_apply _ h x (ix2 p k) (ix2 p 0) (fun a => match a with
    | ⟨0, _⟩ => by
      show p.val = if m = 1 then 0 else p.val
      split
      · have := p.isLt; omega
      · rfl
    | ⟨1, _⟩ => by show (0 : ℕ) = if (1 : ℕ) = 1 then 0 else _; rw [if_pos rfl])

/-- A rank-zero array repeated everywhere reads its one element. -/
theorem scalar_apply (t : Shape) (x : (⟨0, ![]⟩ : Shape).Idx → α) (h : (⟨0, ![]⟩ : Shape).BroadcastsInDim t ![]) (j : t.Idx) :
    broadcastInDim t ![] h x j = x (fun a => a.elim0) :=
  broadcastInDim_apply _ h x j (fun a => a.elim0) (fun a => a.elim0)

/-- A float word repeated everywhere, over the extended reals. -/
theorem word_apply (t : Shape) (w : BitVec 32) (h : (⟨0, ![]⟩ : Shape).BroadcastsInDim t ![]) (j : t.Idx) :
    broadcastInDim t ![] h (constant (F := Ideal) (⟨0, ![]⟩ : Shape) .f32 w) j = Ideal.ofBits .f32 w :=
  scalar_apply t _ h j

/-! ## Reductions over the column axis -/

/-- The row index `p` with column `k` put back is `(p, k)`. -/
theorem lift_row (h : (⟨2, ![m, n]⟩ : Shape).Reduces [1] (⟨1, ![m]⟩ : Shape)) (p : Fin m) (k : Fin n) :
    h.lift (ix1 p) k = ix2 p k := by
  funext c; apply Fin.ext
  fin_cases c <;> rfl

/-- The host's sum over the columns, at row `p`: the initial value plus the sum of the row. -/
theorem reduceAdd_row_apply (x : (⟨2, ![m, n]⟩ : Shape).Idx → EReal) (init : (⟨0, ![]⟩ : Shape).Idx → EReal)
    (h' : (⟨2, ![m, n]⟩ : Shape).ReducesTo [1] (⟨1, ![m]⟩ : Shape)) (hu : 0 < (⟨0, ![]⟩ : Shape).numel) (p : Fin m) :
    Host.reduceAdd (F := Ideal) (φ := .f32) x init h' hu (ix1 p) = init (Shape.Idx.first hu) + ∑ k : Fin n, x (ix2 p k) := by
  have hr : (⟨2, ![m, n]⟩ : Shape).Reduces [1] (⟨1, ![m]⟩ : Shape) := ⟨h'.1, Nat.one_pos, h'.2⟩
  simp only [Host.reduceAdd, Ideal.hostReduceAdd_def]
  rw [Ideal.hostReduceAdd_single h' hr]
  refine congrArg (_ + ·) (Finset.sum_congr rfl fun k _ => ?_)
  exact congrArg x (lift_row hr p k)

/-- The host's sum over the columns from the zero word, at row `p`: the sum of the row. -/
theorem reduceAdd_row_zero_apply (x : (⟨2, ![m, n]⟩ : Shape).Idx → EReal)
    (h' : (⟨2, ![m, n]⟩ : Shape).ReducesTo [1] (⟨1, ![m]⟩ : Shape)) (hu : 0 < (⟨0, ![]⟩ : Shape).numel) (p : Fin m) :
    Host.reduceAdd (F := Ideal) (φ := .f32) x (constant (F := Ideal) (⟨0, ![]⟩ : Shape) .f32 0x00000000#32) h' hu (ix1 p)
      = ∑ k : Fin n, x (ix2 p k) := by
  rw [reduceAdd_row_apply]
  show Ideal.ofBits .f32 0x00000000#32 + _ = _
  rw [Ideal.ofBits_zero_f32, zero_add]

/-- The word `-inf` is the least extended real. -/
theorem max_negInf (y : EReal) : max (Ideal.ofBits .f32 0xFF800000#32) y = y := by
  simp [Ideal.ofBits, Ideal.ieee]

/-- The host's fold of `max` over the columns from the word `-inf`, at row `p`: the fold over the row. -/
theorem reduceMax_row_apply (x : FVec Ideal ⟨2, ![m, n]⟩ .f32)
    (h' : (⟨2, ![m, n]⟩ : Shape).ReducesTo [1] (⟨1, ![m]⟩ : Shape)) (hu : 0 < (⟨0, ![]⟩ : Shape).numel) (p : Fin m) :
    Host.reduce (FloatOps.maximumf (F := Ideal) (φ := .f32)) x (constant (F := Ideal) (⟨0, ![]⟩ : Shape) .f32 0xFF800000#32) h' hu (ix1 p)
      = (Finset.univ : Finset (Fin n)).fold (max : EReal → EReal → EReal) (Ideal.ofBits .f32 0xFF800000#32 : EReal)
          (fun k => (x (ix2 p k) : EReal)) := by
  have hr : (⟨2, ![m, n]⟩ : Shape).Reduces [1] (⟨1, ![m]⟩ : Shape) := ⟨h'.1, Nat.one_pos, h'.2⟩
  refine (Host.reduce_eq_fold_single FloatOps.maximumf x _ h' hr hu (ix1 p)).trans ?_
  have hf : (x ∘ hr.lift (ix1 p)) = fun k : Fin n => x (ix2 p k) := funext fun k => congrArg x (lift_row hr p k)
  exact congrArg (fun f => Finset.fold max (Ideal.ofBits .f32 0xFF800000#32) f (Finset.univ : Finset (Fin n))) hf

/-- One more `max` with the word `-inf` repeated along a vector: at `p` the other operand's entry. -/
theorem maxWord_apply (r : FVec Ideal ⟨1, ![m]⟩ .f32) (h : (⟨0, ![]⟩ : Shape).BroadcastsInDim ⟨1, ![m]⟩ ![]) (p : Fin m) (v : EReal)
    (hr : r (ix1 p) = v) :
    maximumf (broadcastInDim ⟨1, ![m]⟩ ![] h (constant (F := Ideal) (⟨0, ![]⟩ : Shape) .f32 0xFF800000#32)) r (ix1 p) = v := by
  refine (congrArg₂ (max : EReal → EReal → EReal) (word_apply ⟨1, ![m]⟩ _ h (ix1 p)) hr).trans ?_
  exact max_negInf v

/-! ## Pointwise host operations -/

theorem hostLog_apply {s : Shape} (y : FVec Ideal s .f32) (i : s.Idx) : Host.log (F := Ideal) y i = Ideal.log (y i) := rfl
theorem hostExp_apply {s : Shape} (y : FVec Ideal s .f32) (i : s.Idx) : Host.exp (F := Ideal) y i = Ideal.exp (y i) := rfl
theorem hostRsqrt_apply {s : Shape} (y : FVec Ideal s .f32) (i : s.Idx) : Host.rsqrt (F := Ideal) y i = Ideal.rsqrt (y i) := rfl
theorem hostDivf_apply {s : Shape} (x y : FVec Ideal s .f32) (i : s.Idx) : Host.divf (F := Ideal) x y i = Ideal.div (x i) (y i) := rfl
theorem addf_apply {s : Shape} (x y : FVec Ideal s .f32) (i : s.Idx) : addf x y i = x i + y i := rfl
theorem subf_apply {s : Shape} (x y : FVec Ideal s .f32) (i : s.Idx) : subf x y i = x i - y i := rfl
theorem mulf_apply {s : Shape} (x y : FVec Ideal s .f32) (i : s.Idx) : mulf x y i = x i * y i := rfl
theorem maximumf_apply {s : Shape} (x y : FVec Ideal s .f32) (i : s.Idx) : maximumf x y i = max (x i) (y i) := rfl

end Cert.HostRead

end
-- ==== Proof.BlockLayer.lean ====
/-
  The three row-block computations after the embedding, entry by entry: entry `(p, q)` of what a block of 5000 rows
  yields equals entry `(r, q)` of the same stage over the whole arrays of 100000 rows, given that row `p` of each row
  block is row `r` of its array and that the weight and bias blocks are the weight and bias arrays.

  * a layer's activation `max (a + xw * d² + b, 0)` reads, at `(p, k)`, the two row blocks at `(p, k)`, the degree column
    at `(p, 0)` and the bias row at `(0, k)`; over the whole arrays it reads the same four numbers at `(r, k)`, `r`
    and `k` (`kact_apply`, `act_apply`, `act_block`);
  * a layer is the activation times a weight matrix: both sides are the same sum over the 32 columns, term by term
    (`layer_block`, `layer1_block`, `layer2_block`);
  * the head is two further products with a bias and a hyperbolic tangent each, plus the priors: the hidden rows agree
    entry by entry (`hid_block`), hence the output column does (`head_block`).

  No finiteness is asked anywhere: the two sides are the same expression over the extended reals.
-/
import proofs.«110162_j63848983822724_1_alg».proof.Proof.Spec
import proofs.«110162_j63848983822724_1_alg».proof.Proof.Gen.KernelIdeal.Skeleton
import proofs.«110162_j63848983822724_1_alg».proof.Proof.LibMatProd
import proofs.«110162_j63848983822724_1_alg».proof.Proof.LibDenseLayer
import proofs.«110162_j63848983822724_1_alg».proof.Proof.LibBroadcastTo
import proofs.«110162_j63848983822724_1_alg».proof.Proof.LibBroadcast
import proofs.«110162_j63848983822724_1_alg».proof.Proof.LibHostRead
import Idealize.ShloMosaic.Lib.ValueIdx
import Idealize.ShloMosaic.Lib.Pipeline.Value

noncomputable section
open scoped BigOperators
namespace Cert.Blocks
open Idealize.ShloMosaic Idealize.ShloMosaic.ValueIdx

variable [Cert.KernelIdeal.Facts] [Cert.ReferenceIdeal.Facts]

/-- One entry of a layer's activation as a function of the four numbers it reads: `max (a + xw * (d * d) + b, 0)`,
    the zero being the zero word read as an extended real. -/
def actAt (a xw d b : EReal) : EReal := max (a + xw * (d * d) + b) (Ideal.ofBits .f32 0x00000000#32)

section Kernel
open Cert.KernelIdeal Cert.KernelIdeal.Facts₀ Cert.KernelIdeal.Facts

/-- The activation of a block of rows in the kernel's operations: the aggregated block plus the block's own rows times
    the squared degree column repeated across the columns, plus the bias row repeated down the rows, clamped below at
    zero. -/
def kact (x0 x1 : Vec Ideal S5000x32 .f32) (x2 : Vec Ideal S5000x1 .f32) (x3 : Vec Ideal S1x32 .f32) :
    FVec Ideal S5000x32 .f32 :=
  maximumf
    (addf
      (addf (shapeCast S5000x32 x0 shapeCasts_S5000x32_S5000x32)
        (mulf (shapeCast S5000x32 x1 shapeCasts_S5000x32_S5000x32)
          (broadcastTo S5000x32
            (mulf (shapeCast S5000x1 x2 shapeCasts_S5000x1_S5000x1) (shapeCast S5000x1 x2 shapeCasts_S5000x1_S5000x1))
            broadcasts_S5000x1_S5000x32)))
      (broadcastTo S5000x32 (shapeCast S1x32 x3 shapeCasts_S1x32_S1x32) broadcasts_S1x32_S5000x32))
    (broadcast S5000x32 (Scalar.ofBits (F := Ideal) .f32 0x00000000#32))

/-- Entry `(p, k)` of the block's activation reads entry `(p, k)` of the two row blocks, entry `(p, 0)` of the degree
    column and entry `(0, k)` of the bias row. -/
theorem kact_apply (x0 x1 : Vec Ideal S5000x32 .f32) (x2 : Vec Ideal S5000x1 .f32) (x3 : Vec Ideal S1x32 .f32)
    (p : Fin 5000) (k : Fin 32) :
    kact x0 x1 x2 x3 (ix2 p k) = actAt (x0 (ix2 p k)) (x1 (ix2 p k)) (x2 (ix2 p (0 : Fin 1))) (x3 (ix2 (0 : Fin 1) k)) := by
  unfold kact
  simp only [shapeCast_self]
  show max ((x0 (ix2 p k) : EReal)
      + (x1 (ix2 p k) : EReal) * (broadcastTo S5000x32 (mulf (F := Ideal) (φ := .f32) x2 x2) broadcasts_S5000x1_S5000x32 (ix2 p k) : EReal)
      + (broadcastTo S5000x32 x3 broadcasts_S1x32_S5000x32 (ix2 p k) : EReal)) _ = _
  rw [Cert.BroadcastTo.col_apply, Cert.BroadcastTo.row_apply]
  rfl

end Kernel

section Reference
open Cert.ReferenceIdeal Cert.ReferenceIdeal.Facts₀ Cert.ReferenceIdeal.Facts

/-- Entry `(r, k)` of the whole arrays' activation reads entry `(r, k)` of the two row arrays, entry `r` of the degree
    vector and entry `k` of the bias vector. -/
theorem act_apply (A XW : FVec Ideal S100000x32 .f32) (D : FVec Ideal S100000 .f32) (B : FVec Ideal S32 .f32)
    (r : Fin 100000) (k : Fin 32) :
    Cert.Spec.act (F := Ideal) A XW D B (ix2 r k) = actAt (A (ix2 r k)) (XW (ix2 r k)) (D (ix1 r)) (B (ix1 k)) := by
  unfold Cert.Spec.act Cert.Spec.rows32
  show max (A (ix2 r k)
        + XW (ix2 r k) * broadcastInDim S100000x32 ![0, 1] bcast_S100000x1_S100000x32_0_1
            (broadcastInDim S100000x1 ![0] bcast_S100000_S100000x1_0 (mulf D D)) (ix2 r k)
        + broadcastInDim S100000x32 ![0, 1] bcast_S1x32_S100000x32_0_1 (broadcastInDim S1x32 ![1] bcast_S32_S1x32_1 B) (ix2 r k))
      (broadcastInDim S100000x32 ![] bcast_S_S100000x32 (constant (F := Ideal) S_ .f32 0x00000000#32) (ix2 r k)) = _
  rw [Cert.HostRead.col_cols_apply, Cert.HostRead.vec_col_apply, Cert.Layout.rows_of_vec_apply, Cert.Layout.splat_apply]
  rfl

end Reference

/-- Entry `(p, k)` of a block's activation is entry `(r, k)` of the whole arrays' activation, when row `p` of each row
    block is row `r` of its array and the bias row is the bias vector. -/
theorem act_block
    (A XW : FVec Ideal Cert.ReferenceIdeal.S100000x32 .f32) (D : FVec Ideal Cert.ReferenceIdeal.S100000 .f32)
    (B : FVec Ideal Cert.ReferenceIdeal.S32 .f32)
    (x0 x1 : Vec Ideal Cert.KernelIdeal.S5000x32 .f32) (x2 : Vec Ideal Cert.KernelIdeal.S5000x1 .f32)
    (x3 : Vec Ideal Cert.KernelIdeal.S1x32 .f32)
    (p : Fin 5000) (r : Fin 100000)
    (h0 : ∀ k : Fin 32, x0 (ix2 p k) = A (ix2 r k))
    (h1 : ∀ k : Fin 32, x1 (ix2 p k) = XW (ix2 r k))
    (h2 : x2 (ix2 p (0 : Fin 1)) = D (ix1 r))
    (h3 : ∀ b : Fin 32, x3 (ix2 (0 : Fin 1) b) = B (ix1 b))
    (k : Fin 32) :
    kact x0 x1 x2 x3 (ix2 p k) = Cert.Spec.act (F := Ideal) A XW D B (ix2 r k) := by
  rw [kact_apply, act_apply, h0 k, h1 k, h2, h3 k]

/-- A layer's block: the block's activation times the weight block, into a zero accumulator, at `(p, q)` is the whole
    arrays' activation times the weight array at `(r, q)`. -/
theorem layer_block
    (A XW : FVec Ideal Cert.ReferenceIdeal.S100000x32 .f32) (D : FVec Ideal Cert.ReferenceIdeal.S100000 .f32)
    (B : FVec Ideal Cert.ReferenceIdeal.S32 .f32) (W : FVec Ideal Cert.ReferenceIdeal.S32x32 .f32)
    (x0 x1 : Vec Ideal Cert.KernelIdeal.S5000x32 .f32) (x2 : Vec Ideal Cert.KernelIdeal.S5000x1 .f32)
    (x3 : Vec Ideal Cert.KernelIdeal.S1x32 .f32) (x4 : Vec Ideal Cert.KernelIdeal.S32x32 .f32)
    (p : Fin 5000) (r : Fin 100000)
    (h0 : ∀ k : Fin 32, x0 (ix2 p k) = A (ix2 r k))
    (h1 : ∀ k : Fin 32, x1 (ix2 p k) = XW (ix2 r k))
    (h2 : x2 (ix2 p (0 : Fin 1)) = D (ix1 r))
    (h3 : ∀ b : Fin 32, x3 (ix2 (0 : Fin 1) b) = B (ix1 b))
    (h4 : ∀ (a : Fin 32) (b : Fin 32), x4 (ix2 a b) = W (ix2 a b))
    (q : Fin 32) :
    matmul (F := Ideal) (φ₁ := .f32) (φ₂ := .f32) Cert.KernelIdeal.dot_S5000x32_S32x32_S5000x32_1_0_0_1_n_n none (kact x0 x1 x2 x3) x4
        (constant Cert.KernelIdeal.S5000x32 .f32 0x00000000#32) (ix2 p q)
      = Cert.Spec.layer (F := Ideal) A XW D B W (ix2 r q) := by
  unfold Cert.Spec.layer
  show FloatOps.matmul (φ₁ := .f32) (φ₂ := .f32) (DotDims.plain 5000 32 32) none (kact x0 x1 x2 x3) x4 (constant ⟨2, ![5000, 32]⟩ .f32 0x00000000#32) (ix2 p q)
      = FloatOps.dotGeneral (DotDims.plain 100000 32 32) none .single (Cert.Spec.act (F := Ideal) A XW D B) W (ix2 r q)
  rw [Cert.MatProd.matmul_plain_zero_apply, Cert.MatProd.dotGeneral_plain_apply]
  refine Finset.sum_congr rfl fun k _ => ?_
  rw [act_block A XW D B x0 x1 x2 x3 p r h0 h1 h2 h3 k, h4 k q]

theorem layer1_block
    (A XW : FVec Ideal Cert.ReferenceIdeal.S100000x32 .f32) (D : FVec Ideal Cert.ReferenceIdeal.S100000 .f32)
    (B : FVec Ideal Cert.ReferenceIdeal.S32 .f32) (W : FVec Ideal Cert.ReferenceIdeal.S32x32 .f32)
    (x0 x1 : Vec Ideal Cert.KernelIdeal.S5000x32 .f32) (x2 : Vec Ideal Cert.KernelIdeal.S5000x1 .f32)
    (x3 : Vec Ideal Cert.KernelIdeal.S1x32 .f32) (x4 : Vec Ideal Cert.KernelIdeal.S32x32 .f32)
    (p : Fin 5000) (r : Fin 100000)
    (h0 : ∀ k : Fin 32, x0 (ix2 p k) = A (ix2 r k))
    (h1 : ∀ k : Fin 32, x1 (ix2 p k) = XW (ix2 r k))
    (h2 : x2 (ix2 p (0 : Fin 1)) = D (ix1 r))
    (h3 : ∀ b : Fin 32, x3 (ix2 (0 : Fin 1) b) = B (ix1 b))
    (h4 : ∀ (a : Fin 32) (b : Fin 32), x4 (ix2 a b) = W (ix2 a b))
    (q : Fin 32) :
    Cert.KernelIdeal.Gen.k1_pay1 (F := Ideal) x0 x1 x2 x3 x4 (ix2 p q)
      = Cert.Spec.layer (F := Ideal) A XW D B W (ix2 r q) :=
  layer_block A XW D B W x0 x1 x2 x3 x4 p r h0 h1 h2 h3 h4 q

theorem layer2_block
    (A XW : FVec Ideal Cert.ReferenceIdeal.S100000x32 .f32) (D : FVec Ideal Cert.ReferenceIdeal.S100000 .f32)
    (B : FVec Ideal Cert.ReferenceIdeal.S32 .f32) (W : FVec Ideal Cert.ReferenceIdeal.S32x32 .f32)
    (x0 x1 : Vec Ideal Cert.KernelIdeal.S5000x32 .f32) (x2 : Vec Ideal Cert.KernelIdeal.S5000x1 .f32)
    (x3 : Vec Ideal Cert.KernelIdeal.S1x32 .f32) (x4 : Vec Ideal Cert.KernelIdeal.S32x32 .f32)
    (p : Fin 5000) (r : Fin 100000)
    (h0 : ∀ k : Fin 32, x0 (ix2 p k) = A (ix2 r k))
    (h1 : ∀ k : Fin 32, x1 (ix2 p k) = XW (ix2 r k))
    (h2 : x2 (ix2 p (0 : Fin 1)) = D (ix1 r))
    (h3 : ∀ b : Fin 32, x3 (ix2 (0 : Fin 1) b) = B (ix1 b))
    (h4 : ∀ (a : Fin 32) (b : Fin 32), x4 (ix2 a b) = W (ix2 a b))
    (q : Fin 32) :
    Cert.KernelIdeal.Gen.k2_pay1 (F := Ideal) x0 x1 x2 x3 x4 (ix2 p q)
      = Cert.Spec.layer (F := Ideal) A XW D B W (ix2 r q) :=
  layer_block A XW D B W x0 x1 x2 x3 x4 p r h0 h1 h2 h3 h4 q

section Kernel
open Cert.KernelIdeal Cert.KernelIdeal.Facts₀ Cert.KernelIdeal.Facts

/-- The head's hidden rows for a block, in the kernel's operations: the hyperbolic tangent of the block's activation
    times the first weight block, into a zero accumulator, plus the first bias row repeated down the rows. -/
def khid (x0 x1 : Vec Ideal S5000x32 .f32) (x2 : Vec Ideal S5000x1 .f32) (x3 : Vec Ideal S1x32 .f32)
    (x4 : Vec Ideal S32x32 .f32) (x5 : Vec Ideal S1x32 .f32) : FVec Ideal S5000x32 .f32 :=
  tanh
    (addf
      (matmul (φ₁ := .f32) (φ₂ := .f32) dot_S5000x32_S32x32_S5000x32_1_0_0_1_n_n none (kact x0 x1 x2 x3) x4
        (constant S5000x32 .f32 0x00000000#32))
      (broadcastTo S5000x32 (shapeCast S1x32 x5 shapeCasts_S1x32_S1x32) broadcasts_S1x32_S5000x32))

/-- Entry `(p, k)` of the block's hidden rows. -/
theorem khid_apply (x0 x1 : Vec Ideal S5000x32 .f32) (x2 : Vec Ideal S5000x1 .f32) (x3 : Vec Ideal S1x32 .f32)
    (x4 : Vec Ideal S32x32 .f32) (x5 : Vec Ideal S1x32 .f32) (p : Fin 5000) (k : Fin 32) :
    khid x0 x1 x2 x3 x4 x5 (ix2 p k)
      = Ideal.tanh (Cert.MatProd.prod (kact x0 x1 x2 x3) x4 (ix2 p k) + x5 (ix2 (0 : Fin 1) k)) := by
  unfold khid
  rw [shapeCast_self]
  show Ideal.tanh
      (addf (matmul (φ₁ := .f32) (φ₂ := .f32) dot_S5000x32_S32x32_S5000x32_1_0_0_1_n_n none (kact x0 x1 x2 x3) x4
          (constant ⟨2, ![5000, 32]⟩ .f32 0x00000000#32))
        (broadcastTo ⟨2, ![5000, 32]⟩ x5 broadcasts_S1x32_S5000x32) (ix2 p k)) = _
  rw [Cert.DenseLayer.kernel_affine dot_S5000x32_S32x32_S5000x32_1_0_0_1_n_n rfl (kact x0 x1 x2 x3) x4 x5 broadcasts_S1x32_S5000x32 p k]

end Kernel

section Reference
open Cert.ReferenceIdeal Cert.ReferenceIdeal.Facts₀ Cert.ReferenceIdeal.Facts

/-- The head's hidden rows for the whole arrays, in the host's operations. -/
def rhid (h : FVec Ideal S100000x32 .f32) (Wp1 : FVec Ideal S32x32 .f32) (bp1 : FVec Ideal S32 .f32) :
    FVec Ideal S100000x32 .f32 :=
  Host.tanh (addf (Host.dotGeneral (φ₁ := .f32) (φ₂ := .f32) dot_S100000x32_S32x32_S100000x32_1_0_0_1_n_n none h Wp1)
    (Cert.Spec.rows32 (F := Ideal) bp1))

/-- Entry `(r, k)` of the whole arrays' hidden rows. -/
theorem rhid_apply (h : FVec Ideal S100000x32 .f32) (Wp1 : FVec Ideal S32x32 .f32) (bp1 : FVec Ideal S32 .f32)
    (r : Fin 100000) (k : Fin 32) :
    rhid h Wp1 bp1 (ix2 r k) = Ideal.tanh (Cert.MatProd.prod h Wp1 (ix2 r k) + bp1 (ix1 k)) := by
  unfold rhid Cert.Spec.rows32
  show Ideal.tanh
      (addf (Host.dotGeneral (φ₁ := .f32) (φ₂ := .f32) dot_S100000x32_S32x32_S100000x32_1_0_0_1_n_n none h Wp1)
        (broadcastInDim ⟨2, ![100000, 32]⟩ ![0, 1] bcast_S1x32_S100000x32_0_1
          (broadcastInDim ⟨2, ![1, 32]⟩ ![1] bcast_S32_S1x32_1 bp1)) (ix2 r k)) = _
  rw [Cert.DenseLayer.host_affine dot_S100000x32_S32x32_S100000x32_1_0_0_1_n_n rfl h Wp1 bp1 bcast_S32_S1x32_1 bcast_S1x32_S100000x32_0_1 r k]
  rfl

end Reference

section Kernel
open Cert.KernelIdeal Cert.KernelIdeal.Facts₀ Cert.KernelIdeal.Facts

/-- The head's output column for a block, in the kernel's operations: the hyperbolic tangent of the hidden rows times
    the second weight column, into a zero accumulator, plus the second bias cell repeated down the rows; plus the block
    of priors. -/
def kout (x0 x1 : Vec Ideal S5000x32 .f32) (x2 : Vec Ideal S5000x1 .f32) (x3 : Vec Ideal S1x32 .f32)
    (x4 : Vec Ideal S32x32 .f32) (x5 : Vec Ideal S1x32 .f32) (x6 : Vec Ideal S32x1 .f32) (x7 : Vec Ideal S1x1 .f32)
    (x8 : Vec Ideal S5000x1 .f32) : FVec Ideal S5000x1 .f32 :=
  addf
    (tanh
      (addf
        (matmul (φ₁ := .f32) (φ₂ := .f32) dot_S5000x32_S32x1_S5000x1_1_0_0_1_n_n none (khid x0 x1 x2 x3 x4 x5) x6
          (constant S5000x1 .f32 0x00000000#32))
        (broadcastTo S5000x1 (shapeCast S1x1 x7 shapeCasts_S1x1_S1x1) broadcasts_S1x1_S5000x1)))
    x8

/-- Entry `(p, 0)` of the block's output column. -/
theorem kout_apply (x0 x1 : Vec Ideal S5000x32 .f32) (x2 : Vec Ideal S5000x1 .f32) (x3 : Vec Ideal S1x32 .f32)
    (x4 : Vec Ideal S32x32 .f32) (x5 : Vec Ideal S1x32 .f32) (x6 : Vec Ideal S32x1 .f32) (x7 : Vec Ideal S1x1 .f32)
    (x8 : Vec Ideal S5000x1 .f32) (p : Fin 5000) :
    kout x0 x1 x2 x3 x4 x5 x6 x7 x8 (ix2 p (0 : Fin 1))
      = Ideal.tanh (Cert.MatProd.prod (khid x0 x1 x2 x3 x4 x5) x6 (ix2 p (0 : Fin 1)) + x7 (ix2 (0 : Fin 1) (0 : Fin 1)))
          + x8 (ix2 p (0 : Fin 1)) := by
  unfold kout
  rw [shapeCast_self]
  show Ideal.tanh
      (addf (matmul (φ₁ := .f32) (φ₂ := .f32) dot_S5000x32_S32x1_S5000x1_1_0_0_1_n_n none (khid x0 x1 x2 x3 x4 x5) x6
          (constant ⟨2, ![5000, 1]⟩ .f32 0x00000000#32))
        (broadcastTo ⟨2, ![5000, 1]⟩ x7 broadcasts_S1x1_S5000x1) (ix2 p (0 : Fin 1))) + (x8 (ix2 p (0 : Fin 1)) : EReal) = _
  rw [Cert.DenseLayer.kernel_affine dot_S5000x32_S32x1_S5000x1_1_0_0_1_n_n rfl (khid x0 x1 x2 x3 x4 x5) x6 x7
    broadcasts_S1x1_S5000x1 p (0 : Fin 1)]

end Kernel

section Reference
open Cert.ReferenceIdeal Cert.ReferenceIdeal.Facts₀ Cert.ReferenceIdeal.Facts

/-- Entry `(r, 0)` of the whole arrays' head. -/
theorem head_apply (h : FVec Ideal S100000x32 .f32) (Wp1 : FVec Ideal S32x32 .f32) (bp1 : FVec Ideal S32 .f32)
    (Wp2 : FVec Ideal S32x1 .f32) (bp2 : FVec Ideal S1 .f32) (priors : FVec Ideal S100000x1 .f32) (r : Fin 100000) :
    Cert.Spec.head (F := Ideal) h Wp1 bp1 Wp2 bp2 priors (ix2 r (0 : Fin 1))
      = Ideal.tanh (Cert.MatProd.prod (rhid h Wp1 bp1) Wp2 (ix2 r (0 : Fin 1)) + bp2 (ix1 (0 : Fin 1)))
          + priors (ix2 r (0 : Fin 1)) := by
  unfold Cert.Spec.head
  show Ideal.tanh
      (addf (Host.dotGeneral (φ₁ := .f32) (φ₂ := .f32) dot_S100000x32_S32x1_S100000x1_1_0_0_1_n_n none (rhid h Wp1 bp1) Wp2)
        (broadcastInDim ⟨2, ![100000, 1]⟩ ![0, 1] bcast_S1x1_S100000x1_0_1
          (broadcastInDim ⟨2, ![1, 1]⟩ ![1] bcast_S1_S1x1_1 bp2)) (ix2 r (0 : Fin 1))) + (priors (ix2 r (0 : Fin 1)) : EReal) = _
  rw [Cert.DenseLayer.host_affine dot_S100000x32_S32x1_S100000x1_1_0_0_1_n_n rfl (rhid h Wp1 bp1) Wp2 bp2
    bcast_S1_S1x1_1 bcast_S1x1_S100000x1_0_1 r (0 : Fin 1)]
  rfl

end Reference

/-- Entry `(p, k)` of a block's hidden rows is entry `(r, k)` of the whole arrays' hidden rows. -/
theorem hid_block
    (A XW : FVec Ideal Cert.ReferenceIdeal.S100000x32 .f32) (D : FVec Ideal Cert.ReferenceIdeal.S100000 .f32)
    (B : FVec Ideal Cert.ReferenceIdeal.S32 .f32) (Wp1 : FVec Ideal Cert.ReferenceIdeal.S32x32 .f32)
    (bp1 : FVec Ideal Cert.ReferenceIdeal.S32 .f32)
    (x0 x1 : Vec Ideal Cert.KernelIdeal.S5000x32 .f32) (x2 : Vec Ideal Cert.KernelIdeal.S5000x1 .f32)
    (x3 : Vec Ideal Cert.KernelIdeal.S1x32 .f32) (x4 : Vec Ideal Cert.KernelIdeal.S32x32 .f32)
    (x5 : Vec Ideal Cert.KernelIdeal.S1x32 .f32)
    (p : Fin 5000) (r : Fin 100000)
    (h0 : ∀ k : Fin 32, x0 (ix2 p k) = A (ix2 r k))
    (h1 : ∀ k : Fin 32, x1 (ix2 p k) = XW (ix2 r k))
    (h2 : x2 (ix2 p (0 : Fin 1)) = D (ix1 r))
    (h3 : ∀ b : Fin 32, x3 (ix2 (0 : Fin 1) b) = B (ix1 b))
    (h4 : ∀ (a : Fin 32) (b : Fin 32), x4 (ix2 a b) = Wp1 (ix2 a b))
    (h5 : ∀ b : Fin 32, x5 (ix2 (0 : Fin 1) b) = bp1 (ix1 b))
    (k : Fin 32) :
    khid x0 x1 x2 x3 x4 x5 (ix2 p k) = rhid (Cert.Spec.act (F := Ideal) A XW D B) Wp1 bp1 (ix2 r k) := by
  rw [khid_apply, rhid_apply, h5 k,
    Cert.MatProd.prod_block_eq (Cert.Spec.act (F := Ideal) A XW D B) Wp1 (kact x0 x1 x2 x3) x4 p k (ix2 r k)
      (fun j => act_block A XW D B x0 x1 x2 x3 p r h0 h1 h2 h3 j) (fun j => h4 j k)]

theorem head_block
    (A XW : FVec Ideal Cert.ReferenceIdeal.S100000x32 .f32) (D : FVec Ideal Cert.ReferenceIdeal.S100000 .f32)
    (B : FVec Ideal Cert.ReferenceIdeal.S32 .f32) (Wp1 : FVec Ideal Cert.ReferenceIdeal.S32x32 .f32)
    (bp1 : FVec Ideal Cert.ReferenceIdeal.S32 .f32) (Wp2 : FVec Ideal Cert.ReferenceIdeal.S32x1 .f32)
    (bp2 : FVec Ideal Cert.ReferenceIdeal.S1 .f32) (priors : FVec Ideal Cert.ReferenceIdeal.S100000x1 .f32)
    (x0 x1 : Vec Ideal Cert.KernelIdeal.S5000x32 .f32) (x2 : Vec Ideal Cert.KernelIdeal.S5000x1 .f32)
    (x3 : Vec Ideal Cert.KernelIdeal.S1x32 .f32) (x4 : Vec Ideal Cert.KernelIdeal.S32x32 .f32)
    (x5 : Vec Ideal Cert.KernelIdeal.S1x32 .f32) (x6 : Vec Ideal Cert.KernelIdeal.S32x1 .f32)
    (x7 : Vec Ideal Cert.KernelIdeal.S1x1 .f32) (x8 : Vec Ideal Cert.KernelIdeal.S5000x1 .f32)
    (p : Fin 5000) (r : Fin 100000)
    (h0 : ∀ k : Fin 32, x0 (ix2 p k) = A (ix2 r k))
    (h1 : ∀ k : Fin 32, x1 (ix2 p k) = XW (ix2 r k))
    (h2 : x2 (ix2 p (0 : Fin 1)) = D (ix1 r))
    (h3 : ∀ b : Fin 32, x3 (ix2 (0 : Fin 1) b) = B (ix1 b))
    (h4 : ∀ (a : Fin 32) (b : Fin 32), x4 (ix2 a b) = Wp1 (ix2 a b))
    (h5 : ∀ b : Fin 32, x5 (ix2 (0 : Fin 1) b) = bp1 (ix1 b))
    (h6 : ∀ (a : Fin 32), x6 (ix2 a (0 : Fin 1)) = Wp2 (ix2 a (0 : Fin 1)))
    (h7 : x7 (ix2 (0 : Fin 1) (0 : Fin 1)) = bp2 (ix1 (0 : Fin 1)))
    (h8 : x8 (ix2 p (0 : Fin 1)) = priors (ix2 r (0 : Fin 1))) :
    Cert.KernelIdeal.Gen.k3_pay1 (F := Ideal) x0 x1 x2 x3 x4 x5 x6 x7 x8 (ix2 p (0 : Fin 1))
      = Cert.Spec.head (F := Ideal) (Cert.Spec.act (F := Ideal) A XW D B) Wp1 bp1 Wp2 bp2 priors (ix2 r (0 : Fin 1)) := by
  show kout x0 x1 x2 x3 x4 x5 x6 x7 x8 (ix2 p (0 : Fin 1)) = _
  rw [kout_apply, head_apply, h7, h8,
    Cert.MatProd.prod_block_eq (rhid (Cert.Spec.act (F := Ideal) A XW D B) Wp1 bp1) Wp2 (khid x0 x1 x2 x3 x4 x5) x6
      p (0 : Fin 1) (ix2 r (0 : Fin 1))
      (fun k => hid_block A XW D B Wp1 bp1 x0 x1 x2 x3 x4 x5 p r h0 h1 h2 h3 h4 h5 k) (fun k => h6 k)]

end Cert.Blocks
end
-- ==== Proof.KRegion1.lean ====
/-
  The second pallas_call (the first graph layer's bias, self-loop and clamp, then the next layer's weights) read as a
  whole-array function: block `t` of its result is what point `t` writes, the payload of rows `5000 t … 5000 t + 4999` of
  the arrays it is handed, and the twenty blocks tile the 100000 rows.
-/
import proofs.«110162_j63848983822724_1_alg».proof.Proof.Spec
import proofs.«110162_j63848983822724_1_alg».proof.Proof.BlockLayer
import proofs.«110162_j63848983822724_1_alg».proof.Proof.Gen.KernelIdeal.Frame
import proofs.«110162_j63848983822724_1_alg».proof.Proof.Gen.ReferenceIdeal
import Idealize.ShloMosaic.Lib.ValueIdx
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- The index maps of the second pallas_call over its twenty points: the row-blocked windows sit at block row `t`,
    the weight and bias windows at the origin. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem flushed1 (c : Dev nD) (A XW : FVec Ideal Cert.ReferenceIdeal.S100000x32 .f32) (D : FVec Ideal Cert.ReferenceIdeal.S100000 .f32)
    (B : FVec Ideal Cert.ReferenceIdeal.S32 .f32) (W : FVec Ideal Cert.ReferenceIdeal.S32x32 .f32)
    (hA : V c main_v50 = A) (hXW : V c main_v38 = XW)
    (hD : ∀ r : Fin 100000, V c main_v28 (ix2 r (0 : Fin 1)) = D (ix1 r))
    (hB : ∀ b : Fin 32, V c main_v33 (ix2 (0 : Fin 1) b) = B (ix1 b))
    (hW : V c main_arg11 = W) (t : Fin cfg1.N) :
    (dat1 V c).flushed 5 t = ((cfg1.win 5).blk t).view.read (Elt Ideal) (Cert.Spec.layer (F := Ideal) A XW D B W) := by
  show (cfg1.win 5).cut (grid1.coords t) ((dat1 V c).after 5 t) = _
  rw [after1_5]
  unfold out1_5
  rw [View.canon_unit_zero hz2]
  simp only [View.ld_unit_zero (S := S5000x32) hz2, View.ld_unit_zero (S := S5000x1) hz2, View.ld_unit_zero (S := S1x32) hz2, View.ld_unit_zero (S := S32x32) hz2]
  obtain ⟨e00, e01, e10, e11, e20, e21, e30, e31, e40, e41, e50, e51⟩ := idx_facts1 t
  have ht : t.val < 20 := lt_of_lt_of_eq t.isLt N_1
  funext j
  show k1_pay1 (iblk1 V c 0 t) (iblk1 V c 1 t) (iblk1 V c 2 t) (iblk1 V c 3 t) (iblk1 V c 4 t) j
    = Cert.Spec.layer (F := Ideal) A XW D B W (((cfg1.win 5).blk t).view.emb j)
  obtain ⟨p, q, rfl⟩ : ∃ (p : Fin 5000) (q : Fin 32), j = ix2 p q := ⟨j 0, j 1, eq_ix2 j⟩
  have hr : t.val * 5000 + p.val < 100000 := by have := p.isLt; omega
  have hemb5 : ((cfg1.win 5).blk t).view.emb (ix2 p q) = ix2 (⟨t.val * 5000 + p.val, hr⟩ : Fin 100000) q := by
    funext a; apply Fin.ext
    match a with
    | ⟨0, _⟩ => show win1_5.index t (0 : Fin 2) * 5000 + 1 * p.val = t.val * 5000 + p.val; omega
    | ⟨1, _⟩ => show win1_5.index t (1 : Fin 2) * 32 + 1 * q.val = q.val; omega
  rw [hemb5]
  refine Cert.Blocks.layer1_block A XW D B W _ _ _ _ _ p ⟨t.val * 5000 + p.val, hr⟩ ?_ ?_ ?_ ?_ ?_ q
  · intro k
    show V c main_v50 (((cfg1.win 0).blk t).view.emb (ix2 p k)) = A (ix2 _ k)
    rw [hA]
    refine congrArg A ?_
    funext a; apply Fin.ext
    match a with
    | ⟨0, _⟩ => show win1_0.index t (0 : Fin 2) * 5000 + 1 * p.val = t.val * 5000 + p.val; omega
    | ⟨1, _⟩ => show win1_0.index t (1 : Fin 2) * 32 + 1 * k.val = k.val; omega
  · intro k
    show V c main_v38 (((cfg1.win 1).blk t).view.emb (ix2 p k)) = XW (ix2 _ k)
    rw [hXW]
    refine congrArg XW ?_
    funext a; apply Fin.ext
    match a with
    | ⟨0, _⟩ => show win1_1.index t (0 : Fin 2) * 5000 + 1 * p.val = t.val * 5000 + p.val; omega
    | ⟨1, _⟩ => show win1_1.index t (1 : Fin 2) * 32 + 1 * k.val = k.val; omega
  · show V c main_v28 (((cfg1.win 2).blk t).view.emb (ix2 p (0 : Fin 1))) = D (ix1 _)
    rw [← hD]
    refine congrArg (V c main_v28) ?_
    funext a; apply Fin.ext
    match a with
    | ⟨0, _⟩ => show win1_2.index t (0 : Fin 2) * 5000 + 1 * p.val = t.val * 5000 + p.val; omega
    | ⟨1, _⟩ => show win1_2.index t (1 : Fin 2) * 1 + 1 * 0 = 0; omega
  · intro b
    show V c main_v33 (((cfg1.win 3).blk t).view.emb (ix2 (0 : Fin 1) b)) = B (ix1 b)
    rw [← hB]
    refine congrArg (V c main_v33) ?_
    funext a; apply Fin.ext
    match a with
    | ⟨0, _⟩ => show win1_3.index t (0 : Fin 2) * 1 + 1 * 0 = 0; omega
    | ⟨1, _⟩ => show win1_3.index t (1 : Fin 2) * 32 + 1 * b.val = b.val; omega
  · intro a b
    show V c main_arg11 (((cfg1.win 4).blk t).view.emb (ix2 a b)) = W (ix2 a b)
    rw [hW]
    refine congrArg W ?_
    funext a'; apply Fin.ext
    match a' with
    | ⟨0, _⟩ => show win1_4.index t (0 : Fin 2) * 32 + 1 * a.val = a.val; omega
    | ⟨1, _⟩ => show win1_4.index t (1 : Fin 2) * 32 + 1 * b.val = b.val; omega

/-- An index of the result array lies in point `t`'s block iff each coordinate is in the block's range on its axis. -/
theorem mem_blk1 (t : Fin cfg1.N) (i : S100000x32.Idx) :
    i ∈ ((cfg1.win 5).blk t).view.set ↔ ∀ a : Fin 2, win1_5.index t a * S5000x32.size a ≤ (i a).val ∧ (i a).val < win1_5.index t a * S5000x32.size a + S5000x32.size a := by
  show i ∈ ((View.whole main_v51).slice (win1_5.rect t)).set ↔ _
  rw [View.set_slice_whole, Rect.mem_set_unit]
  exact Iff.rfl

/-- The twenty blocks of 5000 rows tile the 100000 rows: row `r` is in block `r / 5000`. -/
theorem cover1 (i : S100000x32.Idx) : ∃ t : Fin cfg1.N, (cfg1.win 5).flush t = true ∧ i ∈ ((cfg1.win 5).blk t).view.set := by
  have hi0 : (i 0).val < 100000 := (i 0).isLt
  have hi1 : (i 1).val < 32 := (i 1).isLt
  have ht : (i 0).val / 5000 < cfg1.N := lt_of_lt_of_eq (by omega : (i 0).val / 5000 < 20) N_1.symm
  refine ⟨⟨(i 0).val / 5000, ht⟩, flush1_5 _, ?_⟩
  obtain ⟨-, -, -, -, -, -, -, -, -, -, e50, e51⟩ := idx_facts1 ⟨(i 0).val / 5000, ht⟩
  rw [mem_blk1]
  intro a
  match a with
  | ⟨0, _⟩ => show win1_5.index ⟨(i 0).val / 5000, ht⟩ (0 : Fin 2) * 5000 ≤ (i 0).val ∧ (i 0).val < win1_5.index ⟨(i 0).val / 5000, ht⟩ (0 : Fin 2) * 5000 + 5000; rw [e50]; show (i 0).val / 5000 * 5000 ≤ (i 0).val ∧ (i 0).val < (i 0).val / 5000 * 5000 + 5000; omega
  | ⟨1, _⟩ => show win1_5.index ⟨(i 0).val / 5000, ht⟩ (1 : Fin 2) * 32 ≤ (i 1).val ∧ (i 1).val < win1_5.index ⟨(i 0).val / 5000, ht⟩ (1 : Fin 2) * 32 + 32; rw [e51]; omega

/-- The second pallas_call's result array after its twenty points: one graph layer of the arrays it was handed. -/
theorem value1 (c : Dev nD) (A XW : FVec Ideal Cert.ReferenceIdeal.S100000x32 .f32) (D : FVec Ideal Cert.ReferenceIdeal.S100000 .f32)
    (B : FVec Ideal Cert.ReferenceIdeal.S32 .f32) (W : FVec Ideal Cert.ReferenceIdeal.S32x32 .f32)
    (hA : V c main_v50 = A) (hXW : V c main_v38 = XW)
    (hD : ∀ r : Fin 100000, V c main_v28 (ix2 r (0 : Fin 1)) = D (ix1 r))
    (hB : ∀ b : Fin 32, V c main_v33 (ix2 (0 : Fin 1) b) = B (ix1 b))
    (hW : V c main_arg11 = W) :
    (dat1 V c).arrAt 5 cfg1.N = Cert.Spec.layer (F := Ideal) A XW D B W :=
  (dat1 V c).arrAt_eq_of_cover 5 (Cert.Spec.layer (F := Ideal) A XW D B W)
    (fun t _ => flushed1 V c A XW D B W hA hXW hD hB hW t) cover1

end Cert.KernelIdeal.Region1
end
-- ==== Proof.KRegion2.lean ====
/-
  The third pallas_call (the second graph layer's bias, self-loop and clamp, then the next layer's weights) read as a
  whole-array function: block `t` of its result is what point `t` writes, the payload of rows `5000 t … 5000 t + 4999` of
  the arrays it is handed, and the twenty blocks tile the 100000 rows.
-/
import proofs.«110162_j63848983822724_1_alg».proof.Proof.Spec
import proofs.«110162_j63848983822724_1_alg».proof.Proof.BlockLayer
import proofs.«110162_j63848983822724_1_alg».proof.Proof.Gen.KernelIdeal.Frame
import proofs.«110162_j63848983822724_1_alg».proof.Proof.Gen.ReferenceIdeal
import Idealize.ShloMosaic.Lib.ValueIdx
import Idealize.ShloMosaic.Lib.Pipeline.Value

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- The index maps of the third pallas_call over its twenty points: the row-blocked windows sit at block row `t`,
    the weight and bias windows at the origin. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem flushed2 (c : Dev nD) (A XW : FVec Ideal Cert.ReferenceIdeal.S100000x32 .f32) (D : FVec Ideal Cert.ReferenceIdeal.S100000 .f32)
    (B : FVec Ideal Cert.ReferenceIdeal.S32 .f32) (W : FVec Ideal Cert.ReferenceIdeal.S32x32 .f32)
    (hA : V c main_v63 = A) (hXW : V c main_v51 = XW)
    (hD : ∀ r : Fin 100000, V c main_v28 (ix2 r (0 : Fin 1)) = D (ix1 r))
    (hB : ∀ b : Fin 32, V c main_v34 (ix2 (0 : Fin 1) b) = B (ix1 b))
    (hW : V c main_arg13 = W) (t : Fin cfg2.N) :
    (dat2 V c).flushed 5 t = ((cfg2.win 5).blk t).view.read (Elt Ideal) (Cert.Spec.layer (F := Ideal) A XW D B W) := by
  show (cfg2.win 5).cut (grid2.coords t) ((dat2 V c).after 5 t) = _
  rw [after2_5]
  unfold out2_5
  rw [View.canon_unit_zero hz2]
  simp only [View.ld_unit_zero (S := S5000x32) hz2, View.ld_unit_zero (S := S5000x1) hz2, View.ld_unit_zero (S := S1x32) hz2, View.ld_unit_zero (S := S32x32) hz2]
  obtain ⟨e00, e01, e10, e11, e20, e21, e30, e31, e40, e41, e50, e51⟩ := idx_facts2 t
  have ht : t.val < 20 := lt_of_lt_of_eq t.isLt N_2
  funext j
  show k2_pay1 (iblk2 V c 0 t) (iblk2 V c 1 t) (iblk2 V c 2 t) (iblk2 V c 3 t) (iblk2 V c 4 t) j
    = Cert.Spec.layer (F := Ideal) A XW D B W (((cfg2.win 5).blk t).view.emb j)
  obtain ⟨p, q, rfl⟩ : ∃ (p : Fin 5000) (q : Fin 32), j = ix2 p q := ⟨j 0, j 1, eq_ix2 j⟩
  have hr : t.val * 5000 + p.val < 100000 := by have := p.isLt; omega
  have hemb5 : ((cfg2.win 5).blk t).view.emb (ix2 p q) = ix2 (⟨t.val * 5000 + p.val, hr⟩ : Fin 100000) q := by
    funext a; apply Fin.ext
    match a with
    | ⟨0, _⟩ => show win2_5.index t (0 : Fin 2) * 5000 + 1 * p.val = t.val * 5000 + p.val; omega
    | ⟨1, _⟩ => show win2_5.index t (1 : Fin 2) * 32 + 1 * q.val = q.val; omega
  rw [hemb5]
  refine Cert.Blocks.layer2_block A XW D B W _ _ _ _ _ p ⟨t.val * 5000 + p.val, hr⟩ ?_ ?_ ?_ ?_ ?_ q
  · intro k
    show V c main_v63 (((cfg2.win 0).blk t).view.emb (ix2 p k)) = A (ix2 _ k)
    rw [hA]
    refine congrArg A ?_
    funext a; apply Fin.ext
    match a with
    | ⟨0, _⟩ => show win2_0.index t (0 : Fin 2) * 5000 + 1 * p.val = t.val * 5000 + p.val; omega
    | ⟨1, _⟩ => show win2_0.index t (1 : Fin 2) * 32 + 1 * k.val = k.val; omega
  · intro k
    show V c main_v51 (((cfg2.win 1).blk t).view.emb (ix2 p k)) = XW (ix2 _ k)
    rw [hXW]
    refine congrArg XW ?_
    funext a; apply Fin.ext
    match a with
    | ⟨0, _⟩ => show win2_1.index t (0 : Fin 2) * 5000 + 1 * p.val = t.val * 5000 + p.val; omega
    | ⟨1, _⟩ => show win2_1.index t (1 : Fin 2) * 32 + 1 * k.val = k.val; omega
  · show V c main_v28 (((cfg2.win 2).blk t).view.emb (ix2 p (0 : Fin 1))) = D (ix1 _)
    rw [← hD]
    refine congrArg (V c main_v28) ?_
    funext a; apply Fin.ext
    match a with
    | ⟨0, _⟩ => show win2_2.index t (0 : Fin 2) * 5000 + 1 * p.val = t.val * 5000 + p.val; omega
    | ⟨1, _⟩ => show win2_2.index t (1 : Fin 2) * 1 + 1 * 0 = 0; omega
  · intro b
    show V c main_v34 (((cfg2.win 3).blk t).view.emb (ix2 (0 : Fin 1) b)) = B (ix1 b)
    rw [← hB]
    refine congrArg (V c main_v34) ?_
    funext a; apply Fin.ext
    match a with
    | ⟨0, _⟩ => show win2_3.index t (0 : Fin 2) * 1 + 1 * 0 = 0; omega
    | ⟨1, _⟩ => show win2_3.index t (1 : Fin 2) * 32 + 1 * b.val = b.val; omega
  · intro a b
    show V c main_arg13 (((cfg2.win 4).blk t).view.emb (ix2 a b)) = W (ix2 a b)
    rw [hW]
    refine congrArg W ?_
    funext a'; apply Fin.ext
    match a' with
    | ⟨0, _⟩ => show win2_4.index t (0 : Fin 2) * 32 + 1 * a.val = a.val; omega
    | ⟨1, _⟩ => show win2_4.index t (1 : Fin 2) * 32 + 1 * b.val = b.val; omega

/-- An index of the result array lies in point `t`'s block iff each coordinate is in the block's range on its axis. -/
theorem mem_blk2 (t : Fin cfg2.N) (i : S100000x32.Idx) :
    i ∈ ((cfg2.win 5).blk t).view.set ↔ ∀ a : Fin 2, win2_5.index t a * S5000x32.size a ≤ (i a).val ∧ (i a).val < win2_5.index t a * S5000x32.size a + S5000x32.size a := by
  show i ∈ ((View.whole main_v64).slice (win2_5.rect t)).set ↔ _
  rw [View.set_slice_whole, Rect.mem_set_unit]
  exact Iff.rfl

/-- The twenty blocks of 5000 rows tile the 100000 rows: row `r` is in block `r / 5000`. -/
theorem cover2 (i : S100000x32.Idx) : ∃ t : Fin cfg2.N, (cfg2.win 5).flush t = true ∧ i ∈ ((cfg2.win 5).blk t).view.set := by
  have hi0 : (i 0).val < 100000 := (i 0).isLt
  have hi1 : (i 1).val < 32 := (i 1).isLt
  have ht : (i 0).val / 5000 < cfg2.N := lt_of_lt_of_eq (by omega : (i 0).val / 5000 < 20) N_2.symm
  refine ⟨⟨(i 0).val / 5000, ht⟩, flush2_5 _, ?_⟩
  obtain ⟨-, -, -, -, -, -, -, -, -, -, e50, e51⟩ := idx_facts2 ⟨(i 0).val / 5000, ht⟩
  rw [mem_blk2]
  intro a
  match a with
  | ⟨0, _⟩ => show win2_5.index ⟨(i 0).val / 5000, ht⟩ (0 : Fin 2) * 5000 ≤ (i 0).val ∧ (i 0).val < win2_5.index ⟨(i 0).val / 5000, ht⟩ (0 : Fin 2) * 5000 + 5000; rw [e50]; show (i 0).val / 5000 * 5000 ≤ (i 0).val ∧ (i 0).val < (i 0).val / 5000 * 5000 + 5000; omega
  | ⟨1, _⟩ => show win2_5.index ⟨(i 0).val / 5000, ht⟩ (1 : Fin 2) * 32 ≤ (i 1).val ∧ (i 1).val < win2_5.index ⟨(i 0).val / 5000, ht⟩ (1 : Fin 2) * 32 + 32; rw [e51]; omega

/-- The third pallas_call's result array after its twenty points: one graph layer of the arrays it was handed. -/
theorem value2 (c : Dev nD) (A XW : FVec Ideal Cert.ReferenceIdeal.S100000x32 .f32) (D : FVec Ideal Cert.ReferenceIdeal.S100000 .f32)
    (B : FVec Ideal Cert.ReferenceIdeal.S32 .f32) (W : FVec Ideal Cert.ReferenceIdeal.S32x32 .f32)
    (hA : V c main_v63 = A) (hXW : V c main_v51 = XW)
    (hD : ∀ r : Fin 100000, V c main_v28 (ix2 r (0 : Fin 1)) = D (ix1 r))
    (hB : ∀ b : Fin 32, V c main_v34 (ix2 (0 : Fin 1) b) = B (ix1 b))
    (hW : V c main_arg13 = W) :
    (dat2 V c).arrAt 5 cfg2.N = Cert.Spec.layer (F := Ideal) A XW D B W :=
  (dat2 V c).arrAt_eq_of_cover 5 (Cert.Spec.layer (F := Ideal) A XW D B W)
    (fun t _ => flushed2 V c A XW D B W hA hXW hD hB hW t) cover2

end Cert.KernelIdeal.Region2
end
-- ==== Proof.KRegion3.lean ====
/-
  The fourth pallas_call (the last graph layer's bias, self-loop and clamp, then the prediction head and the priors)
  read as a whole-array function: block `t` of its result is what point `t` writes, the payload of rows
  `5000 t … 5000 t + 4999` of the arrays it is handed, and the twenty blocks tile the 100000 rows.
-/
import proofs.«110162_j63848983822724_1_alg».proof.Proof.Spec
import proofs.«110162_j63848983822724_1_alg».proof.Proof.BlockLayer
import proofs.«110162_j63848983822724_1_alg».proof.Proof.Gen.KernelIdeal.Frame
import proofs.«110162_j63848983822724_1_alg».proof.Proof.Gen.ReferenceIdeal
import Idealize.ShloMosaic.Lib.ValueIdx
import Idealize.ShloMosaic.Lib.Pipeline.Value

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- The index maps of the fourth pallas_call over its twenty points: the row-blocked windows sit at block row `t`,
    the weight and bias windows at the origin. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = t.val ∧ win3_8.index t (1 : Fin 2) = 0
    ∧ win3_9.index t (0 : Fin 2) = t.val ∧ win3_9.index t (1 : Fin 2) = 0 :=
  (by decide +kernel : ∀ t : Fin grid3.N, _)

set_option maxHeartbeats 2000000 in
/-- What point `t` writes back is block `t` of the prediction head of the whole arrays. -/
theorem flushed3 (c : Dev nD) (A XW : FVec Ideal Cert.ReferenceIdeal.S100000x32 .f32) (D : FVec Ideal Cert.ReferenceIdeal.S100000 .f32)
    (B : FVec Ideal Cert.ReferenceIdeal.S32 .f32) (Wp1 : FVec Ideal Cert.ReferenceIdeal.S32x32 .f32)
    (bp1 : FVec Ideal Cert.ReferenceIdeal.S32 .f32) (Wp2 : FVec Ideal Cert.ReferenceIdeal.S32x1 .f32)
    (bp2 : FVec Ideal Cert.ReferenceIdeal.S1 .f32) (priors : FVec Ideal Cert.ReferenceIdeal.S100000x1 .f32)
    (hA : V c main_v76 = A) (hXW : V c main_v64 = XW)
    (hD : ∀ r : Fin 100000, V c main_v28 (ix2 r (0 : Fin 1)) = D (ix1 r))
    (hB : ∀ b : Fin 32, V c main_v35 (ix2 (0 : Fin 1) b) = B (ix1 b))
    (hW1 : V c main_arg15 = Wp1)
    (hb1 : ∀ b : Fin 32, V c main_v36 (ix2 (0 : Fin 1) b) = bp1 (ix1 b))
    (hW2 : V c main_arg17 = Wp2)
    (hb2 : V c main_v37 (ix2 (0 : Fin 1) (0 : Fin 1)) = bp2 (ix1 (0 : Fin 1)))
    (hP : V c main_arg2 = priors) (t : Fin cfg3.N) :
    (dat3 V c).flushed 9 t = ((cfg3.win 9).blk t).view.read (Elt Ideal)
      (Cert.Spec.head (F := Ideal) (Cert.Spec.act (F := Ideal) A XW D B) Wp1 bp1 Wp2 bp2 priors) := by
  show (cfg3.win 9).cut (grid3.coords t) ((dat3 V c).after 9 t) = _
  rw [after3_9]
  unfold out3_9
  rw [View.canon_unit_zero hz2]
  simp only [View.ld_unit_zero (S := S5000x32) hz2, View.ld_unit_zero (S := S5000x1) hz2, View.ld_unit_zero (S := S1x32) hz2,
    View.ld_unit_zero (S := S32x32) hz2, View.ld_unit_zero (S := S32x1) hz2, View.ld_unit_zero (S := S1x1) hz2]
  obtain ⟨e00, e01, e10, e11, e20, e21, e30, e31, e40, e41, e50, e51, e60, e61, e70, e71, e80, e81, e90, e91⟩ := idx_facts3 t
  have ht : t.val < 20 := lt_of_lt_of_eq t.isLt N_3
  funext j
  show k3_pay1 (iblk3 V c 0 t) (iblk3 V c 1 t) (iblk3 V c 2 t) (iblk3 V c 3 t) (iblk3 V c 4 t) (iblk3 V c 5 t)
      (iblk3 V c 6 t) (iblk3 V c 7 t) (iblk3 V c 8 t) j
    = Cert.Spec.head (F := Ideal) (Cert.Spec.act (F := Ideal) A XW D B) Wp1 bp1 Wp2 bp2 priors (((cfg3.win 9).blk t).view.emb j)
  obtain ⟨p, q, rfl⟩ : ∃ (p : Fin 5000) (q : Fin 1), j = ix2 p q := ⟨j 0, j 1, eq_ix2 j⟩
  obtain rfl : q = 0 := Subsingleton.elim _ _
  have hr : t.val * 5000 + p.val < 100000 := by have := p.isLt; omega
  have hemb9 : ((cfg3.win 9).blk t).view.emb (ix2 p (0 : Fin 1)) = ix2 (⟨t.val * 5000 + p.val, hr⟩ : Fin 100000) (0 : Fin 1) := by
    funext a; apply Fin.ext
    match a with
    | ⟨0, _⟩ => show win3_9.index t (0 : Fin 2) * 5000 + 1 * p.val = t.val * 5000 + p.val; omega
    | ⟨1, _⟩ => show win3_9.index t (1 : Fin 2) * 1 + 1 * 0 = 0; omega
  rw [hemb9]
  refine Cert.Blocks.head_block A XW D B Wp1 bp1 Wp2 bp2 priors _ _ _ _ _ _ _ _ _ p ⟨t.val * 5000 + p.val, hr⟩
    ?_ ?_ ?_ ?_ ?_ ?_ ?_ ?_ ?_
  · intro k
    show V c main_v76 (((cfg3.win 0).blk t).view.emb (ix2 p k)) = A (ix2 _ k)
    rw [hA]
    refine congrArg A ?_
    funext a; apply Fin.ext
    match a with
    | ⟨0, _⟩ => show win3_0.index t (0 : Fin 2) * 5000 + 1 * p.val = t.val * 5000 + p.val; omega
    | ⟨1, _⟩ => show win3_0.index t (1 : Fin 2) * 32 + 1 * k.val = k.val; omega
  · intro k
    show V c main_v64 (((cfg3.win 1).blk t).view.emb (ix2 p k)) = XW (ix2 _ k)
    rw [hXW]
    refine congrArg XW ?_
    funext a; apply Fin.ext
    match a with
    | ⟨0, _⟩ => show win3_1.index t (0 : Fin 2) * 5000 + 1 * p.val = t.val * 5000 + p.val; omega
    | ⟨1, _⟩ => show win3_1.index t (1 : Fin 2) * 32 + 1 * k.val = k.val; omega
  · show V c main_v28 (((cfg3.win 2).blk t).view.emb (ix2 p (0 : Fin 1))) = D (ix1 _)
    rw [← hD]
    refine congrArg (V c main_v28) ?_
    funext a; apply Fin.ext
    match a with
    | ⟨0, _⟩ => show win3_2.index t (0 : Fin 2) * 5000 + 1 * p.val = t.val * 5000 + p.val; omega
    | ⟨1, _⟩ => show win3_2.index t (1 : Fin 2) * 1 + 1 * 0 = 0; omega
  · intro b
    show V c main_v35 (((cfg3.win 3).blk t).view.emb (ix2 (0 : Fin 1) b)) = B (ix1 b)
    rw [← hB]
    refine congrArg (V c main_v35) ?_
    funext a; apply Fin.ext
    match a with
    | ⟨0, _⟩ => show win3_3.index t (0 : Fin 2) * 1 + 1 * 0 = 0; omega
    | ⟨1, _⟩ => show win3_3.index t (1 : Fin 2) * 32 + 1 * b.val = b.val; omega
  · intro a b
    show V c main_arg15 (((cfg3.win 4).blk t).view.emb (ix2 a b)) = Wp1 (ix2 a b)
    rw [hW1]
    refine congrArg Wp1 ?_
    funext a'; apply Fin.ext
    match a' with
    | ⟨0, _⟩ => show win3_4.index t (0 : Fin 2) * 32 + 1 * a.val = a.val; omega
    | ⟨1, _⟩ => show win3_4.index t (1 : Fin 2) * 32 + 1 * b.val = b.val; omega
  · intro b
    show V c main_v36 (((cfg3.win 5).blk t).view.emb (ix2 (0 : Fin 1) b)) = bp1 (ix1 b)
    rw [← hb1]
    refine congrArg (V c main_v36) ?_
    funext a; apply Fin.ext
    match a with
    | ⟨0, _⟩ => show win3_5.index t (0 : Fin 2) * 1 + 1 * 0 = 0; omega
    | ⟨1, _⟩ => show win3_5.index t (1 : Fin 2) * 32 + 1 * b.val = b.val; omega
  · intro a
    show V c main_arg17 (((cfg3.win 6).blk t).view.emb (ix2 a (0 : Fin 1))) = Wp2 (ix2 a (0 : Fin 1))
    rw [hW2]
    refine congrArg Wp2 ?_
    funext a'; apply Fin.ext
    match a' with
    | ⟨0, _⟩ => show win3_6.index t (0 : Fin 2) * 32 + 1 * a.val = a.val; omega
    | ⟨1, _⟩ => show win3_6.index t (1 : Fin 2) * 1 + 1 * 0 = 0; omega
  · show V c main_v37 (((cfg3.win 7).blk t).view.emb (ix2 (0 : Fin 1) (0 : Fin 1))) = bp2 (ix1 (0 : Fin 1))
    rw [← hb2]
    refine congrArg (V c main_v37) ?_
    funext a; apply Fin.ext
    match a with
    | ⟨0, _⟩ => show win3_7.index t (0 : Fin 2) * 1 + 1 * 0 = 0; omega
    | ⟨1, _⟩ => show win3_7.index t (1 : Fin 2) * 1 + 1 * 0 = 0; omega
  · show V c main_arg2 (((cfg3.win 8).blk t).view.emb (ix2 p (0 : Fin 1))) = priors (ix2 _ (0 : Fin 1))
    rw [hP]
    refine congrArg priors ?_
    funext a; apply Fin.ext
    match a with
    | ⟨0, _⟩ => show win3_8.index t (0 : Fin 2) * 5000 + 1 * p.val = t.val * 5000 + p.val; omega
    | ⟨1, _⟩ => show win3_8.index t (1 : Fin 2) * 1 + 1 * 0 = 0; omega

/-- An index of the result array lies in point `t`'s block iff each coordinate is in the block's range on its axis. -/
theorem mem_blk3 (t : Fin cfg3.N) (i : S100000x1.Idx) :
    i ∈ ((cfg3.win 9).blk t).view.set ↔ ∀ a : Fin 2, win3_9.index t a * S5000x1.size a ≤ (i a).val ∧ (i a).val < win3_9.index t a * S5000x1.size a + S5000x1.size a := by
  show i ∈ ((View.whole main_v77).slice (win3_9.rect t)).set ↔ _
  rw [View.set_slice_whole, Rect.mem_set_unit]
  exact Iff.rfl

/-- The twenty blocks of 5000 rows tile the 100000 rows: row `r` is in block `r / 5000`. -/
theorem cover3 (i : S100000x1.Idx) : ∃ t : Fin cfg3.N, (cfg3.win 9).flush t = true ∧ i ∈ ((cfg3.win 9).blk t).view.set := by
  have hi0 : (i 0).val < 100000 := (i 0).isLt
  have hi1 : (i 1).val < 1 := (i 1).isLt
  have ht : (i 0).val / 5000 < cfg3.N := lt_of_lt_of_eq (by omega : (i 0).val / 5000 < 20) N_3.symm
  refine ⟨⟨(i 0).val / 5000, ht⟩, flush3_9 _, ?_⟩
  obtain ⟨-, -, -, -, -, -, -, -, -, -, -, -, -, -, -, -, -, -, e90, e91⟩ := idx_facts3 ⟨(i 0).val / 5000, ht⟩
  rw [mem_blk3]
  intro a
  match a with
  | ⟨0, _⟩ => show win3_9.index ⟨(i 0).val / 5000, ht⟩ (0 : Fin 2) * 5000 ≤ (i 0).val ∧ (i 0).val < win3_9.index ⟨(i 0).val / 5000, ht⟩ (0 : Fin 2) * 5000 + 5000; rw [e90]; show (i 0).val / 5000 * 5000 ≤ (i 0).val ∧ (i 0).val < (i 0).val / 5000 * 5000 + 5000; omega
  | ⟨1, _⟩ => show win3_9.index ⟨(i 0).val / 5000, ht⟩ (1 : Fin 2) * 1 ≤ (i 1).val ∧ (i 1).val < win3_9.index ⟨(i 0).val / 5000, ht⟩ (1 : Fin 2) * 1 + 1; rw [e91]; omega

/-- The fourth pallas_call's result array after its twenty points: the prediction head of the last layer's activation of
    the arrays it was handed. -/
theorem value3 (c : Dev nD) (A XW : FVec Ideal Cert.ReferenceIdeal.S100000x32 .f32) (D : FVec Ideal Cert.ReferenceIdeal.S100000 .f32)
    (B : FVec Ideal Cert.ReferenceIdeal.S32 .f32) (Wp1 : FVec Ideal Cert.ReferenceIdeal.S32x32 .f32)
    (bp1 : FVec Ideal Cert.ReferenceIdeal.S32 .f32) (Wp2 : FVec Ideal Cert.ReferenceIdeal.S32x1 .f32)
    (bp2 : FVec Ideal Cert.ReferenceIdeal.S1 .f32) (priors : FVec Ideal Cert.ReferenceIdeal.S100000x1 .f32)
    (hA : V c main_v76 = A) (hXW : V c main_v64 = XW)
    (hD : ∀ r : Fin 100000, V c main_v28 (ix2 r (0 : Fin 1)) = D (ix1 r))
    (hB : ∀ b : Fin 32, V c main_v35 (ix2 (0 : Fin 1) b) = B (ix1 b))
    (hW1 : V c main_arg15 = Wp1)
    (hb1 : ∀ b : Fin 32, V c main_v36 (ix2 (0 : Fin 1) b) = bp1 (ix1 b))
    (hW2 : V c main_arg17 = Wp2)
    (hb2 : V c main_v37 (ix2 (0 : Fin 1) (0 : Fin 1)) = bp2 (ix1 (0 : Fin 1)))
    (hP : V c main_arg2 = priors) :
    (dat3 V c).arrAt 9 cfg3.N = Cert.Spec.head (F := Ideal) (Cert.Spec.act (F := Ideal) A XW D B) Wp1 bp1 Wp2 bp2 priors :=
  (dat3 V c).arrAt_eq_of_cover 9 (Cert.Spec.head (F := Ideal) (Cert.Spec.act (F := Ideal) A XW D B) Wp1 bp1 Wp2 bp2 priors)
    (fun t _ => flushed3 V c A XW D B Wp1 bp1 Wp2 bp2 priors hA hXW hD hB hW1 hb1 hW2 hb2 hP t) cover3

end Cert.KernelIdeal.Region3
end
-- ==== Proof.KValue.lean ====
/-
  The idealized kernel's result buffer after the run is the network's function of the argument arrays: the buffer
  contents are followed through the four host stretches and the four pallas_calls — the arrays a stretch or a call
  does not write are carried along unchanged, each call's result array is its stage of the network of the arrays it
  was handed, each later stretch aggregates the previous call's rows over the edges.
-/
import proofs.«110162_j63848983822724_1_alg».proof.Proof.SpecAll
import proofs.«110162_j63848983822724_1_alg».proof.Proof.KHost
import proofs.«110162_j63848983822724_1_alg».proof.Proof.KRegion0
import proofs.«110162_j63848983822724_1_alg».proof.Proof.KRegion1
import proofs.«110162_j63848983822724_1_alg».proof.Proof.KRegion2
import proofs.«110162_j63848983822724_1_alg».proof.Proof.KRegion3

set_option maxRecDepth 16384

noncomputable section

namespace Cert.KernelIdeal.KValue

open Cert.KernelIdeal Cert.KernelIdeal.Gen Cert.KernelIdeal.HostReads
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg) (c : Dev nD)

/-! ## A pallas_call changes only its result array -/

/-- The first call leaves every buffer but its result array as it found it. -/
theorem pass0 (b : Ref sig .tc) (hb : b ≠ main_v38) : W2 m ρ c (Proc.devRef .tc b) = W1 m ρ c (Proc.devRef .tc b) := by
  by_cases h : ∃ w, Pipeline.arrRef spec0 w = b
  · obtain ⟨w, rfl⟩ := h
    have hw : (cfg0.win w).isOut = false := by
      fin_cases w <;> first | rfl | exact absurd rfl hb
    exact (W2_arr m ρ c w).trans (((dat0 (V1 m ρ) c).arrAt_in w hw _).trans (A_eq0 (V1 m ρ) c w))
  · exact W2_of_ne m ρ c b fun w e => h ⟨w, e⟩

/-- So does the second. -/
theorem pass1 (b : Ref sig .tc) (hb : b ≠ main_v51) : W4 m ρ c (Proc.devRef .tc b) = W3 m ρ c (Proc.devRef .tc b) := by
  by_cases h : ∃ w, Pipeline.arrRef spec1 w = b
  · obtain ⟨w, rfl⟩ := h
    have hw : (cfg1.win w).isOut = false := by
      fin_cases w <;> first | rfl | exact absurd rfl hb
    exact (W4_arr m ρ c w).trans (((dat1 (V3 m ρ) c).arrAt_in w hw _).trans (A_eq1 (V3 m ρ) c w))
  · exact W4_of_ne m ρ c b fun w e => h ⟨w, e⟩

/-- And the third. -/
theorem pass2 (b : Ref sig .tc) (hb : b ≠ main_v64) : W6 m ρ c (Proc.devRef .tc b) = W5 m ρ c (Proc.devRef .tc b) := by
  by_cases h : ∃ w, Pipeline.arrRef spec2 w = b
  · obtain ⟨w, rfl⟩ := h
    have hw : (cfg2.win w).isOut = false := by
      fin_cases w <;> first | rfl | exact absurd rfl hb
    exact (W6_arr m ρ c w).trans (((dat2 (V5 m ρ) c).arrAt_in w hw _).trans (A_eq2 (V5 m ρ) c w))
  · exact W6_of_ne m ρ c b fun w e => h ⟨w, e⟩

/-! ## Buffers carried from the first stretch's end to a later boundary -/

theorem to1_3 (b : Ref sig .tc) (k1 : b ∉ written1) (p0 : b ≠ main_v38) :
    W3 m ρ c (Proc.devRef .tc b) = W1 m ρ c (Proc.devRef .tc b) :=
  (keep1 (W2 m ρ c) k1).trans (pass0 m ρ c b p0)

theorem to1_4 (b : Ref sig .tc) (p1 : b ≠ main_v51) (k1 : b ∉ written1) (p0 : b ≠ main_v38) :
    W4 m ρ c (Proc.devRef .tc b) = W1 m ρ c (Proc.devRef .tc b) :=
  (pass1 m ρ c b p1).trans (to1_3 m ρ c b k1 p0)

theorem to1_5 (b : Ref sig .tc) (k2 : b ∉ written2) (p1 : b ≠ main_v51) (k1 : b ∉ written1) (p0 : b ≠ main_v38) :
    W5 m ρ c (Proc.devRef .tc b) = W1 m ρ c (Proc.devRef .tc b) :=
  (keep2 (W4 m ρ c) k2).trans (to1_4 m ρ c b p1 k1 p0)

theorem to1_6 (b : Ref sig .tc) (p2 : b ≠ main_v64) (k2 : b ∉ written2) (p1 : b ≠ main_v51) (k1 : b ∉ written1) (p0 : b ≠ main_v38) :
    W6 m ρ c (Proc.devRef .tc b) = W1 m ρ c (Proc.devRef .tc b) :=
  (pass2 m ρ c b p2).trans (to1_5 m ρ c b k2 p1 k1 p0)

theorem to1_7 (b : Ref sig .tc) (k3 : b ∉ written3) (p2 : b ≠ main_v64) (k2 : b ∉ written2) (p1 : b ≠ main_v51)
    (k1 : b ∉ written1) (p0 : b ≠ main_v38) :
    W7 m ρ c (Proc.devRef .tc b) = W1 m ρ c (Proc.devRef .tc b) :=
  (keep3 (W6 m ρ c) k3).trans (to1_6 m ρ c b p2 k2 p1 k1 p0)

/-- An argument array the first stretch does not write holds its launch contents at the stretch's end. -/
theorem arg1 (b : Ref sig .tc) (k0 : b ∉ written0) : W1 m ρ c (Proc.devRef .tc b) = m ((c : Thread nD τ).loc b) :=
  keep0 (W0 m ρ c) k0

/-! ## The four calls' result arrays -/

/-- The first call's rows: the embedding perceptron times the first layer's weights. -/
theorem rows1 : W2 m ρ c (Proc.devRef .tc main_v38)
    = Cert.Spec.embed (F := Ideal) (m ((c : Thread nD τ).loc main_arg0)) (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) :=
  (W2_arr m ρ c 9).trans (Cert.KernelIdeal.Region0.value0 (V1 m ρ) c _ _ _ _ _ _ _ _
    (arg1 m ρ c main_arg0 (by decide)) (arg1 m ρ c main_arg3 (by decide)) (arg1 m ρ c main_arg4 (by decide))
    (fun a b => h0_v29 (W0 m ρ c) a b) (fun a b => h0_v30 (W0 m ρ c) a b) (fun b => h0_v31 (W0 m ρ c) b)
    (arg1 m ρ c main_arg7 (by decide)) (fun b => h0_v32 (W0 m ρ c) b) (arg1 m ρ c main_arg9 (by decide)))

/-- The second call's rows: one graph layer over the first call's. -/
theorem rows2 (xw1 : FVec Ideal Cert.ReferenceIdeal.S100000x32 .f32) (h : W2 m ρ c (Proc.devRef .tc main_v38) = xw1) :
    W4 m ρ c (Proc.devRef .tc main_v51)
      = Cert.Spec.xw2 (F := Ideal) (m ((c : Thread nD τ).loc main_arg1)) xw1 (m ((c : Thread nD τ).loc main_arg10)) (m ((c : Thread nD τ).loc main_arg11)) :=
  (W4_arr m ρ c 5).trans (Cert.KernelIdeal.Region1.value1 (V3 m ρ) c _ _ _ _ _
    (agg1 (W2 m ρ c) (m ((c : Thread nD τ).loc main_arg1)) xw1
      ((pass0 m ρ c main_v1 (by decide)).trans (h0_v1 (W0 m ρ c)))
      ((pass0 m ρ c main_v3 (by decide)).trans (h0_v3 (W0 m ρ c)))
      ((pass0 m ρ c main_v27 (by decide)).trans (h0_v27 (W0 m ρ c))) h)
    ((keep1 (W2 m ρ c) (by decide)).trans h)
    (fun r => (congrFun (to1_3 m ρ c main_v28 (by decide) (by decide)) (ix2 r (0 : Fin 1))).trans (h0_v28 (W0 m ρ c) r))
    (fun b => (congrFun (to1_3 m ρ c main_v33 (by decide) (by decide)) (ix2 (0 : Fin 1) b)).trans (h0_v33 (W0 m ρ c) b))
    ((to1_3 m ρ c main_arg11 (by decide) (by decide)).trans (arg1 m ρ c main_arg11 (by decide))))

/-- The third call's rows: one graph layer over the second call's. -/
theorem rows3 (xw2 : FVec Ideal Cert.ReferenceIdeal.S100000x32 .f32) (h : W4 m ρ c (Proc.devRef .tc main_v51) = xw2) :
    W6 m ρ c (Proc.devRef .tc main_v64)
      = Cert.Spec.xw2 (F := Ideal) (m ((c : Thread nD τ).loc main_arg1)) xw2 (m ((c : Thread nD τ).loc main_arg12)) (m ((c : Thread nD τ).loc main_arg13)) :=
  (W6_arr m ρ c 5).trans (Cert.KernelIdeal.Region2.value2 (V5 m ρ) c _ _ _ _ _
    (agg2 (W4 m ρ c) (m ((c : Thread nD τ).loc main_arg1)) xw2
      ((to1_4 m ρ c main_v1 (by decide) (by decide) (by decide)).trans (h0_v1 (W0 m ρ c)))
      ((to1_4 m ρ c main_v3 (by decide) (by decide) (by decide)).trans (h0_v3 (W0 m ρ c)))
      ((to1_4 m ρ c main_v27 (by decide) (by decide) (by decide)).trans (h0_v27 (W0 m ρ c))) h)
    ((keep2 (W4 m ρ c) (by decide)).trans h)
    (fun r => (congrFun (to1_5 m ρ c main_v28 (by decide) (by decide) (by decide) (by decide)) (ix2 r (0 : Fin 1))).trans (h0_v28 (W0 m ρ c) r))
    (fun b => (congrFun (to1_5 m ρ c main_v34 (by decide) (by decide) (by decide) (by decide)) (ix2 (0 : Fin 1) b)).trans (h0_v34 (W0 m ρ c) b))
    ((to1_5 m ρ c main_arg13 (by decide) (by decide) (by decide) (by decide)).trans (arg1 m ρ c main_arg13 (by decide))))

/-- The fourth call's result: the last layer's activation through the prediction head, plus the priors. -/
theorem out4 (xw3 : FVec Ideal Cert.ReferenceIdeal.S100000x32 .f32) (h : W6 m ρ c (Proc.devRef .tc main_v64) = xw3) :
    W8 m ρ c (Proc.devRef .tc main_v77)
      = Cert.Spec.head (F := Ideal)
          (Cert.Spec.act (F := Ideal) (Cert.Spec.agg (F := Ideal) (m ((c : Thread nD τ).loc main_arg1)) xw3) xw3
            (Cert.Spec.dis (F := Ideal) (m ((c : Thread nD τ).loc main_arg1))) (m ((c : Thread nD τ).loc main_arg14)))
          (m ((c : Thread nD τ).loc main_arg15)) (m ((c : Thread nD τ).loc main_arg16)) (m ((c : Thread nD τ).loc main_arg17)) (m ((c : Thread nD τ).loc main_arg18)) (m ((c : Thread nD τ).loc main_arg2)) :=
  (W8_arr m ρ c 9).trans (Cert.KernelIdeal.Region3.value3 (V7 m ρ) c _ _ _ _ _ _ _ _ _
    (agg3 (W6 m ρ c) (m ((c : Thread nD τ).loc main_arg1)) xw3
      ((to1_6 m ρ c main_v1 (by decide) (by decide) (by decide) (by decide) (by decide)).trans (h0_v1 (W0 m ρ c)))
      ((to1_6 m ρ c main_v3 (by decide) (by decide) (by decide) (by decide) (by decide)).trans (h0_v3 (W0 m ρ c)))
      ((to1_6 m ρ c main_v27 (by decide) (by decide) (by decide) (by decide) (by decide)).trans (h0_v27 (W0 m ρ c))) h)
    ((keep3 (W6 m ρ c) (by decide)).trans h)
    (fun r => (congrFun (to1_7 m ρ c main_v28 (by decide) (by decide) (by decide) (by decide) (by decide) (by decide)) (ix2 r (0 : Fin 1))).trans (h0_v28 (W0 m ρ c) r))
    (fun b => (congrFun (to1_7 m ρ c main_v35 (by decide) (by decide) (by decide) (by decide) (by decide) (by decide)) (ix2 (0 : Fin 1) b)).trans (h0_v35 (W0 m ρ c) b))
    ((to1_7 m ρ c main_arg15 (by decide) (by decide) (by decide) (by decide) (by decide) (by decide)).trans (arg1 m ρ c main_arg15 (by decide)))
    (fun b => (congrFun (to1_7 m ρ c main_v36 (by decide) (by decide) (by decide) (by decide) (by decide) (by decide)) (ix2 (0 : Fin 1) b)).trans (h0_v36 (W0 m ρ c) b))
    ((to1_7 m ρ c main_arg17 (by decide) (by decide) (by decide) (by decide) (by decide) (by decide)).trans (arg1 m ρ c main_arg17 (by decide)))
    ((congrFun (to1_7 m ρ c main_v37 (by decide) (by decide) (by decide) (by decide) (by decide) (by decide)) (ix2 (0 : Fin 1) (0 : Fin 1))).trans (h0_v37 (W0 m ρ c)))
    ((to1_7 m ρ c main_arg2 (by decide) (by decide) (by decide) (by decide) (by decide) (by decide)).trans (arg1 m ρ c main_arg2 (by decide))))

/-- THE KERNEL'S VALUE: the result buffer after the run is the network's function of the launch contents of the
    nineteen argument arrays. -/
theorem result_eq : W8 m ρ c (Proc.devRef .tc main_v77)
    = Cert.Spec.result (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) :=
  out4 m ρ c _ (rows3 m ρ c _ (rows2 m ρ c _ (rows1 m ρ c)))

end Cert.KernelIdeal.KValue

end
-- ==== Proof.RefSide.lean ====
/-
  The reference program's run ends with its result at the network's function of the argument arrays: the run's
  composed term is, operation for operation, the stages of that function.
-/
import proofs.«110162_j63848983822724_1_alg».proof.Proof.SpecAll
import proofs.«110162_j63848983822724_1_alg».proof.Proof.Gen.ReferenceIdeal.Run

set_option maxRecDepth 16384

noncomputable section

namespace Cert.RefSide

open Idealize.ShloMosaic Idealize.ShloMosaic.TcCoe Idealize.SL.Sem

/-- The composed term of the reference's run is the network's function of the launch contents of the arguments. -/
theorem res_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v148 (F := Ideal) m c
      = Cert.Spec.result (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) := by
  unfold Cert.ReferenceIdeal.Value.res_main_v148 Cert.Spec.result Cert.Spec.tail Cert.Spec.head Cert.Spec.xw2 Cert.Spec.layer
    Cert.Spec.act Cert.Spec.embed Cert.Spec.rows32 Cert.Spec.agg Cert.Spec.norm Cert.Spec.dis Cert.Spec.wrap Cert.Spec.src Cert.Spec.dst
  rfl

end Cert.RefSide

end
-- ==== Proof.lean ====
/-
  The claim: the Pallas graph network (four row-blocked kernels with the edge aggregations on the host between them)
  against the plain jnp network. Both compute, over the extended reals, the same function of the nineteen argument
  arrays (Proof/Spec.lean, Proof/SpecAll.lean): the inverse square roots of the node degrees and the edge weights, the
  embedding perceptron `tanh (tanh ([x | S R] We1 + be1) We2 + be2)`, three graph layers
  `max (agg + xw · d² + b, 0)` with `agg` the edge-weighted sum of the neighbours' rows, and the prediction head plus the
  priors. The kernel splits the first product over the concatenated 192 columns into its 128- and 64-column halves
  (a finite sum split in two, which needs no finiteness) and works on blocks of 5000 rows, each row of every stage
  depending only on the same row of the stage's inputs; the aggregations are the same host operations on both sides.
  The three frames are the programs' runs with the results dropped; no ideal-pass rewrite was made, so `preserves` is
  trivial.
-/
import proofs.«110162_j63848983822724_1_alg».proof.Defs
import proofs.«110162_j63848983822724_1_alg».proof.Proof.Gen.Kernel
import proofs.«110162_j63848983822724_1_alg».proof.Proof.Gen.Kernel.Skeleton
import proofs.«110162_j63848983822724_1_alg».proof.Proof.Gen.Kernel.Launch
import proofs.«110162_j63848983822724_1_alg».proof.Proof.Gen.Kernel.Points
import proofs.«110162_j63848983822724_1_alg».proof.Proof.Gen.Kernel.Frame
import proofs.«110162_j63848983822724_1_alg».proof.Proof.Gen.KernelIdeal
import proofs.«110162_j63848983822724_1_alg».proof.Proof.Gen.KernelIdeal.Skeleton
import proofs.«110162_j63848983822724_1_alg».proof.Proof.Gen.KernelIdeal.Launch
import proofs.«110162_j63848983822724_1_alg».proof.Proof.Gen.KernelIdeal.Points
import proofs.«110162_j63848983822724_1_alg».proof.Proof.Gen.KernelIdeal.Frame
import proofs.«110162_j63848983822724_1_alg».proof.Proof.Gen.ReferenceIdeal
import proofs.«110162_j63848983822724_1_alg».proof.Proof.Gen.ReferenceIdeal.Run
import proofs.«110162_j63848983822724_1_alg».proof.Proof.Gen.Pre_finite_inputs
import proofs.«110162_j63848983822724_1_alg».proof.Proof.KRun
import proofs.«110162_j63848983822724_1_alg».proof.Proof.KValue
import proofs.«110162_j63848983822724_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals both programs end with the network's function of the argument arrays in their result
    buffers: the kernel by following its buffers through the stretches and the calls, the reference by reading its
    run's composed term, and the two from arguments that agree. -/
theorem algebraic : Cert.algebraic_KernelIdeal_ReferenceIdeal := by
  intro m ρ m' ρ' _ hagree
  refine ⟨fun c => Cert.Spec.result (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)), ?_, ?_⟩
  · exact (θ_run Cert.KernelIdeal.defs _ _).mono
      (fun _ h c => ⟨(h c).1.trans (Cert.KernelIdeal.KValue.result_eq m ρ c), (h c).2⟩)
      (Cert.KernelIdeal.RunValue.run_value m ρ)
  · refine (θ_run Cert.ReferenceIdeal.defs _ _).mono (fun _ h c => ⟨(h c).1.trans ?_, (h c).2⟩)
      (Cert.ReferenceIdeal.Value.run (F := Ideal) m' ρ')
    rw [Cert.RefSide.res_eq m' c]
    obtain ⟨a0, a1, a2, a3, a4, a5, a6, a7, a8, a9, a10, a11, a12, a13, a14, a15, a16, a17, a18⟩ := hagree c
    rw [a0, a1, a2, a3, a4, a5, a6, a7, a8, a9, a10, a11, a12, a13, a14, a15, a16, a17, a18]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
